-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x960 : Shape := ⟨3, ![4, 16384, 960]⟩
abbrev S448 : Shape := ⟨1, ![448]⟩
abbrev S256 : Shape := ⟨1, ![256]⟩
abbrev S_ : Shape := ⟨0, ![]⟩

class Facts : Prop where
  bcast_S_S4x16384x960 : S_.BroadcastsInDim S4x16384x960 (![] : Fin 0 → Fin S4x16384x960.rank)
  reducesTo_S4x16384x960_S_d0_1_2 : S4x16384x960.ReducesTo [0, 1, 2] S_
  h_S_ : 0 < S_.numel
  bcast_S_S448 : S_.BroadcastsInDim S448 (![] : Fin 0 → Fin S448.rank)
  reducesTo_S448_S_d0 : S448.ReducesTo [0] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x16384x960 .f32) (main_arg1 : FVec F S448 .f32) (main_arg2 : FVec F S256 .f32) : IVec S_ 1 :=
  let main_v0 : FVec F S4x16384x960 .f32 := Host.absf main_arg0
  let main_cst : FVec F S_ .f32 := constant S_ .f32 0x7F800000#32
  let main_v1 : FVec F S4x16384x960 .f32 := broadcastInDim S4x16384x960 ![] bcast_S_S4x16384x960 main_cst
  let main_v2 : IVec S4x16384x960 1 := cmpf .olt main_v0 main_v1
  let main_c : IVec S_ 1 := constantI S_ 1 1#1
  let main_v3 : IVec S_ 1 := (fun x v => Host.reduce IntOp.andi x v reducesTo_S4x16384x960_S_d0_1_2 h_S_) main_v2 main_c
  let main_v4 : FVec F S448 .f32 := Host.absf main_arg1
  let main_cst_0 : FVec F S_ .f32 := constant S_ .f32 0x7F800000#32
  let main_v5 : FVec F S448 .f32 := broadcastInDim S448 ![] bcast_S_S448 main_cst_0
  let main_v6 : IVec S448 1 := cmpf .olt main_v4 main_v5
  let main_c_1 : IVec S_ 1 := constantI S_ 1 1#1
  let main_v7 : IVec S_ 1 := (fun x v => Host.reduce IntOp.andi x v reducesTo_S448_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x16384x960 : Shape := ⟨3, ![4, 16384, 960]⟩
abbrev S448 : Shape := ⟨1, ![448]⟩
abbrev S256 : Shape := ⟨1, ![256]⟩
abbrev S4x1x4 : Shape := ⟨3, ![4, 1, 4]⟩
abbrev S1x4096x960 : Shape := ⟨3, ![1, 4096, 960]⟩
abbrev S1x1x4 : Shape := ⟨3, ![1, 1, 4]⟩
abbrev S1x4 : Shape := ⟨2, ![1, 4]⟩
abbrev S4096x960 : Shape := ⟨2, ![4096, 960]⟩
abbrev S4096x256 : Shape := ⟨2, ![4096, 256]⟩
abbrev S4096x384 : Shape := ⟨2, ![4096, 384]⟩
abbrev S4096x320 : Shape := ⟨2, ![4096, 320]⟩
abbrev S1x4096x256 : Shape := ⟨3, ![1, 4096, 256]⟩
abbrev S1 : Shape := ⟨1, ![1]⟩
abbrev S1x1x1 : Shape := ⟨3, ![1, 1, 1]⟩
abbrev S1x1 : Shape := ⟨2, ![1, 1]⟩
abbrev S1x4096x384 : Shape := ⟨3, ![1, 4096, 384]⟩
abbrev S1x4096x320 : Shape := ⟨3, ![1, 4096, 320]⟩
abbrev S4x4 : Shape := ⟨2, ![4, 4]⟩
abbrev S4x1 : Shape := ⟨2, ![4, 1]⟩
abbrev S4 : Shape := ⟨1, ![4]⟩
abbrev S_ : Shape := ⟨0, ![]⟩
abbrev S128 : Shape := ⟨1, ![128]⟩
abbrev S128x3 : Shape := ⟨2, ![128, 3]⟩
abbrev S384 : Shape := ⟨1, ![384]⟩
abbrev S64 : Shape := ⟨1, ![64]⟩
abbrev S64x5 : Shape := ⟨2, ![64, 5]⟩
abbrev S320 : Shape := ⟨1, ![320]⟩
abbrev S1x2048x960 : Shape := ⟨3, ![1, 2048, 960]⟩
abbrev S2048x960 : Shape := ⟨2, ![2048, 960]⟩
abbrev S2048x256 : Shape := ⟨2, ![2048, 256]⟩
abbrev S2048x384 : Shape := ⟨2, ![2048, 384]⟩
abbrev S2048x320 : Shape := ⟨2, ![2048, 320]⟩
abbrev S1x256 : Shape := ⟨2, ![1, 256]⟩
abbrev S1x384 : Shape := ⟨2, ![1, 384]⟩
abbrev S1x320 : Shape := ⟨2, ![1, 320]⟩

abbrev nBuf : Space → Nat
  | .hbm => 53
  | .vmem => 15
  | .smem => 0
  | _ => 0

abbrev bufTy : (tb : Table) → Fin (tcTables nBuf tb) → BufTy
  | .hbm, ⟨0, _⟩ => ⟨S4x16384x960, .f32⟩
  | .hbm, ⟨1, _⟩ => ⟨S448, .f32⟩
  | .hbm, ⟨2, _⟩ => ⟨S256, .f32⟩
  | .hbm, ⟨3, _⟩ => ⟨S4x1x4, .f32⟩
  | .hbm, ⟨4, _⟩ => ⟨S4x4, .f32⟩
  | .hbm, ⟨5, _⟩ => ⟨S4x1, .f32⟩
  | .hbm, ⟨6, _⟩ => ⟨S4, .f32⟩
  | .hbm, ⟨7, _⟩ => ⟨S4x1, .f32⟩
  | .hbm, ⟨8, _⟩ => ⟨S4, .f32⟩
  | .hbm, ⟨9, _⟩ => ⟨S4x1, .f32⟩
  | .hbm, ⟨10, _⟩ => ⟨S4, .f32⟩
  | .hbm, ⟨11, _⟩ => ⟨S4x1, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4x1, .f32⟩
  | .hbm, ⟨40, _⟩ => ⟨S4x1, .f32⟩
  | .hbm, ⟨41, _⟩ => ⟨S4x1, .f32⟩
  | .hbm, ⟨42, _⟩ => ⟨S4x1, .f32⟩
  | .hbm, ⟨43, _⟩ => ⟨S4x4, .f32⟩
  | .hbm, ⟨44, _⟩ => ⟨S4x1x4, .f32⟩
  | .hbm, ⟨45, _⟩ => ⟨S256, .f32⟩
  | .hbm, ⟨46, _⟩ => ⟨S128, .f32⟩
  | .hbm, ⟨47, _⟩ => ⟨S128x3, .f32⟩
  | .hbm, ⟨48, _⟩ => ⟨S384, .f32⟩
  | .hbm, ⟨49, _⟩ => ⟨S64, .f32⟩
  | .hbm, ⟨50, _⟩ => ⟨S64x5, .f32⟩
  | .hbm, ⟨51, _⟩ => ⟨S320, .f32⟩
  | .hbm, ⟨52, _⟩ => ⟨S4x16384x960, .f32⟩
  | .local _ .vmem, ⟨0, _⟩ => ⟨S1x4096x960, .f32⟩
  | .local _ .vmem, ⟨1, _⟩ => ⟨S1x4096x960, .f32⟩
  | .local _ .vmem, ⟨2, _⟩ => ⟨S1x1x4, .f32⟩
  | .local _ .vmem, ⟨3, _⟩ => ⟨S1x1x4, .f32⟩
  | .local _ .vmem, ⟨4, _⟩ => ⟨S1x4, .f32⟩
  | .local _ .vmem, ⟨5, _⟩ => ⟨S1x2048x960, .f32⟩
  | .local _ .vmem, ⟨6, _⟩ => ⟨S1x2048x960, .f32⟩
  | .local _ .vmem, ⟨7, _⟩ => ⟨S1x1x4, .f32⟩
  | .local _ .vmem, ⟨8, _⟩ => ⟨S1x1x4, .f32⟩
  | .local _ .vmem, ⟨9, _⟩ => ⟨S256, .f32⟩
  | .local _ .vmem, ⟨10, _⟩ => ⟨S384, .f32⟩
  | .local _ .vmem, ⟨11, _⟩ => ⟨S320, .f32⟩
  | .local _ .vmem, ⟨12, _⟩ => ⟨S256, .f32⟩
  | .local _ .vmem, ⟨13, _⟩ => ⟨S1x2048x960, .f32⟩
  | .local _ .vmem, ⟨14, _⟩ => ⟨S1x2048x960, .f32⟩
  | _, _ => ⟨S4x16384x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_10 : BitVec 32 := 0#32
  let v39 : BitVec 1 := Scalar.cmpi .ne v38 c0_i32_10
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S320 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x2048x960 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S1x4096x960_S1x4096x960_0_0_0 : ∀ a, (![0, 0, 0] : Fin 3 → Nat) a + S1x4096x960.size a ≤ S1x4096x960.size a
  h_S1x4096x960 : 0 < S1x4096x960.numel
  shapeCasts_S1x4096x960_S4096x960 : S1x4096x960.ShapeCasts S4096x960
  slices_S4096x960_o0_0_S4096x256 : S4096x960.Slices ![0, 0] S4096x256
  slices_S4096x960_o0_256_S4096x384 : S4096x960.Slices ![0, 256] S4096x384
  slices_S4096x960_o0_640_S4096x320 : S4096x960.Slices ![0, 640] S4096x320
  shapeCasts_S4096x256_S1x4096x256 : S4096x256.ShapeCasts S1x4096x256
  reduces_S1x4096x256_S1 : S1x4096x256.Reduces [1, 2] S1
  shapeCasts_S1_S1x1x1 : S1.ShapeCasts S1x1x1
  inpos_S1x1x1_p0_0_0 : ∀ a, (![0, 0, 0] : Fin 3 → Nat) a < S1x1x1.size a
  shapeCasts_S4096x384_S1x4096x384 : S4096x384.ShapeCasts S1x4096x384
  reduces_S1x4096x384_S1 : S1x4096x384.Reduces [1, 2] S1
  shapeCasts_S4096x320_S1x4096x320 : S4096x320.ShapeCasts S1x4096x320
  reduces_S1x4096x320_S1 : S1x4096x320.Reduces [1, 2] S1
  concatenates_S1x1_S1x1_S1x1_S1x1_S1x4_d1 : Shape.Concatenates [S1x1, S1x1, S1x1, S1x1] S1x4 1
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x4_S1x1x4 : S1x4.ShapeCasts S1x1x4
  shapeCasts_S4x1x4_S4x4 : S4x1x4.ShapeCasts S4x4
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  bcast_S4_S4x1_0 : S4.BroadcastsInDim S4x1 (![0] : Fin 1 → Fin S4x1.rank)
  concatenates_S4x1_S4x1_S4x1_S4x1_S4x4_d1 : Shape.Concatenates [S4x1, S4x1, S4x1, S4x1] S4x4 1
  shapeCasts_S4x4_S4x1x4 : S4x4.ShapeCasts S4x1x4
  slices_S448_S256_0 : S448.Slices ![0] S256
  slices_S448_S128_256 : S448.Slices ![256] S128
  bcast_S128_S128x3_0 : S128.BroadcastsInDim S128x3 (![0] : Fin 1 → Fin S128x3.rank)
  shapeCasts_S128x3_S384 : S128x3.ShapeCasts S384
  slices_S448_S64_384 : S448.Slices ![384] S64
  bcast_S64_S64x5_0 : S64.BroadcastsInDim S64x5 (![0] : Fin 1 → Fin S64x5.rank)
  shapeCasts_S64x5_S320 : S64x5.ShapeCasts S320
  inb_S1x2048x960_S1x2048x960_0_0_0 : ∀ a, (![0, 0, 0] : Fin 3 → Nat) a + S1x2048x960.size a ≤ S1x2048x960.size a
  h_S1x2048x960 : 0 < S1x2048x960.numel
  shapeCasts_S1x2048x960_S2048x960 : S1x2048x960.ShapeCasts S2048x960
  slices_S1x4_o0_0_S1x1 : S1x4.Slices ![0, 0] S1x1
  inpos_S1x1_p0_0 : ∀ a, (![0, 0] : Fin 2 → Nat) a < S1x1.size a
  slices_S1x4_o0_1_S1x1 : S1x4.Slices ![0, 1] S1x1
  slices_S1x4_o0_2_S1x1 : S1x4.Slices ![0, 2] S1x1
  slices_S1x4_o0_3_S1x1 : S1x4.Slices ![0, 3] S1x1
  slices_S2048x960_o0_0_S2048x256 : S2048x960.Slices ![0, 0] S2048x256
  slices_S2048x960_o0_256_S2048x384 : S2048x960.Slices ![0, 256] S2048x384
  slices_S2048x960_o0_640_S2048x320 : S2048x960.Slices ![0, 640] S2048x320
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2048x384 : S1x384.Broadcasts S2048x384
  inb_S320_S320_0 : ∀ a, (![0] : Fin 1 → Nat) a + S320.size a ≤ S320.size a
  h_S320 : 0 < S320.numel
  shapeCasts_S320_S320 : S320.ShapeCasts S320
  shapeCasts_S320_S1x320 : S320.ShapeCasts S1x320
  broadcasts_S1x320_S2048x320 : S1x320.Broadcasts S2048x320
  concatenates_S2048x256_S2048x384_S2048x320_S2048x960_d1 : Shape.Concatenates [S2048x256, S2048x384, S2048x320] S2048x960 1
  shapeCasts_S2048x960_S1x2048x960 : S2048x960.ShapeCasts S1x2048x960
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x960.size a ≤ S4x16384x960.size a
  hwx0_0 : ∀ i : grid0.Coords, EltTy.bits .f32 = 32 ∨ (Rect.block (s := S4x16384x960) S1x4096x960.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4.size a ≤ S4x1x4.size a
  hwx0_1 : ∀ i : grid0.Coords, EltTy.bits .f32 = 32 ∨ (Rect.block (s := S4x1x4) S1x1x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x960.size a ≤ S4x16384x960.size a
  hwx1_0 : ∀ i : grid1.Coords, EltTy.bits .f32 = 32 ∨ (Rect.block (s := S4x16384x960) S1x2048x960.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4.size a ≤ S4x1x4.size a
  hwx1_1 : ∀ i : grid1.Coords, EltTy.bits .f32 = 32 ∨ (Rect.block (s := S4x1x4) S1x1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S320.size a ≤ S320.size a
  hwx1_4 : ∀ i : grid1.Coords, EltTy.bits .f32 = 32 ∨ (Rect.block (s := S320) S320.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048x960.size a ≤ S4x16384x960.size a
  hwx1_6 : ∀ i : grid1.Coords, EltTy.bits .f32 = 32 ∨ (Rect.block (s := S4x16384x960) S1x2048x960.size (cc1_transform_6 i) (hinb1_6 i)).WholeWords (EltTy.packing .f32)

variable [Facts₀]

abbrev win0_0 : Pipeline.Window sig grid0 :=
  Pipeline.Window.ofSpec (Memref.whole main_arg0) S1x4096x960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x2048x960.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x1x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S320.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x2048x960.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x16384x960 : Shape := ⟨3, ![4, 16384, 960]⟩
abbrev S448 : Shape := ⟨1, ![448]⟩
abbrev S256 : Shape := ⟨1, ![256]⟩
abbrev S4x16384x256 : Shape := ⟨3, ![4, 16384, 256]⟩
abbrev S_ : Shape := ⟨0, ![]⟩
abbrev S4 : Shape := ⟨1, ![4]⟩
abbrev S4x1x1 : Shape := ⟨3, ![4, 1, 1]⟩
abbrev S4x16384x256x1 : Shape := ⟨4, ![4, 16384, 256, 1]⟩
abbrev S1x1x256x1 : Shape := ⟨4, ![1, 1, 256, 1]⟩
abbrev S4x16384x384 : Shape := ⟨3, ![4, 16384, 384]⟩
abbrev S4x16384x128x3 : Shape := ⟨4, ![4, 16384, 128, 3]⟩
abbrev S4x16384x128 : Shape := ⟨3, ![4, 16384, 128]⟩
abbrev S128 : Shape := ⟨1, ![128]⟩
abbrev S1x1x128x1 : Shape := ⟨4, ![1, 1, 128, 1]⟩
abbrev S4x16384x320 : Shape := ⟨3, ![4, 16384, 320]⟩
abbrev S4x16384x64x5 : Shape := ⟨4, ![4, 16384, 64, 5]⟩
abbrev S4x16384x64 : Shape := ⟨3, ![4, 16384, 64]⟩
abbrev S64 : Shape := ⟨1, ![64]⟩
abbrev S1x1x64x1 : Shape := ⟨4, ![1, 1, 64, 1]⟩

abbrev nBuf : Space → Nat
  | .hbm => 87
  | .vmem => 0
  | .smem => 0
  | _ => 0

abbrev bufTy : (tb : Table) → Fin (tcTables nBuf tb) → BufTy
  | .hbm, ⟨0, _⟩ => ⟨S4x16384x960, .f32⟩
  | .hbm, ⟨1, _⟩ => ⟨S448, .f32⟩
  | .hbm, ⟨2, _⟩ => ⟨S256, .f32⟩
  | .hbm, ⟨3, _⟩ => ⟨S4x16384x256, .f32⟩
  | .hbm, ⟨4, _⟩ => ⟨S_, .f32⟩
  | .hbm, ⟨5, _⟩ => ⟨S4, .f32⟩
  | .hbm, ⟨6, _⟩ => ⟨S4x1x1, .f32⟩
  | .hbm, ⟨7, _⟩ => ⟨S_, .f32⟩
  | .hbm, ⟨8, _⟩ => ⟨S4x1x1, .f32⟩
  | .hbm, ⟨9, _⟩ => ⟨S4x1x1, .f32⟩
  | .hbm, ⟨10, _⟩ => ⟨S4x16384x256, .f32⟩
  | .hbm, ⟨11, _⟩ => ⟨S4x16384x256, .f32⟩
  | .hbm, ⟨12, _⟩ => ⟨S4x16384x256, .f32⟩
  | .hbm, ⟨13, _⟩ => ⟨S_, .f32⟩
  | .hbm, ⟨14, _⟩ => ⟨S4, .f32⟩
  | .hbm, ⟨15, _⟩ => ⟨S4x1x1, .f32⟩
  | .hbm, ⟨16, _⟩ => ⟨S_, .f32⟩
  | .hbm, ⟨17, _⟩ => ⟨S4x1x1, .f32⟩
  | .hbm, ⟨18, _⟩ => ⟨S4x1x1, .f32⟩
  | .hbm, ⟨19, _⟩ => ⟨S_, .f32⟩
  | .hbm, ⟨20, _⟩ => ⟨S4x1x1, .f32⟩
  | .hbm, ⟨21, _⟩ => ⟨S4x1x1, .f32⟩
  | .hbm, ⟨22, _⟩ => ⟨S_, .f32⟩
  | .hbm, ⟨23, _⟩ => ⟨S4x1x1, .f32⟩
  | .hbm, ⟨24, _⟩ => ⟨S4x1x1, .f32⟩
  | .hbm, ⟨25, _⟩ => ⟨S4x16384x256, .f32⟩
  | .hbm, ⟨26, _⟩ => ⟨S4x16384x256, .f32⟩
  | .hbm, ⟨27, _⟩ => ⟨S4x16384x256x1, .f32⟩
  | .hbm, ⟨28, _⟩ => ⟨S256, .f32⟩
  | .hbm, ⟨29, _⟩ => ⟨S1x1x256x1, .f32⟩
  | .hbm, ⟨30, _⟩ => ⟨S4x16384x256x1, .f32⟩
  | .hbm, ⟨31, _⟩ => ⟨S4x16384x256x1, .f32⟩
  | .hbm, ⟨32, _⟩ => ⟨S1x1x256x1, .f32⟩
  | .hbm, ⟨33, _⟩ => ⟨S4x16384x256x1, .f32⟩
  | .hbm, ⟨34, _⟩ => ⟨S4x16384x256x1, .f32⟩
  | .hbm, ⟨35, _⟩ => ⟨S4x16384x256, .f32⟩
  | .hbm, ⟨36, _⟩ => ⟨S4x16384x384, .f32⟩
  | .hbm, ⟨37, _⟩ => ⟨S4x16384x128x3, .f32⟩
  | .hbm, ⟨38, _⟩ => ⟨S4x16384x128x3, .f32⟩
  | .hbm, ⟨39, _⟩ => ⟨S_, .f32⟩
  | .hbm, ⟨40, _⟩ => ⟨S4x16384x128, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4x1x1, .f32⟩
  | .hbm, ⟨47, _⟩ => ⟨S_, .f32⟩
  | .hbm, ⟨48, _⟩ => ⟨S4x1x1, .f32⟩
  | .hbm, ⟨49, _⟩ => ⟨S4x1x1, .f32⟩
  | .hbm, ⟨50, _⟩ => ⟨S_, .f32⟩
  | .hbm, ⟨51, _⟩ => ⟨S4x1x1, .f32⟩
  | .hbm, ⟨52, _⟩ => ⟨S4x1x1, .f32⟩
  | .hbm, ⟨53, _⟩ => ⟨S4x16384x384, .f32⟩
  | .hbm, ⟨54, _⟩ => ⟨S4x16384x384, .f32⟩
  | .hbm, ⟨55, _⟩ => ⟨S4x16384x128x3, .f32⟩
  | .hbm, ⟨56, _⟩ => ⟨S128, .f32⟩
  | .hbm, ⟨57, _⟩ => ⟨S1x1x128x1, .f32⟩
  | .hbm, ⟨58, _⟩ => ⟨S4x16384x128x3, .f32⟩
  | .hbm, ⟨59, _⟩ => ⟨S4x16384x128x3, .f32⟩
  | .hbm, ⟨60, _⟩ => ⟨S4x16384x384, .f32⟩
  | .hbm, ⟨61, _⟩ => ⟨S4x16384x320, .f32⟩
  | .hbm, ⟨62, _⟩ => ⟨S4x16384x64x5, .f32⟩
  | .hbm, ⟨63, _⟩ => ⟨S4x16384x64x5, .f32⟩
  | .hbm, ⟨64, _⟩ => ⟨S_, .f32⟩
  | .hbm, ⟨65, _⟩ => ⟨S4x16384x64, .f32⟩
  | .hbm, ⟨66, _⟩ => ⟨S_, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S4x1x1, .f32⟩
  | .hbm, ⟨72, _⟩ => ⟨S_, .f32⟩
  | .hbm, ⟨73, _⟩ => ⟨S4x1x1, .f32⟩
  | .hbm, ⟨74, _⟩ => ⟨S4x1x1, .f32⟩
  | .hbm, ⟨75, _⟩ => ⟨S_, .f32⟩
  | .hbm, ⟨76, _⟩ => ⟨S4x1x1, .f32⟩
  | .hbm, ⟨77, _⟩ => ⟨S4x1x1, .f32⟩
  | .hbm, ⟨78, _⟩ => ⟨S4x16384x320, .f32⟩
  | .hbm, ⟨79, _⟩ => ⟨S4x16384x320, .f32⟩
  | .hbm, ⟨80, _⟩ => ⟨S4x16384x64x5, .f32⟩
  | .hbm, ⟨81, _⟩ => ⟨S64, .f32⟩
  | .hbm, ⟨82, _⟩ => ⟨S1x1x64x1, .f32⟩
  | .hbm, ⟨83, _⟩ => ⟨S4x16384x64x5, .f32⟩
  | .hbm, ⟨84, _⟩ => ⟨S4x16384x64x5, .f32⟩
  | .hbm, ⟨85, _⟩ => ⟨S4x16384x320, .f32⟩
  | .hbm, ⟨86, _⟩ => ⟨S4x16384x960, .f32⟩
  | _, _ => ⟨S4x16384x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_13 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]

class Facts₀ : Prop where
  slices_S4x16384x960_S4x16384x256_0_0_0 : S4x16384x960.Slices ![0, 0, 0] S4x16384x256
  reducesTo_S4x16384x256_S4_d1_2 : S4x16384x256.ReducesTo [1, 2] S4
  h_S_ : 0 < S_.numel
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x16384x256_0_1_2 : S4x1x1.BroadcastsInDim S4x16384x256 (![0, 1, 2] : Fin 3 → Fin S4x16384x256.rank)
  shapeCasts_S4x16384x256_S4x16384x256x1 : S4x16384x256.ShapeCasts S4x16384x256x1
  slices_S448_S256_0 : S448.Slices ![0] S256
  bcast_S256_S1x1x256x1_2 : S256.BroadcastsInDim S1x1x256x1 (![2] : Fin 1 → Fin S1x1x256x1.rank)
  bcast_S1x1x256x1_S4x16384x256x1_0_1_2_3 : S1x1x256x1.BroadcastsInDim S4x16384x256x1 (![0, 1, 2, 3] : Fin 4 → Fin S4x16384x256x1.rank)
  shapeCasts_S4x16384x256x1_S4x16384x256 : S4x16384x256x1.ShapeCasts S4x16384x256
  slices_S4x16384x960_S4x16384x384_0_0_256 : S4x16384x960.Slices ![0, 0, 256] S4x16384x384
  shapeCasts_S4x16384x384_S4x16384x128x3 : S4x16384x384.ShapeCasts S4x16384x128x3
  reducesTo_S4x16384x128x3_S4x16384x128_d3 : S4x16384x128x3.ReducesTo [3] S4x16384x128
  reducesTo_S4x16384x128_S4_d1_2 : S4x16384x128.ReducesTo [1, 2] S4
  bcast_S_S4 : S_.BroadcastsInDim S4 (![] : Fin 0 → Fin S4.rank)
  bcast_S4x1x1_S4x16384x384_0_1_2 : S4x1x1.BroadcastsInDim S4x16384x384 (![0, 1, 2] : Fin 3 → Fin S4x16384x384.rank)
  slices_S448_S128_256 : S448.Slices ![256] S128
  bcast_S128_S1x1x128x1_2 : S128.BroadcastsInDim S1x1x128x1 (![2] : Fin 1 → Fin S1x1x128x1.rank)
  bcast_S1x1x128x1_S4x16384x128x3_0_1_2_3 : S1x1x128x1.BroadcastsInDim S4x16384x128x3 (![0, 1, 2, 3] : Fin 4 → Fin S4x16384x128x3.rank)
  shapeCasts_S4x16384x128x3_S4x16384x384 : S4x16384x128x3.ShapeCasts S4x16384x384
  slices_S4x16384x960_S4x16384x320_0_0_640 : S4x16384x960.Slices ![0, 0, 640] S4x16384x320
  shapeCasts_S4x16384x320_S4x16384x64x5 : S4x16384x320.ShapeCasts S4x16384x64x5
  reducesTo_S4x16384x64x5_S4x16384x64_d3 : S4x16384x64x5.ReducesTo [3] S4x16384x64
  reducesTo_S4x16384x64_S4_d1_2 : S4x16384x64.ReducesTo [1, 2] S4
  bcast_S4x1x1_S4x16384x320_0_1_2 : S4x1x1.BroadcastsInDim S4x16384x320 (![0, 1, 2] : Fin 3 → Fin S4x16384x320.rank)
  slices_S448_S64_384 : S448.Slices ![384] S64
  bcast_S64_S1x1x64x1_2 : S64.BroadcastsInDim S1x1x64x1 (![2] : Fin 1 → Fin S1x1x64x1.rank)
  bcast_S1x1x64x1_S4x16384x64x5_0_1_2_3 : S1x1x64x1.BroadcastsInDim S4x16384x64x5 (![0, 1, 2, 3] : Fin 4 → Fin S4x16384x64x5.rank)
  shapeCasts_S4x16384x64x5_S4x16384x320 : S4x16384x64x5.ShapeCasts S4x16384x320
  concatenates_S4x16384x256_S4x16384x384_S4x16384x320_S4x16384x960_d2 : Shape.Concatenates [S4x16384x256, S4x16384x384, S4x16384x320] S4x16384x960 2

variable [Facts₀]

class Facts : Prop extends Facts₀ where

variable [Facts]
-- ==== Proof.K.Runs0.lean ====
/-
  The statistics kernel (the first of the program's two kernels) on its 4 x 4 grid: point t = 4 b + k handles
  rows 4096 k … 4096 k + 4095 of batch entry b.  What its three control cases share: the block of the input window
  at a point, read off the array as the region finds it (a parameter V: the buffer contents when the region is
  entered); the two branch conditions in closed form over the grid (k = 0: the accumulator is reset; k = 3: the
  accumulator is copied to the output block); where the output window is idle; the staging and scratch memrefs.
-/
import proofs.«127636_j91010357002261_1_alg».proof.Proof.Gen.Kernel.Launch
import proofs.«127636_j91010357002261_1_alg».proof.Proof.Gen.Kernel.Skeleton
import proofs.«127636_j91010357002261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first branch (reset the accumulator) is taken when the row-tile coordinate is 0, -/
abbrev cond0_0 (i : grid0.Coords) : Prop := (Scalar.cmpi .ne (Scalar.extui (Scalar.cmpi .eq (BitVec.ofNat 32 (i 1).val) 0#32)) 0#32) = 1#1
/-- that is at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulator out) is taken when the row-tile coordinate is 3, -/
abbrev cond0_1 (i : grid0.Coords) : Prop := k0_cond2 i = 1#1
/-- that is at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1x1x4 .f32 := (Memref.whole cc0_stg1_0 : Memref sig .tc .vmem S1x1x4 .f32).view
abbrev ms0_0 (t : Fin cfg0.N) : Memref sig .tc .vmem S1x4096x960 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4 .f32 := win0_1.stage (cfg0.slots t 1)
abbrev hs0_1 (t : Fin cfg0.N) : (ms0_1 t).IsWhole := hstage0_1 ((cfg0.slots t 1).cast nbuf0_1)
/-- The accumulator: a whole scoped buffer of the kernel's own, carried from one point to the next. -/
abbrev scM0_0 : Memref sig .tc .vmem S1x4 .f32 := Memref.whole cc0_scratch0
abbrev VS0_0 : View sig .tc .vmem S1x4 .f32 := scM0_0.view

/-- The scoped buffers of the core that this kernel does not name (the other kernel's staging buffers), each whole
    at some contents: they ride through this region untouched. -/
def Other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the accumulator as a memref owned at some contents, beside the buffers it does not name
    and the generator register. -/
theorem PhiA0_eq (c : Dev nD) :
    (Pipeline.ΦA spec0 c : sProp 𝕄)
      = iprop(iprop((∃ d, owns (c : Thread nD τ) scM0_0 fullShare d) ∗ Other0 c) ∗ (∃ r, prngReg c r)) := by
  unfold Pipeline.ΦA Other0; rw [scopedRest0_eq]; simp only [scM0_0, owns_whole]; try rfl

end Cert.Kernel.R0

end
-- ==== Proof.K.Run0A.lean ====
/-
  The statistics kernel's body at a point where the accumulator is reset and not copied out (row tile 0 of a batch
  entry): the accumulator is stored twice (zero, then zero plus the tile's four partial sums), the output block is
  not touched.  The pieces the accumulator ends with are found by running the body.
-/
import proofs.«127636_j91010357002261_1_alg».proof.Proof.K.Runs0

set_option maxRecDepth 16384

noncomputable section

namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) :
    Σ' (L1 : List (View.Piece (Elt F) S1x1x4 .f32)), { LS0 : List (View.Piece (Elt F) S1x4 .f32) //
      ∀ (xi1 : Vec F S1x1x4 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg2 harg2 arg3 harg3 arg4 harg4) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R0

end
-- ==== Proof.K.Run0B.lean ====
/-
  The statistics kernel's body at a point where the accumulator is neither reset nor copied out (row tiles 1 and 2):
  the accumulator, found at what the point before left, is stored once (itself plus the tile's four partial sums);
  the output block is not touched.
-/
import proofs.«127636_j91010357002261_1_alg».proof.Proof.K.Run0A

set_option maxRecDepth 16384

noncomputable section

namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) :
    Σ' (L1 : List (View.Piece (Elt F) S1x1x4 .f32)), { LS0 : List (View.Piece (Elt F) S1x4 .f32) //
      ∀ (xi1 : Vec F S1x1x4 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg2 harg2 arg3 harg3 arg4 harg4) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R0

end
-- ==== Proof.K.Run0C.lean ====
/-
  The statistics kernel's body at a point where the accumulator is copied out (row tile 3, the last of a batch
  entry): the accumulator, found at what the point before left, is stored once (itself plus the tile's four partial
  sums) and then read back and stored, re-laid as [1, 1, 4], over the whole output block.
-/
import proofs.«127636_j91010357002261_1_alg».proof.Proof.K.Run0B

set_option maxRecDepth 16384

noncomputable section

namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) :
    Σ' (L1 : List (View.Piece (Elt F) S1x1x4 .f32)), { LS0 : List (View.Piece (Elt F) S1x4 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.R0

end
-- ==== Proof.K.Reg0.lean ====
/-
  The statistics kernel as a region entered at buffer contents V: what its output block and its accumulator hold
  after each grid point (by recursion on the point: a reset at row tile 0, an accumulation at every tile, a copy to the
  output block at row tile 3), the region invariant that carries the accumulator from one point to the next, the
  proof data of the pipeline and the body obligation at every point.
-/
import proofs.«127636_j91010357002261_1_alg».proof.Proof.K.Run0C

set_option maxRecDepth 16384

noncomputable section

namespace Cert.Kernel.R0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Row tile 0 stores nothing into the output block: a placeholder nothing consults. -/
def out0_A_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) : Vec F S1x1x4 .f32 :=
  VO0_1.read (Elt F) (VO0_1.writes (Elt F) VO0_1.junk (kernelRun0_A c i arg2 harg2 arg3 harg3 arg4 harg4 hc0 hc1 x0).1)

/-- Row tile 0's two stores into the accumulator cover it. -/
theorem scover0_A_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) (y : S1x4.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x4.size (by sl_kernel_rfl) y

/-- What row tile 0 leaves in the accumulator. -/
def sout0_A_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) : Vec F S1x4 .f32 :=
  VS0_0.read (Elt F) (VS0_0.writes (Elt F) VS0_0.junk (kernelRun0_A c i arg2 harg2 arg3 harg3 arg4 harg4 hc0 hc1 x0).2.1)

/-- Row tiles 1 and 2 store nothing into the output block: a placeholder nothing consults. -/
def out0_B_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) : Vec F S1x1x4 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) (y : S1x4.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x4.size (by sl_kernel_rfl) y

/-- What row tiles 1 and 2 leave in the accumulator. -/
def sout0_B_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) : Vec F S1x4 .f32 :=
  VS0_0.read (Elt F) (VS0_0.writes (Elt F) VS0_0.junk (kernelRun0_B c i arg2 harg2 arg3 harg3 arg4 harg4 hc0 hc1 x0 xs0).2.1)

/-- Row tile 3's one store into the output block covers it. -/
theorem cover0_C_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) (y : S1x1x4.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x4.size (by sl_kernel_rfl) y

/-- What row tile 3 leaves in the output block. -/
def out0_C_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) : Vec F S1x1x4 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) (y : S1x4.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x4.size (by sl_kernel_rfl) y

/-- What row tile 3 leaves in the accumulator. -/
def sout0_C_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) : Vec F S1x4 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- THE ACCUMULATION: after the body at position n, the output window's staging buffer and the accumulator — the case
    the closed forms select at n, run on the point's input block, the accumulator found at what position n − 1 left. -/
def outsAt0 (c : Dev nD) : (n : ℕ) → n < cfg0.N → Vec F S1x1x4 .f32 × Vec F S1x4 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the class's invariant (the accumulator at anything); before position n + 1 the accumulator
    at what position n left, beside the buffers the kernel does not name and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Other0 c) ∗ (∃ r, prngReg c r)) := by
  cases n with
  | zero => exact absurd rfl hz
  | succ n => rfl

/-! ## The pipeline's proof data -/

/-- The arrays as the region finds them; after the body at point t the input's buffer at its block and the output's at
    the accumulation's first component; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the accumulator
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_C_0 c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_B_0 c _ _ _ _ _ _ _ _ _ _ _)
            iexact Hoth
          iexact Hg
        isplitl [Ho]; · iexact Ho
        isplitl [H0]; · iexact H0
        iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 16 := N_0; omega)

end Cert.Kernel.R0

end
-- ==== Proof.K.Reg1.lean ====
import proofs.«127636_j91010357002261_1_alg».proof.Proof.Gen.Kernel.Launch
import proofs.«127636_j91010357002261_1_alg».proof.Proof.Gen.Kernel.Skeleton
import proofs.«127636_j91010357002261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The normalisation region (the second pallas call, grid 4 × 8), at the entry contents `V`

Seven windows: 0 the block [1, 2048, 960] of x, 1 the block [1, 1, 4] of the coefficients, 2–5 the three weight
vectors and the bias (whole), 6 the output block [1, 2048, 960]. The body loads the six inputs whole, computes,
and stores the output whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev rX : Rect S1x2048x960 := Rect.unit (s := S1x2048x960) ![0, 0, 0] S1x2048x960.size inb_S1x2048x960_S1x2048x960_0_0_0
abbrev rC : Rect S1x1x4 := Rect.unit (s := S1x1x4) ![0, 0, 0] S1x1x4.size inb_S1x1x4_S1x1x4_0_0_0
abbrev rA : Rect S256 := Rect.unit (s := S256) ![0] S256.size inb_S256_S256_0
abbrev rB : Rect S384 := Rect.unit (s := S384) ![0] S384.size inb_S384_S384_0
abbrev rD : Rect S320 := Rect.unit (s := S320) ![0] S320.size inb_S320_S320_0

/-! ## What the body leaves in the output window's buffer -/

/-- The output's staging buffer after the body, from the input windows' blocks: its one store, whose payload is
    the concatenation of the three normalised column segments. -/
def out1_6 (x0 : Vec F S1x2048x960 .f32) (x1 : Vec F S1x1x4 .f32) (x2 : Vec F S256 .f32) (x3 : Vec F S384 .f32)
    (x4 : Vec F S320 .f32) (x5 : Vec F S256 .f32) : Vec F S1x2048x960 .f32 :=
  View.canon [⟨rX, k1_pay1 (k1_pay2 (View.ld x0 rX) (View.ld x1 rC) (View.ld x2 rA) (View.ld x5 rA) (View.ld x3 rB) (View.ld x4 rD))⟩]

/-- The store takes the whole buffer, so it covers it. -/
theorem cover1_6 (p0 : Vec F S1x2048x960 .f32) (y : S1x2048x960.Idx) :
    ∃ pc ∈ ([⟨rX, p0⟩] : List (View.Piece (Elt F) S1x2048x960 .f32)), y ∈ pc.1.set :=
  View.cover_of_tiled [⟨rX, p0⟩] S1x2048x960.size (by rfl) y

/-! ## The body's triple -/

set_option maxHeartbeats 1000000 in
/-- The kernel body on whole staging memrefs, the inputs' at read contents `xW` and the output's at anything, runs
    to the continuation holding the inputs' as they were and the output's at `out1_6` of the inputs'. -/
theorem sound_kernel1 (c : Dev nD) (E : Set ℕ) (i : grid1.Coords)
    (arg0 : Memref sig .tc .vmem S1x2048x960 .f32) (harg0 : arg0.IsWhole) (arg1 : Memref sig .tc .vmem S1x1x4 .f32) (harg1 : arg1.IsWhole)
    (arg2 : Memref sig .tc .vmem S256 .f32) (harg2 : arg2.IsWhole) (arg3 : Memref sig .tc .vmem S384 .f32) (harg3 : arg3.IsWhole)
    (arg4 : Memref sig .tc .vmem S320 .f32) (harg4 : arg4.IsWhole) (arg5 : Memref sig .tc .vmem S256 .f32) (harg5 : arg5.IsWhole)
    (arg6 : Memref sig .tc .vmem S1x2048x960 .f32) (harg6 : arg6.IsWhole)
    (x0 : Vec F S1x2048x960 .f32) (x1 : Vec F S1x1x4 .f32) (x2 : Vec F S256 .f32) (x3 : Vec F S384 .f32)
    (x4 : Vec F S320 .f32) (x5 : Vec F S256 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E
          (cc1__normalize_kernel i arg0 harg0 arg1 harg1 arg2 harg2 arg3 harg3 arg4 harg4 arg5 harg5 arg6 harg6) K := by
  simp only [cc1__normalize_kernel_eq_skeleton]; unfold cc1__normalize_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region on core `c`: the arrays as the region finds them (`V`); after the body at point
    `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t
end Cert.Kernel.R1
end
-- ==== Proof.K.Run.lean ====
/-
  The run of the two-region program.  @main is three segments: region 0 (the statistics kernel), a stretch of
  host operations (from the raw statistics to the mean and the three reciprocal square roots, and the per-column
  weights), and region 1 (the normalisation kernel).  The buffer contents at each boundary are a fold from the
  launch memory: a region leaves its arrays at what its write-backs fold to and every other buffer as entered;
  the host stretch leaves what its operations compute.  The run: every weakly fair execution terminates, and
  every unscoped buffer ends at the last boundary's contents.  Read back through the fold: no segment writes an
  argument array; the result array holds what region 1's write-backs leave, the statistics array (at the host
  stretch's entry) what region 0's leave.
-/
import proofs.«127636_j91010357002261_1_alg».proof.Proof.Gen.Kernel.Launch
import proofs.«127636_j91010357002261_1_alg».proof.Proof.Gen.Kernel.Skeleton
import proofs.«127636_j91010357002261_1_alg».proof.Proof.Gen.Kernel.Points
import proofs.«127636_j91010357002261_1_alg».proof.Proof.Gen.Kernel.Regions
import proofs.«127636_j91010357002261_1_alg».proof.Proof.K.Reg0
import proofs.«127636_j91010357002261_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the input as entered, the output's write-backs
    folded), every other buffer as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## Reading the fold back -/

/-- A reference the host stretch does not write holds after it what it held before. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- The statistics array at region 0's exit: what its write-backs leave. -/
theorem W1_main_v0 (c : Dev nD) : W1 m ρ c (Proc.devRef .tc main_v0) = (R0.dat0 (V0 m ρ) c).arrAt 1 cfg0.N :=
  W1_arr m ρ c 1
/-- The result array at the end: what region 1's write-backs leave. -/
theorem W3_main_v42 (c : Dev nD) : W3 m ρ c (Proc.devRef .tc main_v42) = (R1.dat1 (V2 m ρ) c).arrAt 6 cfg1.N :=
  W3_arr m ρ c 6

/-- The first argument ends as launched: both regions read it through an input window, the host stretch does not
    write it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((R1.dat1 (V2 m ρ) c).arrAt_in 0 rfl _).trans (R1.A_eq1 (V2 m ρ) c 0))
    _ = W1 m ρ c (Proc.devRef .tc main_arg0) := W2_of m ρ c main_arg0 (by decide)
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl
/-- The second argument ends as launched: no region has it as an array, the host stretch only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
/-- The third argument ends as launched: region 1 reads it through an input window, nothing else touches it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 5).trans (((R1.dat1 (V2 m ρ) c).arrAt_in 5 rfl _).trans (R1.A_eq1 (V2 m ρ) c 5))
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

/-! ## The proof data family and the thread state -/

/-- Every pipeline's proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends at
    those references at the operations' fold over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`.  Its arrays split
    out of the unscoped buffers and put back at the exit contents; the generator register and the scoped buffers
    no window stages make the class invariant, from which the region's own invariant at the first point follows,
    and its invariant at the last point gives the class invariant back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (V0 m ρ) c)
    unfold Pipeline.ΦA
    iintro ⟨Hp, -, Hr⟩
    isplitl [Hr]; · iexact Hr
    iexact Hp
  hout c := by
    rw [Pipeline.ownSems0_none]
    refine BIBase.Entails.trans (R0.hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch
    reads at the end).  Its invariant is the class invariant at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: region 0, the host stretch from region 0's exit contents, region 1. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each unscoped buffer of each core holds the
    last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the
    three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Run
end
-- ==== Proof.KI.Runs0.lean ====
/-
  The statistics kernel (the first of the program's two kernels) on its 4 x 4 grid: point t = 4 b + k handles
  rows 4096 k … 4096 k + 4095 of batch entry b.  What its three control cases share: the block of the input window
  at a point, read off the array as the region finds it (a parameter V: the buffer contents when the region is
  entered); the two branch conditions in closed form over the grid (k = 0: the accumulator is reset; k = 3: the
  accumulator is copied to the output block); where the output window is idle; the staging and scratch memrefs.
-/
import proofs.«127636_j91010357002261_1_alg».proof.Proof.Gen.KernelIdeal.Launch
import proofs.«127636_j91010357002261_1_alg».proof.Proof.Gen.KernelIdeal.Skeleton
import proofs.«127636_j91010357002261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first branch (reset the accumulator) is taken when the row-tile coordinate is 0, -/
abbrev cond0_0 (i : grid0.Coords) : Prop := (Scalar.cmpi .ne (Scalar.extui (Scalar.cmpi .eq (BitVec.ofNat 32 (i 1).val) 0#32)) 0#32) = 1#1
/-- that is at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the accumulator out) is taken when the row-tile coordinate is 3, -/
abbrev cond0_1 (i : grid0.Coords) : Prop := k0_cond2 i = 1#1
/-- that is at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1x1x4 .f32 := (Memref.whole cc0_stg1_0 : Memref sig .tc .vmem S1x1x4 .f32).view
abbrev ms0_0 (t : Fin cfg0.N) : Memref sig .tc .vmem S1x4096x960 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4 .f32 := win0_1.stage (cfg0.slots t 1)
abbrev hs0_1 (t : Fin cfg0.N) : (ms0_1 t).IsWhole := hstage0_1 ((cfg0.slots t 1).cast nbuf0_1)
/-- The accumulator: a whole scoped buffer of the kernel's own, carried from one point to the next. -/
abbrev scM0_0 : Memref sig .tc .vmem S1x4 .f32 := Memref.whole cc0_scratch0
abbrev VS0_0 : View sig .tc .vmem S1x4 .f32 := scM0_0.view

/-- The scoped buffers of the core that this kernel does not name (the other kernel's staging buffers), each whole
    at some contents: they ride through this region untouched. -/
def Other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant with the accumulator as a memref owned at some contents, beside the buffers it does not name
    and the generator register. -/
theorem PhiA0_eq (c : Dev nD) :
    (Pipeline.ΦA spec0 c : sProp 𝕄)
      = iprop(iprop((∃ d, owns (c : Thread nD τ) scM0_0 fullShare d) ∗ Other0 c) ∗ (∃ r, prngReg c r)) := by
  unfold Pipeline.ΦA Other0; rw [scopedRest0_eq]; simp only [scM0_0, owns_whole]; try rfl

end Cert.KernelIdeal.R0

end
-- ==== Proof.KI.Run0A.lean ====
/-
  The statistics kernel's body at a point where the accumulator is reset and not copied out (row tile 0 of a batch
  entry): the accumulator is stored twice (zero, then zero plus the tile's four partial sums), the output block is
  not touched.  The pieces the accumulator ends with are found by running the body.
-/
import proofs.«127636_j91010357002261_1_alg».proof.Proof.KI.Runs0

set_option maxRecDepth 16384

noncomputable section

namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) :
    Σ' (L1 : List (View.Piece (Elt F) S1x1x4 .f32)), { LS0 : List (View.Piece (Elt F) S1x4 .f32) //
      ∀ (xi1 : Vec F S1x1x4 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg2 harg2 arg3 harg3 arg4 harg4) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.KI.Run0B.lean ====
/-
  The statistics kernel's body at a point where the accumulator is neither reset nor copied out (row tiles 1 and 2):
  the accumulator, found at what the point before left, is stored once (itself plus the tile's four partial sums);
  the output block is not touched.
-/
import proofs.«127636_j91010357002261_1_alg».proof.Proof.KI.Run0A

set_option maxRecDepth 16384

noncomputable section

namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) :
    Σ' (L1 : List (View.Piece (Elt F) S1x1x4 .f32)), { LS0 : List (View.Piece (Elt F) S1x4 .f32) //
      ∀ (xi1 : Vec F S1x1x4 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg2 harg2 arg3 harg3 arg4 harg4) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.KI.Run0C.lean ====
/-
  The statistics kernel's body at a point where the accumulator is copied out (row tile 3, the last of a batch
  entry): the accumulator, found at what the point before left, is stored once (itself plus the tile's four partial
  sums) and then read back and stored, re-laid as [1, 1, 4], over the whole output block.
-/
import proofs.«127636_j91010357002261_1_alg».proof.Proof.KI.Run0B

set_option maxRecDepth 16384

noncomputable section

namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) :
    Σ' (L1 : List (View.Piece (Elt F) S1x1x4 .f32)), { LS0 : List (View.Piece (Elt F) S1x4 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg2 harg2 arg3 harg3 arg4 harg4) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.R0

end
-- ==== Proof.KI.Reg0.lean ====
/-
  The statistics kernel as a region entered at buffer contents V: what its output block and its accumulator hold
  after each grid point (by recursion on the point: a reset at row tile 0, an accumulation at every tile, a copy to the
  output block at row tile 3), the region invariant that carries the accumulator from one point to the next, the
  proof data of the pipeline and the body obligation at every point.
-/
import proofs.«127636_j91010357002261_1_alg».proof.Proof.KI.Run0C

set_option maxRecDepth 16384

noncomputable section

namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Row tile 0 stores nothing into the output block: a placeholder nothing consults. -/
def out0_A_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) : Vec F S1x1x4 .f32 :=
  VO0_1.read (Elt F) (VO0_1.writes (Elt F) VO0_1.junk (kernelRun0_A c i arg2 harg2 arg3 harg3 arg4 harg4 hc0 hc1 x0).1)

/-- Row tile 0's two stores into the accumulator cover it. -/
theorem scover0_A_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) (y : S1x4.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x4.size (by sl_kernel_rfl) y

/-- What row tile 0 leaves in the accumulator. -/
def sout0_A_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) : Vec F S1x4 .f32 :=
  VS0_0.read (Elt F) (VS0_0.writes (Elt F) VS0_0.junk (kernelRun0_A c i arg2 harg2 arg3 harg3 arg4 harg4 hc0 hc1 x0).2.1)

/-- Row tiles 1 and 2 store nothing into the output block: a placeholder nothing consults. -/
def out0_B_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) : Vec F S1x1x4 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) (y : S1x4.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x4.size (by sl_kernel_rfl) y

/-- What row tiles 1 and 2 leave in the accumulator. -/
def sout0_B_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) : Vec F S1x4 .f32 :=
  VS0_0.read (Elt F) (VS0_0.writes (Elt F) VS0_0.junk (kernelRun0_B c i arg2 harg2 arg3 harg3 arg4 harg4 hc0 hc1 x0 xs0).2.1)

/-- Row tile 3's one store into the output block covers it. -/
theorem cover0_C_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) (y : S1x1x4.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x4.size (by sl_kernel_rfl) y

/-- What row tile 3 leaves in the output block. -/
def out0_C_1 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) : Vec F S1x1x4 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) (y : S1x4.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x4.size (by sl_kernel_rfl) y

/-- What row tile 3 leaves in the accumulator. -/
def sout0_C_0 (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) : Vec F S1x4 .f32 :=
  VS0_0.read (Elt F) (VS0_0.writes (Elt F) VS0_0.junk (kernelRun0_C c i arg2 harg2 arg3 harg3 arg4 harg4 hc0 hc1 x0 xs0).2.1)

/-! ## What the output block and the accumulator hold after each point -/

/-- THE ACCUMULATION: after the body at position n, the output window's staging buffer and the accumulator — the case
    the closed forms select at n, run on the point's input block, the accumulator found at what position n − 1 left. -/
def outsAt0 (c : Dev nD) : (n : ℕ) → n < cfg0.N → Vec F S1x1x4 .f32 × Vec F S1x4 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the class's invariant (the accumulator at anything); before position n + 1 the accumulator
    at what position n left, beside the buffers the kernel does not name and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Other0 c) ∗ (∃ r, prngReg c r)) := by
  cases n with
  | zero => exact absurd rfl hz
  | succ n => rfl

/-! ## The pipeline's proof data -/

/-- The arrays as the region finds them; after the body at point t the input's buffer at its block and the output's at
    the accumulation's first component; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the accumulator
    at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_C_0 c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_B_0 c _ _ _ _ _ _ _ _ _ _ _)
            iexact Hoth
          iexact Hg
        isplitl [Ho]; · iexact Ho
        isplitl [H0]; · iexact H0
        iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 16 := N_0; omega)

end Cert.KernelIdeal.R0

end
-- ==== Proof.KI.Reg1.lean ====
import proofs.«127636_j91010357002261_1_alg».proof.Proof.Gen.KernelIdeal.Launch
import proofs.«127636_j91010357002261_1_alg».proof.Proof.Gen.KernelIdeal.Skeleton
import proofs.«127636_j91010357002261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The normalisation region (the second pallas call, grid 4 × 8), at the entry contents `V`

Seven windows: 0 the block [1, 2048, 960] of x, 1 the block [1, 1, 4] of the coefficients, 2–5 the three weight
vectors and the bias (whole), 6 the output block [1, 2048, 960]. The body loads the six inputs whole, computes,
and stores the output whole. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev rX : Rect S1x2048x960 := Rect.unit (s := S1x2048x960) ![0, 0, 0] S1x2048x960.size inb_S1x2048x960_S1x2048x960_0_0_0
abbrev rC : Rect S1x1x4 := Rect.unit (s := S1x1x4) ![0, 0, 0] S1x1x4.size inb_S1x1x4_S1x1x4_0_0_0
abbrev rA : Rect S256 := Rect.unit (s := S256) ![0] S256.size inb_S256_S256_0
abbrev rB : Rect S384 := Rect.unit (s := S384) ![0] S384.size inb_S384_S384_0
abbrev rD : Rect S320 := Rect.unit (s := S320) ![0] S320.size inb_S320_S320_0

/-! ## What the body leaves in the output window's buffer -/

/-- The output's staging buffer after the body, from the input windows' blocks: its one store, whose payload is
    the concatenation of the three normalised column segments. -/
def out1_6 (x0 : Vec F S1x2048x960 .f32) (x1 : Vec F S1x1x4 .f32) (x2 : Vec F S256 .f32) (x3 : Vec F S384 .f32)
    (x4 : Vec F S320 .f32) (x5 : Vec F S256 .f32) : Vec F S1x2048x960 .f32 :=
  View.canon [⟨rX, k1_pay1 (k1_pay2 (View.ld x0 rX) (View.ld x1 rC) (View.ld x2 rA) (View.ld x5 rA) (View.ld x3 rB) (View.ld x4 rD))⟩]

/-- The store takes the whole buffer, so it covers it. -/
theorem cover1_6 (p0 : Vec F S1x2048x960 .f32) (y : S1x2048x960.Idx) :
    ∃ pc ∈ ([⟨rX, p0⟩] : List (View.Piece (Elt F) S1x2048x960 .f32)), y ∈ pc.1.set :=
  View.cover_of_tiled [⟨rX, p0⟩] S1x2048x960.size (by rfl) y

/-! ## The body's triple -/

set_option maxHeartbeats 1000000 in
/-- The kernel body on whole staging memrefs, the inputs' at read contents `xW` and the output's at anything, runs
    to the continuation holding the inputs' as they were and the output's at `out1_6` of the inputs'. -/
theorem sound_kernel1 (c : Dev nD) (E : Set ℕ) (i : grid1.Coords)
    (arg0 : Memref sig .tc .vmem S1x2048x960 .f32) (harg0 : arg0.IsWhole) (arg1 : Memref sig .tc .vmem S1x1x4 .f32) (harg1 : arg1.IsWhole)
    (arg2 : Memref sig .tc .vmem S256 .f32) (harg2 : arg2.IsWhole) (arg3 : Memref sig .tc .vmem S384 .f32) (harg3 : arg3.IsWhole)
    (arg4 : Memref sig .tc .vmem S320 .f32) (harg4 : arg4.IsWhole) (arg5 : Memref sig .tc .vmem S256 .f32) (harg5 : arg5.IsWhole)
    (arg6 : Memref sig .tc .vmem S1x2048x960 .f32) (harg6 : arg6.IsWhole)
    (x0 : Vec F S1x2048x960 .f32) (x1 : Vec F S1x1x4 .f32) (x2 : Vec F S256 .f32) (x3 : Vec F S384 .f32)
    (x4 : Vec F S320 .f32) (x5 : Vec F S256 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out1_6 x0 x1 x2 x3 x4 x5)) -∗ K ⟨⟩))
      ⊢ wp frame (wpE (defs₀ (F := F)) Variants.none c none) E
          (cc1__normalize_kernel i arg0 harg0 arg1 harg1 arg2 harg2 arg3 harg3 arg4 harg4 arg5 harg5 arg6 harg6) K := by
  simp only [cc1__normalize_kernel_eq_skeleton]; unfold cc1__normalize_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the region on core `c`: the arrays as the region finds them (`V`); after the body at point
    `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t
end Cert.KernelIdeal.R1
end
-- ==== Proof.KI.Run.lean ====
/-
  The run of the two-region program.  @main is three segments: region 0 (the statistics kernel), a stretch of
  host operations (from the raw statistics to the mean and the three reciprocal square roots, and the per-column
  weights), and region 1 (the normalisation kernel).  The buffer contents at each boundary are a fold from the
  launch memory: a region leaves its arrays at what its write-backs fold to and every other buffer as entered;
  the host stretch leaves what its operations compute.  The run: every weakly fair execution terminates, and
  every unscoped buffer ends at the last boundary's contents.  Read back through the fold: no segment writes an
  argument array; the result array holds what region 1's write-backs leave, the statistics array (at the host
  stretch's entry) what region 0's leave.
-/
import proofs.«127636_j91010357002261_1_alg».proof.Proof.Gen.KernelIdeal.Launch
import proofs.«127636_j91010357002261_1_alg».proof.Proof.Gen.KernelIdeal.Skeleton
import proofs.«127636_j91010357002261_1_alg».proof.Proof.Gen.KernelIdeal.Points
import proofs.«127636_j91010357002261_1_alg».proof.Proof.Gen.KernelIdeal.Regions
import proofs.«127636_j91010357002261_1_alg».proof.Proof.KI.Reg0
import proofs.«127636_j91010357002261_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffer contents at each segment boundary: a fold through @main -/

/-- Core `c`'s buffers at launch (region 0's entry). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the input as entered, the output's write-backs
    folded), every other buffer as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (region 1's entry). -/
abbrev W2 : Dev nD → Valuation τ sig (Elt F) := fun c => StableHlo.after hostOps1 (W1 m ρ c)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves, every other buffer as entered. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## Reading the fold back -/

/-- A reference the host stretch does not write holds after it what it held before. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- The statistics array at region 0's exit: what its write-backs leave. -/
theorem W1_main_v0 (c : Dev nD) : W1 m ρ c (Proc.devRef .tc main_v0) = (R0.dat0 (V0 m ρ) c).arrAt 1 cfg0.N :=
  W1_arr m ρ c 1
/-- The result array at the end: what region 1's write-backs leave. -/
theorem W3_main_v42 (c : Dev nD) : W3 m ρ c (Proc.devRef .tc main_v42) = (R1.dat1 (V2 m ρ) c).arrAt 6 cfg1.N :=
  W3_arr m ρ c 6

/-- The first argument ends as launched: both regions read it through an input window, the host stretch does not
    write it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((R1.dat1 (V2 m ρ) c).arrAt_in 0 rfl _).trans (R1.A_eq1 (V2 m ρ) c 0))
    _ = W1 m ρ c (Proc.devRef .tc main_arg0) := W2_of m ρ c main_arg0 (by decide)
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl
/-- The second argument ends as launched: no region has it as an array, the host stretch only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
/-- The third argument ends as launched: region 1 reads it through an input window, nothing else touches it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 5).trans (((R1.dat1 (V2 m ρ) c).arrAt_in 5 rfl _).trans (R1.A_eq1 (V2 m ρ) c 5))
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

/-! ## The proof data family and the thread state -/

/-- Every pipeline's proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends at
    those references at the operations' fold over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W0`, left at `W1`.  Its arrays split
    out of the unscoped buffers and put back at the exit contents; the generator register and the scoped buffers
    no window stages make the class invariant, from which the region's own invariant at the first point follows,
    and its invariant at the last point gives the class invariant back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (V0 m ρ) c)
    unfold Pipeline.ΦA
    iintro ⟨Hp, -, Hr⟩
    isplitl [Hr]; · iexact Hr
    iexact Hp
  hout c := by
    rw [Pipeline.ownSems0_none]
    refine BIBase.Entails.trans (R0.hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch
    reads at the end).  Its invariant is the class invariant at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: region 0, the host stretch from region 0's exit contents, region 1. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each unscoped buffer of each core holds the
    last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the
    three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Run
end
-- ==== Proof.Spec.lean ====
/-
  The specification shared by both sides: a per-irrep batch normalisation of an array x : [4, 16384, 960]
  over the extended reals.  Along the last axis the 960 columns are three segments: columns 0–255 (256
  scalar features), 256–639 (128 features of 3 components) and 640–959 (64 features of 5 components).
  For each batch entry b the statistics are sums over all 16384 rows and all columns of a segment:
  the sum and the sum of squares of segment 0, and the sums of squares of segments 1 and 2.  From them:
  the mean of segment 0, and one reciprocal square root per segment, of (mean square − mean² + ε) for
  segment 0 and of (mean square + ε) for the others, the mean square taken per FEATURE (so the divisors
  are 16384·256, 16384·128, 16384·64).  The result scales each segment (segment 0 after centring) and
  applies a per-feature weight (and, for segment 0, a per-feature bias).
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 16384, 960]⟩
abbrev SSt : Shape := ⟨3, ![4, 1, 4]⟩
abbrev SW : Shape := ⟨1, ![448]⟩
abbrev SB : Shape := ⟨1, ![256]⟩
abbrev SW1 : Shape := ⟨1, ![384]⟩
abbrev SW2 : Shape := ⟨1, ![320]⟩

/-- The divisors 2^22, 2^21, 2^20 (the number of rows times the number of features of a segment) and ε, as
    the float words both programs spell them with. -/
def n0 : EReal := Ideal.ofBits .f32 0x4A800000#32
def n1 : EReal := Ideal.ofBits .f32 0x4A000000#32
def n2 : EReal := Ideal.ofBits .f32 0x49800000#32
def eps : EReal := Ideal.ofBits .f32 0x3727C5AC#32

/-- Column j of segment 0, 1, 2 as a column of the whole array. -/
abbrev c0 (j : Fin 256) : Fin 960 := ⟨j.val, by omega⟩
abbrev c1 (j : Fin 384) : Fin 960 := ⟨256 + j.val, by omega⟩
abbrev c2 (j : Fin 320) : Fin 960 := ⟨640 + j.val, by omega⟩

/-- The four raw statistics of batch entry b. -/
def sum0 (x : SX.Idx → EReal) (b : Fin 4) : EReal := ∑ t : Fin 16384, ∑ j : Fin 256, x (ix3 b t (c0 j))
def sq0 (x : SX.Idx → EReal) (b : Fin 4) : EReal := ∑ t : Fin 16384, ∑ j : Fin 256, x (ix3 b t (c0 j)) * x (ix3 b t (c0 j))
def sq1 (x : SX.Idx → EReal) (b : Fin 4) : EReal := ∑ t : Fin 16384, ∑ j : Fin 384, x (ix3 b t (c1 j)) * x (ix3 b t (c1 j))
def sq2 (x : SX.Idx → EReal) (b : Fin 4) : EReal := ∑ t : Fin 16384, ∑ j : Fin 320, x (ix3 b t (c2 j)) * x (ix3 b t (c2 j))

/-- The raw statistics as a [4, 1, 4] array: entry (b, 0, k) is statistic k of batch entry b. -/
def rawc (x : SX.Idx → EReal) (b : Fin 4) (k : Fin 4) : EReal :=
  if k.val = 0 then sum0 x b else if k.val = 1 then sq0 x b else if k.val = 2 then sq1 x b else sq2 x b
def raw (x : SX.Idx → EReal) : SSt.Idx → EReal := fun i => rawc x (i 0) (i 2)

/-- From raw statistics to (mean, 1/σ₀, 1/σ₁, 1/σ₂), entry by entry of a [4, 1, 4] array. -/
def mean0 (s : SSt.Idx → EReal) (b : Fin 4) : EReal := Ideal.div (s (ix3 b 0 0)) n0
def inv0 (s : SSt.Idx → EReal) (b : Fin 4) : EReal :=
  Ideal.rsqrt (Ideal.div (s (ix3 b 0 1)) n0 - mean0 s b * mean0 s b + eps)
def inv1 (s : SSt.Idx → EReal) (b : Fin 4) : EReal := Ideal.rsqrt (Ideal.div (s (ix3 b 0 2)) n1 + eps)
def inv2 (s : SSt.Idx → EReal) (b : Fin 4) : EReal := Ideal.rsqrt (Ideal.div (s (ix3 b 0 3)) n2 + eps)
def coefc (s : SSt.Idx → EReal) (b : Fin 4) (k : Fin 4) : EReal :=
  if k.val = 0 then mean0 s b else if k.val = 1 then inv0 s b else if k.val = 2 then inv1 s b else inv2 s b
def coef (s : SSt.Idx → EReal) : SSt.Idx → EReal := fun i => coefc s (i 0) (i 2)

/-- The per-column weights of the three segments from the 448 per-feature weights: segment 0's are the first
    256; a feature of segment 1 (2) weighs each of its 3 (5) consecutive columns alike. -/
def w0c (w : SW.Idx → EReal) (j : Fin 256) : EReal := w (ix1 (⟨j.val, by omega⟩ : Fin 448))
def w1c (w : SW.Idx → EReal) (j : Fin 384) : EReal := w (ix1 (⟨256 + j.val / 3, by omega⟩ : Fin 448))
def w2c (w : SW.Idx → EReal) (j : Fin 320) : EReal := w (ix1 (⟨384 + j.val / 5, by omega⟩ : Fin 448))
def w0 (w : SW.Idx → EReal) : SB.Idx → EReal := fun i => w0c w (i 0)
def w1 (w : SW.Idx → EReal) : SW1.Idx → EReal := fun i => w1c w (i 0)
def w2 (w : SW.Idx → EReal) : SW2.Idx → EReal := fun i => w2c w (i 0)

/-- The normalisation given the coefficients st = (mean, 1/σ₀, 1/σ₁, 1/σ₂) per batch entry and the per-column
    weights of each segment, at coordinates (b, t, j). -/
def normc (x : SX.Idx → EReal) (st : SSt.Idx → EReal) (v0 : SB.Idx → EReal) (v1 : SW1.Idx → EReal) (v2 : SW2.Idx → EReal)
    (bias : SB.Idx → EReal) (b : Fin 4) (t : Fin 16384) (j : Fin 960) : EReal :=
  if h0 : j.val < 256 then
    (x (ix3 b t j) - st (ix3 b 0 0)) * st (ix3 b 0 1) * v0 (ix1 (⟨j.val, h0⟩ : Fin 256)) + bias (ix1 (⟨j.val, h0⟩ : Fin 256))
  else if h1 : j.val < 640 then
    x (ix3 b t j) * st (ix3 b 0 2) * v1 (ix1 (⟨j.val - 256, by omega⟩ : Fin 384))
  else
    x (ix3 b t j) * st (ix3 b 0 3) * v2 (ix1 (⟨j.val - 640, by have := j.isLt; omega⟩ : Fin 320))
def norm (x : SX.Idx → EReal) (st : SSt.Idx → EReal) (v0 : SB.Idx → EReal) (v1 : SW1.Idx → EReal) (v2 : SW2.Idx → EReal)
    (bias : SB.Idx → EReal) : SX.Idx → EReal := fun i => normc x st v0 v1 v2 bias (i 0) (i 1) (i 2)

/-- The whole function: both programs' result from the three argument arrays. -/
def G (x : SX.Idx → EReal) (w : SW.Idx → EReal) (bias : SB.Idx → EReal) : SX.Idx → EReal :=
  norm x (coef (raw x)) (w0 w) (w1 w) (w2 w) bias

end Cert.Spec

end
-- ==== Proof.KI.HostGlue.lean ====
/-
  The host operations between the two kernels, read as functions of what they are applied to (at the ideal instance):
  from the raw statistics array [4, 1, 4] (per batch entry: the sum and the sum of squares of segment 0, the sums of
  squares of segments 1 and 2) to the coefficient array [4, 1, 4] (the mean of segment 0, and one reciprocal square
  root per segment), and from the 448 per-feature weights to the per-column weights of the three segments.
-/
import proofs.«127636_j91010357002261_1_alg».proof.Proof.Gen.KernelIdeal.Launch
import proofs.«127636_j91010357002261_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostGlue
open Cert.KernelIdeal Cert.KernelIdeal.Gen
open Idealize.ShloMosaic Idealize.ShloMosaic.TcCoe Idealize.ShloMosaic.ValueIdx Idealize.SL.Sem
open Idealize.ShloMosaic.StableHlo

/-! ## The operations' composed terms -/

/-- Column k of the raw statistics as a vector over the batch entries. -/
def col0 (s : FVec Ideal S4x1x4 .f32) : FVec Ideal S4 .f32 :=
  shapeCast S4 (extractStridedSlice S4x1 ![0, 0] (shapeCast S4x4 s shapeCasts_S4x1x4_S4x4) slices_S4x4_S4x1_0_0) shapeCasts_S4x1_S4
def col1 (s : FVec Ideal S4x1x4 .f32) : FVec Ideal S4 .f32 :=
  shapeCast S4 (extractStridedSlice S4x1 ![0, 1] (shapeCast S4x4 s shapeCasts_S4x1x4_S4x4) slices_S4x4_S4x1_0_1) shapeCasts_S4x1_S4
def col2 (s : FVec Ideal S4x1x4 .f32) : FVec Ideal S4 .f32 :=
  shapeCast S4 (extractStridedSlice S4x1 ![0, 2] (shapeCast S4x4 s shapeCasts_S4x1x4_S4x4) slices_S4x4_S4x1_0_2) shapeCasts_S4x1_S4
def col3 (s : FVec Ideal S4x1x4 .f32) : FVec Ideal S4 .f32 :=
  shapeCast S4 (extractStridedSlice S4x1 ![0, 3] (shapeCast S4x4 s shapeCasts_S4x1x4_S4x4) slices_S4x4_S4x1_0_3) shapeCasts_S4x1_S4

/-- A float word spread over the four batch entries. -/
def splat (b : BitVec 32) : FVec Ideal S4 .f32 := broadcastInDim S4 ![] bcast_S_S4 (constant (F := Ideal) S_ .f32 b)

def meanT (s : FVec Ideal S4x1x4 .f32) : FVec Ideal S4 .f32 := Host.divf (F := Ideal) (col0 s) (splat 0x4A800000#32)
def inv0T (s : FVec Ideal S4x1x4 .f32) : FVec Ideal S4 .f32 :=
  Host.rsqrt (F := Ideal) (addf (subf (Host.divf (F := Ideal) (col1 s) (splat 0x4A800000#32)) (mulf (meanT s) (meanT s))) (splat 0x3727C5AC#32))
def inv1T (s : FVec Ideal S4x1x4 .f32) : FVec Ideal S4 .f32 :=
  Host.rsqrt (F := Ideal) (addf (Host.divf (F := Ideal) (col2 s) (splat 0x4A000000#32)) (splat 0x3727C5AC#32))
def inv2T (s : FVec Ideal S4x1x4 .f32) : FVec Ideal S4 .f32 :=
  Host.rsqrt (F := Ideal) (addf (Host.divf (F := Ideal) (col3 s) (splat 0x49800000#32)) (splat 0x3727C5AC#32))

/-- The coefficient array as the host operations compute it from the raw statistics. -/
def coefT (s : FVec Ideal S4x1x4 .f32) : FVec Ideal S4x1x4 .f32 :=
  shapeCast S4x1x4 (concatenate S4x4 1 [⟨S4x1, broadcastInDim S4x1 ![0] bcast_S4_S4x1_0 (meanT s)⟩, ⟨S4x1, broadcastInDim S4x1 ![0] bcast_S4_S4x1_0 (inv0T s)⟩,
    ⟨S4x1, broadcastInDim S4x1 ![0] bcast_S4_S4x1_0 (inv1T s)⟩, ⟨S4x1, broadcastInDim S4x1 ![0] bcast_S4_S4x1_0 (inv2T s)⟩] concatenates_S4x1_S4x1_S4x1_S4x1_S4x4_d1) shapeCasts_S4x4_S4x1x4

def w0T (w : FVec Ideal S448 .f32) : FVec Ideal S256 .f32 := extractStridedSlice S256 ![0] w slices_S448_S256_0
def w1T (w : FVec Ideal S448 .f32) : FVec Ideal S384 .f32 :=
  shapeCast S384 (broadcastInDim S128x3 ![0] bcast_S128_S128x3_0 (extractStridedSlice S128 ![256] w slices_S448_S128_256)) shapeCasts_S128x3_S384
def w2T (w : FVec Ideal S448 .f32) : FVec Ideal S320 .f32 :=
  shapeCast S320 (broadcastInDim S64x5 ![0] bcast_S64_S64x5_0 (extractStridedSlice S64 ![384] w slices_S448_S64_384)) shapeCasts_S64x5_S320

/-! ## What the buffers the second kernel reads hold after the host operations -/

variable (Wv : Valuation τ sig (Elt Ideal))

set_option maxHeartbeats 2000000 in
theorem after_v34 : StableHlo.after (hostOps1 (F := Ideal)) Wv (Proc.devRef .tc main_v34) = coefT (Wv (Proc.devRef .tc main_v0)) := by
  after_results
  rfl

theorem after_v35 : StableHlo.after (hostOps1 (F := Ideal)) Wv (Proc.devRef .tc main_v35) = w0T (Wv (Proc.devRef .tc main_arg1)) := by
  after_results
  rfl

theorem after_v38 : StableHlo.after (hostOps1 (F := Ideal)) Wv (Proc.devRef .tc main_v38) = w1T (Wv (Proc.devRef .tc main_arg1)) := by
  after_results
  rfl

theorem after_v41 : StableHlo.after (hostOps1 (F := Ideal)) Wv (Proc.devRef .tc main_v41) = w2T (Wv (Proc.devRef .tc main_arg1)) := by
  after_results
  rfl

/-! ## The composed terms read at an index -/

/-- Column k of the raw statistics at batch entry b is the array's entry (b, 0, k). -/
theorem col_apply (k : Nat) (hk : k < 4) (h : S4x4.Slices ![0, k] S4x1) (s : FVec Ideal S4x1x4 .f32) (b : Fin 4) :
    shapeCast S4 (extractStridedSlice S4x1 ![0, k] (shapeCast S4x4 s shapeCasts_S4x1x4_S4x4) h) shapeCasts_S4x1_S4 (ix1 b)
      = s (ix3 b (0 : Fin 1) (⟨k, hk⟩ : Fin 4)) := by
  refine (shapeCast_apply _ shapeCasts_S4x1_S4 (ix1 b) (ix2 b (0 : Fin 1)) (by
    rw [Shape.rowMajor_val_two, Shape.rowMajor_val_one]; show b.val * 1 + 0 = b.val; omega)).trans ?_
  refine (extractStridedSlice_apply ![0, k] _ h (ix2 b (0 : Fin 1)) (ix2 b (⟨k, hk⟩ : Fin 4)) (fun a => by
    match a with
    | ⟨0, _⟩ => exact (Nat.zero_add _).symm
    | ⟨1, _⟩ => exact (Nat.add_zero _).symm)).trans ?_
  exact shapeCast_apply _ shapeCasts_S4x1x4_S4x4 (ix2 b (⟨k, hk⟩ : Fin 4)) (ix3 b (0 : Fin 1) (⟨k, hk⟩ : Fin 4)) (by
    rw [Shape.rowMajor_val_three, Shape.rowMajor_val_two]; show (b.val * 1 + 0) * 4 + k = b.val * 4 + k; omega)

theorem splat_apply (w : BitVec 32) (i : S4.Idx) : splat w i = Ideal.ofBits .f32 w := rfl

theorem meanT_apply (s : FVec Ideal S4x1x4 .f32) (b : Fin 4) : meanT s (ix1 b) = Cert.Spec.mean0 s b := by
  unfold meanT Cert.Spec.mean0 Cert.Spec.n0 col0 Host.divf
  rw [col_apply 0 (by omega) slices_S4x4_S4x1_0_0 s b]
  rfl

/-- A column of the raw statistics divided by a float word, at batch entry b. -/
theorem divcol_apply (k : Nat) (hk : k < 4) (h : S4x4.Slices ![0, k] S4x1) (w : BitVec 32) (s : FVec Ideal S4x1x4 .f32) (b : Fin 4) :
    Host.divf (F := Ideal) (shapeCast S4 (extractStridedSlice S4x1 ![0, k] (shapeCast S4x4 s shapeCasts_S4x1x4_S4x4) h) shapeCasts_S4x1_S4) (splat w) (ix1 b)
      = Ideal.div (s (ix3 b (0 : Fin 1) (⟨k, hk⟩ : Fin 4))) (Ideal.ofBits .f32 w) := by
  show FloatOps.hostDivf (shapeCast S4 (extractStridedSlice S4x1 ![0, k] (shapeCast S4x4 s shapeCasts_S4x1x4_S4x4) h) shapeCasts_S4x1_S4 (ix1 b)) (splat w (ix1 b)) = _
  rw [col_apply k hk h s b]
  rfl

theorem inv0T_apply (s : FVec Ideal S4x1x4 .f32) (b : Fin 4) : inv0T s (ix1 b) = Cert.Spec.inv0 s b := by
  show FloatOps.hostUnary .rsqrt (Host.divf (F := Ideal) (col1 s) (splat 0x4A800000#32) (ix1 b) - meanT s (ix1 b) * meanT s (ix1 b) + splat 0x3727C5AC#32 (ix1 b)) = _
  unfold col1
  rw [meanT_apply, divcol_apply 1 (by omega) slices_S4x4_S4x1_0_1]
  rfl

theorem inv1T_apply (s : FVec Ideal S4x1x4 .f32) (b : Fin 4) : inv1T s (ix1 b) = Cert.Spec.inv1 s b := by
  show FloatOps.hostUnary .rsqrt (Host.divf (F := Ideal) (col2 s) (splat 0x4A000000#32) (ix1 b) + splat 0x3727C5AC#32 (ix1 b)) = _
  unfold col2
  rw [divcol_apply 2 (by omega) slices_S4x4_S4x1_0_2]
  rfl

theorem inv2T_apply (s : FVec Ideal S4x1x4 .f32) (b : Fin 4) : inv2T s (ix1 b) = Cert.Spec.inv2 s b := by
  show FloatOps.hostUnary .rsqrt (Host.divf (F := Ideal) (col3 s) (splat 0x49800000#32) (ix1 b) + splat 0x3727C5AC#32 (ix1 b)) = _
  unfold col3
  rw [divcol_apply 3 (by omega) slices_S4x4_S4x1_0_3]
  rfl

/-- A vector over the batch entries laid as a column [4, 1], read at (b, 0). -/
theorem column_apply (v : FVec Ideal S4 .f32) (b : Fin 4) :
    broadcastInDim S4x1 ![0] bcast_S4_S4x1_0 v (ix2 b (0 : Fin 1)) = v (ix1 b) :=
  broadcastInDim_apply _ bcast_S4_S4x1_0 v (ix2 b (0 : Fin 1)) (ix1 b) (fun a => by
    match a with
    | ⟨0, _⟩ => rfl)

/-- Four columns side by side. -/
abbrev cols (p0 p1 p2 p3 : FVec Ideal S4x1 .f32) : List ((s : Shape) × (s.Idx → EReal)) :=
  [⟨S4x1, p0⟩, ⟨S4x1, p1⟩, ⟨S4x1, p2⟩, ⟨S4x1, p3⟩]

theorem cols_hi (b : Fin 4) (k : Fin 4) : ∀ b' : Fin S4x1.rank, b'.cast (rfl : S4x1.rank = S4x4.rank) ≠ (1 : Fin S4x4.rank) →
    ((ix2 b (0 : Fin 1) : S4x1.Idx) b').val = ((ix2 b k : S4x4.Idx) (b'.cast rfl)).val := fun b' hb' => by
  match b' with
  | ⟨0, _⟩ => rfl
  | ⟨1, _⟩ => exact absurd rfl hb'

/-- Four columns side by side read at (b, k): column k at (b, 0). -/
theorem cat4_apply0 (p0 p1 p2 p3 : FVec Ideal S4x1 .f32) (b : Fin 4) :
    concatenate S4x4 1 (cols p0 p1 p2 p3) concatenates_S4x1_S4x1_S4x1_S4x1_S4x4_d1 (ix2 b (0 : Fin 4)) = p0 (ix2 b (0 : Fin 1)) :=
  concatenate_apply_piece 1 (cols p0 p1 p2 p3) concatenates_S4x1_S4x1_S4x1_S4x1_S4x4_d1 (ix2 b (0 : Fin 4)) 0 (by show 0 < 4; omega) S4x1 p0 rfl rfl 0 rfl (ix2 b (0 : Fin 1)) (cols_hi b 0) rfl
theorem cat4_apply1 (p0 p1 p2 p3 : FVec Ideal S4x1 .f32) (b : Fin 4) :
    concatenate S4x4 1 (cols p0 p1 p2 p3) concatenates_S4x1_S4x1_S4x1_S4x1_S4x4_d1 (ix2 b (1 : Fin 4)) = p1 (ix2 b (0 : Fin 1)) :=
  concatenate_apply_piece 1 (cols p0 p1 p2 p3) concatenates_S4x1_S4x1_S4x1_S4x1_S4x4_d1 (ix2 b (1 : Fin 4)) 1 (by show 1 < 4; omega) S4x1 p1 rfl rfl 1 rfl (ix2 b (0 : Fin 1)) (cols_hi b 1) rfl
theorem cat4_apply2 (p0 p1 p2 p3 : FVec Ideal S4x1 .f32) (b : Fin 4) :
    concatenate S4x4 1 (cols p0 p1 p2 p3) concatenates_S4x1_S4x1_S4x1_S4x1_S4x4_d1 (ix2 b (2 : Fin 4)) = p2 (ix2 b (0 : Fin 1)) :=
  concatenate_apply_piece 1 (cols p0 p1 p2 p3) concatenates_S4x1_S4x1_S4x1_S4x1_S4x4_d1 (ix2 b (2 : Fin 4)) 2 (by show 2 < 4; omega) S4x1 p2 rfl rfl 2 rfl (ix2 b (0 : Fin 1)) (cols_hi b 2) rfl
theorem cat4_apply3 (p0 p1 p2 p3 : FVec Ideal S4x1 .f32) (b : Fin 4) :
    concatenate S4x4 1 (cols p0 p1 p2 p3) concatenates_S4x1_S4x1_S4x1_S4x1_S4x4_d1 (ix2 b (3 : Fin 4)) = p3 (ix2 b (0 : Fin 1)) :=
  concatenate_apply_piece 1 (cols p0 p1 p2 p3) concatenates_S4x1_S4x1_S4x1_S4x1_S4x4_d1 (ix2 b (3 : Fin 4)) 3 (by show 3 < 4; omega) S4x1 p3 rfl rfl 3 rfl (ix2 b (0 : Fin 1)) (cols_hi b 3) rfl

/-- The coefficient array the host operations compute is the specification's. -/
theorem coefT_eq (s : FVec Ideal S4x1x4 .f32) : coefT s = Cert.Spec.coef s := by
  funext i
  obtain ⟨b, z, k, rfl⟩ : ∃ (b : Fin 4) (z : Fin 1) (k : Fin 4), i = ix3 b z k := ⟨i 0, i 1, i 2, eq_ix3 i⟩
  unfold coefT
  refine (shapeCast_apply _ shapeCasts_S4x4_S4x1x4 (ix3 b z k) (ix2 b k) (by
    rw [Shape.rowMajor_val_three, Shape.rowMajor_val_two]
    show b.val * 4 + k.val = (b.val * 1 + z.val) * 4 + k.val
    have := z.isLt; omega)).trans ?_
  show _ = Cert.Spec.coefc s b k
  match k with
  | ⟨0, _⟩ => exact (cat4_apply0 _ _ _ _ b).trans ((column_apply _ b).trans (meanT_apply s b))
  | ⟨1, _⟩ => exact (cat4_apply1 _ _ _ _ b).trans ((column_apply _ b).trans (inv0T_apply s b))
  | ⟨2, _⟩ => exact (cat4_apply2 _ _ _ _ b).trans ((column_apply _ b).trans (inv1T_apply s b))
  | ⟨3, _⟩ => exact (cat4_apply3 _ _ _ _ b).trans ((column_apply _ b).trans (inv2T_apply s b))

/-- The per-column weights the host operations compute are the specification's. -/
theorem w0T_eq (w : FVec Ideal S448 .f32) : w0T w = Cert.Spec.w0 w := by
  funext i
  obtain ⟨j, rfl⟩ : ∃ j : Fin 256, i = ix1 j := ⟨i 0, eq_ix1 i⟩
  show _ = Cert.Spec.w0c w j
  exact extractStridedSlice_apply ![0] w slices_S448_S256_0 (ix1 j) (ix1 (⟨j.val, by omega⟩ : Fin 448)) (fun a => by
    match a with
    | ⟨0, _⟩ => exact (Nat.zero_add _).symm)

theorem w1T_eq (w : FVec Ideal S448 .f32) : w1T w = Cert.Spec.w1 w := by
  funext i
  obtain ⟨j, rfl⟩ : ∃ j : Fin 384, i = ix1 j := ⟨i 0, eq_ix1 i⟩
  show _ = Cert.Spec.w1c w j
  unfold w1T
  refine (shapeCast_apply _ shapeCasts_S128x3_S384 (ix1 j) (ix2 (⟨j.val / 3, by omega⟩ : Fin 128) (⟨j.val % 3, by omega⟩ : Fin 3)) (by
    rw [Shape.rowMajor_val_two, Shape.rowMajor_val_one]
    show j.val / 3 * 3 + j.val % 3 = j.val
    omega)).trans ?_
  refine (broadcastInDim_apply _ bcast_S128_S128x3_0 _ (ix2 (⟨j.val / 3, by omega⟩ : Fin 128) (⟨j.val % 3, by omega⟩ : Fin 3)) (ix1 (⟨j.val / 3, by omega⟩ : Fin 128)) (fun a => by
    match a with
    | ⟨0, _⟩ => rfl)).trans ?_
  exact extractStridedSlice_apply ![256] w slices_S448_S128_256 (ix1 (⟨j.val / 3, by omega⟩ : Fin 128)) (ix1 (⟨256 + j.val / 3, by omega⟩ : Fin 448)) (fun a => by
    match a with
    | ⟨0, _⟩ => rfl)

theorem w2T_eq (w : FVec Ideal S448 .f32) : w2T w = Cert.Spec.w2 w := by
  funext i
  obtain ⟨j, rfl⟩ : ∃ j : Fin 320, i = ix1 j := ⟨i 0, eq_ix1 i⟩
  show _ = Cert.Spec.w2c w j
  unfold w2T
  refine (shapeCast_apply _ shapeCasts_S64x5_S320 (ix1 j) (ix2 (⟨j.val / 5, by omega⟩ : Fin 64) (⟨j.val % 5, by omega⟩ : Fin 5)) (by
    rw [Shape.rowMajor_val_two, Shape.rowMajor_val_one]
    show j.val / 5 * 5 + j.val % 5 = j.val
    omega)).trans ?_
  refine (broadcastInDim_apply _ bcast_S64_S64x5_0 _ (ix2 (⟨j.val / 5, by omega⟩ : Fin 64) (⟨j.val % 5, by omega⟩ : Fin 5)) (ix1 (⟨j.val / 5, by omega⟩ : Fin 64)) (fun a => by
    match a with
    | ⟨0, _⟩ => rfl)).trans ?_
  exact extractStridedSlice_apply ![384] w slices_S448_S64_384 (ix1 (⟨j.val / 5, by omega⟩ : Fin 64)) (ix1 (⟨384 + j.val / 5, by omega⟩ : Fin 448)) (fun a => by
    match a with
    | ⟨0, _⟩ => rfl)

end Cert.KernelIdeal.HostGlue

end
-- ==== Proof.KI.Val0A.lean ====
/-
  What each control case of the statistics kernel leaves, as the body's arithmetic: the accumulator after row tile 0
  is the zero vector plus the tile's four partial sums, after any later row tile it is what it held plus the tile's
  four partial sums, and at row tile 3 the output block receives the accumulator re-laid as [1, 1, 4].  Each is read
  off the stores the run found: one covering store (two at row tile 0, the second covering the first), whose loads
  read whole buffers.
-/
import proofs.«127636_j91010357002261_1_alg».proof.Proof.KI.Reg0
import Idealize.ShloMosaic.Lib.Pipeline.Value

set_option maxRecDepth 16384

noncomputable section

namespace Cert.KernelIdeal.R0V
open Cert.KernelIdeal Cert.KernelIdeal.Gen Cert.KernelIdeal.R0
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row tiles 1 and 2: the accumulator ends at what it held plus the tile's partial sums. -/
theorem sout_B (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : ¬cond0_1 i)
    (x0 : Vec F S1x4096x960 .f32) (xs0 : Vec F S1x4 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero (S := S1x4) hz2]
  simp only [View.readAt_eq_ld, harg2.read_unread, harg4.read_unread, View.ld_unit_zero (S := S1x4096x960) hz3, View.ld_unit_zero (S := S1x4) hz2]

/-- Row tile 0: the accumulator is reset to the zero vector, read back, and ends at zero plus the tile's partial sums. -/
theorem sout_A (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : cond0_0 i) (hc1 : ¬cond0_1 i)
    (x0 : Vec F S1x4096x960 .f32) :
    sout0_A_0 c i arg2 harg2 arg3 harg3 arg4 harg4 hc0 hc1 x0 = k0_pay2 x0 k0_pay1 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S1x4) hz2, View.readCov_unit_zero (S := S1x4) _ hz2]
  simp only [View.readAt_eq_ld, harg2.read_unread, View.ld_unit_zero (S := S1x4096x960) hz3]

/-- Row tile 3: the accumulator ends at what it held plus the tile's partial sums, -/
theorem sout_C (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (S := S1x4) hz2]
  simp only [View.readAt_eq_ld, harg2.read_unread, harg4.read_unread, View.ld_unit_zero (S := S1x4096x960) hz3, View.ld_unit_zero (S := S1x4) hz2]

/-- and the output block receives that accumulator, read back and re-laid as [1, 1, 4]. -/
theorem out_C (c : Dev nD) (i : grid0.Coords) (arg2 : Memref sig .tc .vmem S1x4096x960 .f32) (harg2 : arg2.IsWhole) (arg3 : Memref sig .tc .vmem S1x1x4 .f32) (harg3 : arg3.IsWhole) (arg4 : Memref sig .tc .vmem S1x4 .f32) (harg4 : arg4.IsWhole) (hc0 : ¬cond0_0 i) (hc1 : cond0_1 i)
    (x0 : Vec F S1x4096x960 .f32) (xs0 : Vec F S1x4 .f32) :
    out0_C_1 c i arg2 harg2 arg3 harg3 arg4 harg4 hc0 hc1 x0 xs0 = k0_pay3 (k0_pay2 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S1x1x4) hz3, View.readCov_unit_zero (S := S1x4) _ hz2]
  simp only [View.readAt_eq_ld, harg2.read_unread, harg4.read_unread, View.ld_unit_zero (S := S1x4096x960) hz3, View.ld_unit_zero (S := S1x4) hz2]

end Cert.KernelIdeal.R0V
end
-- ==== Proof.KI.Val0B.lean ====
/-
  The statistics kernel's arithmetic over the extended reals.  The body turns a block x : [1, 4096, 960] and the
  accumulator acc : [1, 4] into acc + [p0, q0, q1, q2] where p0 is the sum of the block's first 256 columns over all its
  4096 rows, and q0, q1, q2 are the sums of squares of columns 0–255, 256–639 and 640–959.  Each of the four is a
  total reduction of a [1, 4096, n] array (a slice of the block, squared or not) onto a one-element shape, hence the
  sum over all (row, column) pairs; the four are laid side by side along axis 1 and added to the accumulator
  entry by entry.
-/
import proofs.«127636_j91010357002261_1_alg».proof.Proof.Gen.KernelIdeal.Skeleton
import proofs.«127636_j91010357002261_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.R0V
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)
open Idealize.ShloMosaic.ValueIdx

/-! ## Sums over index sets -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a leading axis of extent 1 the outer sum has one term. -/
theorem sum_idx3_unit {M : Type*} [AddCommMonoid M] {n1 n2 : Nat} (f : (⟨3, ![1, n1, n2]⟩ : Shape).Idx → M) :
    ∑ i, f i = ∑ b : Fin n1, ∑ c : Fin n2, f (ix3 (0 : Fin 1) b c) := by
  rw [sum_idx3, Fin.sum_univ_one]

/-! ## The body's layout operations read at an index -/

/-- Columns off … off + n − 1 of the block viewed as [4096, 960], at (r, j): the block at (0, r, off + j). -/
theorem slice_read (n off : Nat) (hle : off + n ≤ 960) (x : (⟨3, ![1, 4096, 960]⟩ : Shape).Idx → EReal)
    (h1 : S1x4096x960.ShapeCasts S4096x960) (h2 : S4096x960.Slices ![0, off] ⟨2, ![4096, n]⟩) (r : Fin 4096) (j : Fin n) :
    extractStridedSlice ⟨2, ![4096, n]⟩ ![0, off] (shapeCast S4096x960 x h1) h2 (ix2 r j)
      = x (ix3 (0 : Fin 1) r (⟨off + j.val, by have := j.isLt; omega⟩ : Fin 960)) := by
  refine (extractStridedSlice_apply ![0, off] _ h2 (ix2 r j) (ix2 r (⟨off + j.val, by have := j.isLt; omega⟩ : Fin 960)) (fun a => ?_)).trans ?_
  · match a with
    | ⟨0, _⟩ => show r.val = 0 + r.val; omega
    | ⟨1, _⟩ => rfl
  · refine (shapeCast_dropUnit_apply ![4096, 960] x h1 _).trans (congrArg x (funext fun a => ?_))
    match a with
    | ⟨0, _⟩ => rfl
    | ⟨1, _⟩ => rfl
    | ⟨2, _⟩ => rfl

/-- The total reduction of a [4096, n] array, re-laid as [1, 4096, n], onto the one-element shape, read back as a
    scalar: the sum over all rows and columns. -/
theorem red_read (n : Nat) (v : (⟨2, ![4096, n]⟩ : Shape).Idx → EReal)
    (h3 : (⟨2, ![4096, n]⟩ : Shape).ShapeCasts ⟨3, ![1, 4096, n]⟩)
    (h : (⟨3, ![1, 4096, n]⟩ : Shape).Reduces [1, 2] S1) (hφ : FKind.Formats .f32)
    (hacc : (0x00000000#32 : BitVec 32) = FKind.add.neutral .f32 hφ) (h4 : S1.ShapeCasts S1x1x1)
    (hp : ∀ a, (![0, 0, 0] : Fin 3 → Nat) a < S1x1x1.size a) :
    extractAt ![0, 0, 0] (shapeCast S1x1x1
        (multiReduction (F := Ideal) (φ := .f32) .add [1, 2] S1 (shapeCast ⟨3, ![1, 4096, n]⟩ v h3) 0x00000000#32 h hφ hacc) h4) hp
      = ∑ r : Fin 4096, ∑ j : Fin n, v (ix2 r j) := by
  unfold extractAt
  refine (shapeCast_apply _ h4 _ (ix1 (0 : Fin 1)) (by rw [Shape.rowMajor_val_one, Shape.rowMajor_val_three]; rfl)).trans ?_
  refine (Ideal.multiReduction_add_total _ _ h (fun b => by match b with | ⟨0, _⟩ => rfl) hφ hacc _).trans ?_
  refine (sum_idx3_unit _).trans (Finset.sum_congr rfl fun r _ => Finset.sum_congr rfl fun j _ => ?_)
  refine (shapeCast_addUnit_apply ![4096, n] v h3 _).trans (congrArg v (funext fun a => ?_))
  match a with
  | ⟨0, _⟩ => rfl
  | ⟨1, _⟩ => rfl

/-- Four one-element pieces laid side by side along axis 1, at (0, k): the k-th. -/
theorem conc4_apply (y0 y1 y2 y3 : EReal)
    (h : Shape.Concatenates (([⟨S1x1, broadcast S1x1 y0⟩, ⟨S1x1, broadcast S1x1 y1⟩, ⟨S1x1, broadcast S1x1 y2⟩, ⟨S1x1, broadcast S1x1 y3⟩] : List ((s : Shape) × (s.Idx → EReal))).map (·.1)) S1x4 1)
    (k : Fin 4) :
    concatenate S1x4 1 [⟨S1x1, broadcast S1x1 y0⟩, ⟨S1x1, broadcast S1x1 y1⟩, ⟨S1x1, broadcast S1x1 y2⟩, ⟨S1x1, broadcast S1x1 y3⟩] h (ix2 (0 : Fin 1) k)
      = if k.val = 0 then y0 else if k.val = 1 then y1 else if k.val = 2 then y2 else y3 := by
  have hi : ∀ (k : Fin 4) (b : Fin S1x1.rank), b.cast (rfl : S1x1.rank = S1x4.rank) ≠ (1 : Fin 2) →
      ((ix2 (0 : Fin 1) (0 : Fin 1) : S1x1.Idx) b).val = ((ix2 (0 : Fin 1) k : S1x4.Idx) (b.cast rfl)).val := fun k b hb => by
    match b with
    | ⟨0, _⟩ => rfl
    | ⟨1, _⟩ => exact absurd rfl hb
  match k with
  | ⟨0, _⟩ => exact concatenate_apply_piece 1 _ h _ 0 (by show (0 : ℕ) < 4; omega) S1x1 _ rfl rfl 0 rfl (ix2 (0 : Fin 1) (0 : Fin 1)) (hi _) rfl
  | ⟨1, _⟩ => exact concatenate_apply_piece 1 _ h _ 1 (by show (1 : ℕ) < 4; omega) S1x1 _ rfl rfl 1 rfl (ix2 (0 : Fin 1) (0 : Fin 1)) (hi _) rfl
  | ⟨2, _⟩ => exact concatenate_apply_piece 1 _ h _ 2 (by show (2 : ℕ) < 4; omega) S1x1 _ rfl rfl 2 rfl (ix2 (0 : Fin 1) (0 : Fin 1)) (hi _) rfl
  | ⟨3, _⟩ => exact concatenate_apply_piece 1 _ h _ 3 (by show (3 : ℕ) < 4; omega) S1x1 _ rfl rfl 3 rfl (ix2 (0 : Fin 1) (0 : Fin 1)) (hi _) rfl

/-! ## A block's four partial sums -/

/-- The sum of segment 0 over a block's 4096 rows, -/
def p0 (x : (⟨3, ![1, 4096, 960]⟩ : Shape).Idx → EReal) : EReal :=
  ∑ r : Fin 4096, ∑ j : Fin 256, x (ix3 (0 : Fin 1) r (Cert.Spec.c0 j))
/-- and the sums of squares of segments 0, 1, 2. -/
def q0 (x : (⟨3, ![1, 4096, 960]⟩ : Shape).Idx → EReal) : EReal :=
  ∑ r : Fin 4096, ∑ j : Fin 256, x (ix3 (0 : Fin 1) r (Cert.Spec.c0 j)) * x (ix3 (0 : Fin 1) r (Cert.Spec.c0 j))
def q1 (x : (⟨3, ![1, 4096, 960]⟩ : Shape).Idx → EReal) : EReal :=
  ∑ r : Fin 4096, ∑ j : Fin 384, x (ix3 (0 : Fin 1) r (Cert.Spec.c1 j)) * x (ix3 (0 : Fin 1) r (Cert.Spec.c1 j))
def q2 (x : (⟨3, ![1, 4096, 960]⟩ : Shape).Idx → EReal) : EReal :=
  ∑ r : Fin 4096, ∑ j : Fin 320, x (ix3 (0 : Fin 1) r (Cert.Spec.c2 j)) * x (ix3 (0 : Fin 1) r (Cert.Spec.c2 j))
/-- The four as one vector's entries. -/
def partc (x : (⟨3, ![1, 4096, 960]⟩ : Shape).Idx → EReal) (k : Fin 4) : EReal :=
  if k.val = 0 then p0 x else if k.val = 1 then q0 x else if k.val = 2 then q1 x else q2 x

/-- THE BODY'S ARITHMETIC: the accumulator's entry k gains the block's k-th partial sum. -/
theorem pay2_apply (x : (⟨3, ![1, 4096, 960]⟩ : Shape).Idx → EReal) (acc : (⟨2, ![1, 4]⟩ : Shape).Idx → EReal) (k : Fin 4) :
    k0_pay2 (F := Ideal) x acc (ix2 (0 : Fin 1) k) = acc (ix2 (0 : Fin 1) k) + partc x k := by
  unfold k0_pay2
  dsimp only
  refine (congrFun (shapeCast_self _ _) _).trans ?_
  refine (addf_apply _ _ _).trans (congrArg (acc (ix2 (0 : Fin 1) k) + ·) ?_)
  refine (conc4_apply _ _ _ _ _ k).trans ?_
  unfold partc
  refine if_congr Iff.rfl ?_ (if_congr Iff.rfl ?_ (if_congr Iff.rfl ?_ ?_))
  · refine (red_read 256 _ _ _ _ rfl _ _).trans (Finset.sum_congr rfl fun r _ => Finset.sum_congr rfl fun j _ => ?_)
    refine (slice_read 256 0 (by omega) x _ _ r j).trans (congrArg x (congrArg (ix3 (0 : Fin 1) r) (Fin.ext ?_)))
    show 0 + j.val = j.val; omega
  · refine (red_read 256 _ _ _ _ rfl _ _).trans (Finset.sum_congr rfl fun r _ => Finset.sum_congr rfl fun j _ => ?_)
    refine (mulf_apply _ _ _).trans ?_
    have e := (slice_read 256 0 (by omega) x shapeCasts_S1x4096x960_S4096x960 slices_S4096x960_o0_0_S4096x256 r j).trans
      (congrArg x (congrArg (ix3 (0 : Fin 1) r) (Fin.ext (show 0 + j.val = j.val by omega) : (⟨0 + j.val, by have := j.isLt; omega⟩ : Fin 960) = Cert.Spec.c0 j)))
    exact congrArg₂ (· * ·) e e
  · refine (red_read 384 _ _ _ _ rfl _ _).trans (Finset.sum_congr rfl fun r _ => Finset.sum_congr rfl fun j _ => ?_)
    refine (mulf_apply _ _ _).trans ?_
    have e := slice_read 384 256 (by omega) x shapeCasts_S1x4096x960_S4096x960 slices_S4096x960_o0_256_S4096x384 r j
    exact congrArg₂ (· * ·) e e
  · refine (red_read 320 _ _ _ _ rfl _ _).trans (Finset.sum_congr rfl fun r _ => Finset.sum_congr rfl fun j _ => ?_)
    refine (mulf_apply _ _ _).trans ?_
    have e := slice_read 320 640 (by omega) x shapeCasts_S1x4096x960_S4096x960 slices_S4096x960_o0_640_S4096x320 r j
    exact congrArg₂ (· * ·) e e

/-- The reset value is the zero vector. -/
theorem pay1_apply (j : (⟨2, ![1, 4]⟩ : Shape).Idx) : k0_pay1 (F := Ideal) j = 0 := by
  unfold k0_pay1
  (try dsimp only)
  refine (congrFun (shapeCast_self _ _) _).trans ?_
  exact Ideal.ofBits_zero_f32

/-- The copy to the output block: entry (0, 0, k) of the re-laid accumulator is its entry (0, k). -/
theorem pay3_apply (acc : (⟨2, ![1, 4]⟩ : Shape).Idx → EReal) (k : Fin 4) :
    k0_pay3 (F := Ideal) acc (ix3 (0 : Fin 1) (0 : Fin 1) k) = acc (ix2 (0 : Fin 1) k) := by
  unfold k0_pay3
  (try dsimp only)
  refine (shapeCast_addUnit_apply ![1, 4] acc _ _).trans (congrArg acc (funext fun a => ?_))
  match a with
  | ⟨0, _⟩ => rfl
  | ⟨1, _⟩ => rfl

end Cert.KernelIdeal.R0V
end
-- ==== Proof.KI.Val0C.lean ====
/-
  The accumulator across the grid.  Point n of the statistics kernel (n = 4 b + k: batch entry b, row tile k) leaves
  in the accumulator, at entry s, the sum over the row tiles 0 … k of batch entry b of the tile's s-th partial sum:
  row tile 0 starts from the zero vector, every later tile adds to what the tile before left.  At row tile 3 the
  output block receives that accumulator.  By induction on the point over the three case equations; addition over
  the extended reals is all that is used.
-/
import proofs.«127636_j91010357002261_1_alg».proof.Proof.KI.Val0A
import proofs.«127636_j91010357002261_1_alg».proof.Proof.KI.Val0B

set_option maxRecDepth 16384

noncomputable section

namespace Cert.KernelIdeal.R0V
open Cert.KernelIdeal Cert.KernelIdeal.Gen Cert.KernelIdeal.R0
open Idealize.ShloMosaic Idealize.ShloMosaic.TcCoe Idealize.ShloMosaic.Tactic
open Idealize.SL Idealize.SL.Sem
open Idealize.ShloMosaic.Pipeline (Dat Cfg Window cellOf)
open Idealize.ShloMosaic.ValueIdx

/-! ## The case equations, with the found pieces read as the body's arithmetic (any float values) -/

section AnyF
variable {F : FTy → Type} [FloatOps F]
variable (V : (c : Dev nD) → (b : Ref sig .tc) → Buf (Elt F) ((c : Thread nD τ).loc b))

/-- Row tile 0: the accumulator after the point is the zero vector plus the tile's partial sums. -/
theorem acc_A (c : Dev nD) (t : Fin cfg0.N) (h0 : t.val % 4 = 0) :
    (outsAt0 V c t.val t.isLt).2 = k0_pay2 (iblk0 V c 0 t) k0_pay1 := by
  have h1 : ¬t.val % 4 = 3 := by omega
  rw [outsAt0_A V c t h0 h1]
  exact sout_A c (grid0.coords t) (ms0_0 t) (hs0_0 t) (ms0_1 t) (hs0_1 t) scM0_0 (Memref.isWhole_whole _) ((hcond0_0 t).mpr h0) (fun h => h1 ((hcond0_1 t).mp h)) (iblk0 V c 0 t)

/-- Row tiles 1 and 2: what the point before left plus the tile's partial sums. -/
theorem acc_B (c : Dev nD) (t : Fin cfg0.N) (h0 : ¬t.val % 4 = 0) (h1 : ¬t.val % 4 = 3) :
    (outsAt0 V c t.val t.isLt).2
      = k0_pay2 (iblk0 V c 0 t) (outsAt0 V c (t.val - 1) (Nat.lt_of_le_of_lt (Nat.sub_le _ _) t.isLt)).2 := by
  rw [outsAt0_B V c t h0 h1]
  exact sout_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2

/-- Row tile 3: likewise, -/
theorem acc_C (c : Dev nD) (t : Fin cfg0.N) (h1 : t.val % 4 = 3) :
    (outsAt0 V c t.val t.isLt).2
      = k0_pay2 (iblk0 V c 0 t) (outsAt0 V c (t.val - 1) (Nat.lt_of_le_of_lt (Nat.sub_le _ _) t.isLt)).2 := by
  have h0 : ¬t.val % 4 = 0 := by omega
  rw [outsAt0_C V c t h0 h1]
  exact sout_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2

/-- and the output block is that accumulator re-laid. -/
theorem outblk_C (c : Dev nD) (t : Fin cfg0.N) (h1 : t.val % 4 = 3) :
    (outsAt0 V c t.val t.isLt).1 = k0_pay3 (outsAt0 V c t.val t.isLt).2 := by
  have h0 : ¬t.val % 4 = 0 := by omega
  rw [acc_C V c t h1, outsAt0_C V c t h0 h1]
  exact out_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2

end AnyF

/-! ## The running sum -/

/-- A sequence of vectors accumulated with a reset at every fourth position: position n holds the sum of the terms
    from the last multiple of 4 up to n. -/
def accS (B : ℕ → Fin 4 → EReal) : ℕ → Fin 4 → EReal
  | 0 => B 0
  | n + 1 => fun s => if (n + 1) % 4 = 0 then B (n + 1) s else accS B n s + B (n + 1) s

theorem accS_reset (B : ℕ → Fin 4 → EReal) (n : ℕ) (s : Fin 4) (h : n % 4 = 0) : accS B n s = B n s := by
  cases n with
  | zero => rfl
  | succ n => exact if_pos h

theorem accS_step (B : ℕ → Fin 4 → EReal) (n : ℕ) (s : Fin 4) (h : ¬(n + 1) % 4 = 0) :
    accS B (n + 1) s = accS B n s + B (n + 1) s := if_neg h

/-- At the last position of a group of four: the sum of the group's four terms. -/
theorem accS_closed (B : ℕ → Fin 4 → EReal) (b : ℕ) (s : Fin 4) :
    accS B (4 * b + 3) s = B (4 * b) s + B (4 * b + 1) s + B (4 * b + 2) s + B (4 * b + 3) s := by
  rw [show 4 * b + 3 = (4 * b + 2) + 1 from rfl, accS_step B _ s (by omega),
    show 4 * b + 2 = (4 * b + 1) + 1 from rfl, accS_step B _ s (by omega),
    show 4 * b + 1 = (4 * b) + 1 from rfl, accS_step B _ s (by omega), accS_reset B _ s (by omega)]

/-! ## At the extended reals: the accumulator is the running sum of the blocks' partial sums -/

variable (V : (c : Dev nD) → (b : Ref sig .tc) → Buf (Elt Ideal) ((c : Thread nD τ).loc b))

/-- The partial sums of the input block at point n (zero past the grid). -/
def Bp (c : Dev nD) (n : ℕ) (s : Fin 4) : EReal :=
  if h : n < cfg0.N then partc (iblk0 (F := Ideal) V c 0 ⟨n, h⟩) s else 0

theorem Bp_lt (c : Dev nD) (n : ℕ) (h : n < cfg0.N) (s : Fin 4) :
    Bp V c n s = partc (iblk0 (F := Ideal) V c 0 ⟨n, h⟩) s := dif_pos h

/-- THE INVARIANT: after point n the accumulator's entry s is the running sum at n. -/
theorem acc_eq (c : Dev nD) : ∀ (n : ℕ) (h : n < cfg0.N) (s : Fin 4),
    (outsAt0 (F := Ideal) V c n h).2 (ix2 (0 : Fin 1) s) = accS (Bp V c) n s
  | 0, h, s => by
    refine (congrFun (acc_A (F := Ideal) V c ⟨0, h⟩ rfl) (ix2 (0 : Fin 1) s)).trans ?_
    refine (pay2_apply (iblk0 (F := Ideal) V c 0 ⟨0, h⟩) (k0_pay1 (F := Ideal)) s).trans ?_
    rw [pay1_apply, zero_add, ← Bp_lt V c 0 h s]
    rfl
  | n + 1, h, s => by
    by_cases h0 : (n + 1) % 4 = 0
    · refine (congrFun (acc_A (F := Ideal) V c ⟨n + 1, h⟩ h0) (ix2 (0 : Fin 1) s)).trans ?_
      refine (pay2_apply (iblk0 (F := Ideal) V c 0 ⟨n + 1, h⟩) (k0_pay1 (F := Ideal)) s).trans ?_
      rw [pay1_apply, zero_add, ← Bp_lt V c (n + 1) h s, accS_reset _ _ s h0]
    · have ih := acc_eq c n (Nat.lt_of_succ_lt h) s
      rw [accS_step _ n s h0, ← ih, Bp_lt V c (n + 1) h s]
      by_cases h3 : (n + 1) % 4 = 3
      · refine (congrFun (acc_C (F := Ideal) V c ⟨n + 1, h⟩ h3) (ix2 (0 : Fin 1) s)).trans ?_
        exact pay2_apply (iblk0 (F := Ideal) V c 0 ⟨n + 1, h⟩) (outsAt0 (F := Ideal) V c n (Nat.lt_of_succ_lt h)).2 s
      · refine (congrFun (acc_B (F := Ideal) V c ⟨n + 1, h⟩ h0 h3) (ix2 (0 : Fin 1) s)).trans ?_
        exact pay2_apply (iblk0 (F := Ideal) V c 0 ⟨n + 1, h⟩) (outsAt0 (F := Ideal) V c n (Nat.lt_of_succ_lt h)).2 s

/-- At a point of row tile 3 the output block's entry (0, 0, s) is the running sum there. -/
theorem outblk_eq (c : Dev nD) (t : Fin cfg0.N) (h3 : t.val % 4 = 3) (s : Fin 4) :
    (outsAt0 (F := Ideal) V c t.val t.isLt).1 (ix3 (0 : Fin 1) (0 : Fin 1) s) = accS (Bp V c) t.val s := by
  refine (congrFun (outblk_C (F := Ideal) V c t h3) (ix3 (0 : Fin 1) (0 : Fin 1) s)).trans ?_
  refine (pay3_apply (outsAt0 (F := Ideal) V c t.val t.isLt).2 s).trans ?_
  exact acc_eq V c t.val t.isLt s

end Cert.KernelIdeal.R0V
end
-- ==== Proof.KI.Val0T.lean ====
/-
  Row tiles against the whole array.  The 16384 rows of a batch entry are four tiles of 4096 rows; a sum over all rows
  is the sum over the tiles of the sum over a tile's rows (row 4096 k + r is row r of tile k).  Hence each of the four
  statistics of a batch entry is the sum over its four row tiles of the tile's partial sum.
-/
import proofs.«127636_j91010357002261_1_alg».proof.Proof.KI.Val0B

set_option maxRecDepth 16384

noncomputable section

namespace Cert.KernelIdeal.R0V
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)
open Idealize.ShloMosaic.ValueIdx

/-- A sum over 16384 rows, tile by tile. -/
theorem sum_tiles {M : Type*} [AddCommMonoid M] (f : Fin 16384 → M) :
    ∑ t : Fin 16384, f t
      = ∑ k : Fin 4, ∑ r : Fin 4096, f ⟨4096 * k.val + r.val, by have := k.isLt; have := r.isLt; omega⟩ := by
  have e := (Equiv.sum_comp (finProdFinEquiv (m := 4) (n := 4096)) f).symm
  rw [Fintype.sum_prod_type] at e
  refine e.trans (Finset.sum_congr rfl fun k _ => Finset.sum_congr rfl fun r _ => congrArg f (Fin.ext ?_))
  show r.val + 4096 * k.val = 4096 * k.val + r.val
  omega

/-- Row tile k of batch entry b of the array, as a [1, 4096, 960] block. -/
def blkOf (x : Cert.Spec.SX.Idx → EReal) (b k : Fin 4) : (⟨3, ![1, 4096, 960]⟩ : Shape).Idx → EReal :=
  fun i => x (ix3 b (⟨4096 * k.val + (i 1).val, by have := k.isLt; have : (i 1).val < 4096 := (i 1).isLt; omega⟩ : Fin 16384) (i 2))

/-- Each statistic of batch entry b is the sum over its four row tiles of the tile's partial sum. -/
theorem rawc_tiles (x : Cert.Spec.SX.Idx → EReal) (b s : Fin 4) :
    Cert.Spec.rawc x b s = ∑ k : Fin 4, partc (blkOf x b k) s := by
  unfold Cert.Spec.rawc partc
  by_cases h0 : s.val = 0
  · simp only [if_pos h0]
    unfold Cert.Spec.sum0 p0
    exact (sum_tiles _).trans (Finset.sum_congr rfl fun k _ => Finset.sum_congr rfl fun r _ => Finset.sum_congr rfl fun j _ => rfl)
  · by_cases h1 : s.val = 1
    · simp only [if_neg h0, if_pos h1]
      unfold Cert.Spec.sq0 q0
      exact (sum_tiles _).trans (Finset.sum_congr rfl fun k _ => Finset.sum_congr rfl fun r _ => Finset.sum_congr rfl fun j _ => rfl)
    · by_cases h2 : s.val = 2
      · simp only [if_neg h0, if_neg h1, if_pos h2]
        unfold Cert.Spec.sq1 q1
        exact (sum_tiles _).trans (Finset.sum_congr rfl fun k _ => Finset.sum_congr rfl fun r _ => Finset.sum_congr rfl fun j _ => rfl)
      · simp only [if_neg h0, if_neg h1, if_neg h2]
        unfold Cert.Spec.sq2 q2
        exact (sum_tiles _).trans (Finset.sum_congr rfl fun k _ => Finset.sum_congr rfl fun r _ => Finset.sum_congr rfl fun j _ => rfl)

end Cert.KernelIdeal.R0V
end
-- ==== Proof.KI.Val0D.lean ====
/-
  From blocks to the array.  The input block at point t = 4 b + k is row tile k of batch entry b of the argument array
  (the index map sends the point to block (b, k, 0) of blocks of [1, 4096, 960]); so at the last row tile of batch entry b
  the running sum is the sum over the entry's four row tiles of their partial sums — the entry's four statistics.  The
  output block at that point is block (b, 0, 0) of the [4, 1, 4] result, these four blocks cover the result, and so the
  result array ends holding the raw statistics of the argument.
-/
import proofs.«127636_j91010357002261_1_alg».proof.Proof.KI.Val0C
import proofs.«127636_j91010357002261_1_alg».proof.Proof.KI.Val0T

set_option maxRecDepth 16384

noncomputable section

namespace Cert.KernelIdeal.R0V
open Cert.KernelIdeal Cert.KernelIdeal.Gen Cert.KernelIdeal.R0
open Idealize.ShloMosaic Idealize.ShloMosaic.TcCoe Idealize.ShloMosaic.Tactic
open Idealize.SL Idealize.SL.Sem
open Idealize.ShloMosaic.Pipeline (Dat Cfg Window cellOf)
open Idealize.ShloMosaic.ValueIdx

variable (V : (c : Dev nD) → (b : Ref sig .tc) → Buf (Elt Ideal) ((c : Thread nD τ).loc b))

/-- The batch entry and the row tile of a point. -/
def bOf (t : Fin cfg0.N) : Fin 4 := ⟨t.val / 4, by have := t.isLt; have hN : cfg0.N = 16 := N_0; omega⟩
def kOf (t : Fin cfg0.N) : Fin 4 := ⟨t.val % 4, by omega⟩

/-- The printed index maps, decided over the grid: the input's block index at point t is (t / 4, t % 4, 0), -/
theorem idx_in : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
/-- the output's is (t / 4, 0, 0). -/
theorem idx_out : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The input block at point t is row tile t % 4 of batch entry t / 4 of the argument. -/
theorem iblk_eq (c : Dev nD) (t : Fin cfg0.N) :
    (iblk0 (F := Ideal) V c 0 t : (⟨3, ![1, 4096, 960]⟩ : Shape).Idx → EReal) = blkOf (V c main_arg0) (bOf t) (kOf t) := by
  obtain ⟨e0, e1, e2⟩ := idx_in t
  funext y
  have hy0 : (y 0).val < 1 := (y 0).isLt
  unfold iblk0 blkOf
  rw [View.read_apply]
  show V c main_arg0 _ = V c main_arg0 _
  refine congrArg (V c main_arg0) (funext fun a => Fin.ext ?_)
  match a with
  | ⟨0, _⟩ => show win0_0.index t (0 : Fin 3) * 1 + 1 * (y 0).val = t.val / 4; omega
  | ⟨1, _⟩ => show win0_0.index t (1 : Fin 3) * 4096 + 1 * (y 1).val = 4096 * (t.val % 4) + (y 1).val; omega
  | ⟨2, _⟩ => show win0_0.index t (2 : Fin 3) * 960 + 1 * (y 2).val = (y 2).val; omega

/-- So the partial sums at point 4 b + k are those of row tile k of batch entry b, -/
theorem Bp_tile (c : Dev nD) (b k s : Fin 4) :
    Bp V c (4 * b.val + k.val) s = partc (blkOf (V c main_arg0) b k) s := by
  have hlt : 4 * b.val + k.val < cfg0.N := by have hN : cfg0.N = 16 := N_0; have := b.isLt; have := k.isLt; omega
  have hb : bOf ⟨4 * b.val + k.val, hlt⟩ = b := Fin.ext (by show (4 * b.val + k.val) / 4 = b.val; have := k.isLt; omega)
  have hk : kOf ⟨4 * b.val + k.val, hlt⟩ = k := Fin.ext (by show (4 * b.val + k.val) % 4 = k.val; have := k.isLt; omega)
  rw [Bp_lt V c _ hlt s, iblk_eq V c ⟨4 * b.val + k.val, hlt⟩, hb, hk]

/-- and the running sum at the last row tile of batch entry b is the entry's s-th statistic. -/
theorem acc_raw (c : Dev nD) (b s : Fin 4) :
    accS (Bp V c) (4 * b.val + 3) s = Cert.Spec.rawc (V c main_arg0) b s := by
  rw [accS_closed, rawc_tiles, Fin.sum_univ_four,
    show Bp V c (4 * b.val) s = _ from Bp_tile V c b 0 s, show Bp V c (4 * b.val + 1) s = _ from Bp_tile V c b 1 s,
    show Bp V c (4 * b.val + 2) s = _ from Bp_tile V c b 2 s, show Bp V c (4 * b.val + 3) s = _ from Bp_tile V c b 3 s]

/-- The output block at a point of row tile 3: the statistics of the point's batch entry. -/
theorem outblk_raw (c : Dev nD) (t : Fin cfg0.N) (h3 : t.val % 4 = 3) (s : Fin 4) :
    (outsAt0 (F := Ideal) V c t.val t.isLt).1 (ix3 (0 : Fin 1) (0 : Fin 1) s) = Cert.Spec.rawc (V c main_arg0) (bOf t) s := by
  have ht : 4 * (bOf t).val + 3 = t.val := by show 4 * (t.val / 4) + 3 = t.val; omega
  rw [outblk_eq V c t h3 s, ← acc_raw V c (bOf t) s, ht]

/-- WHAT A WRITE-BACK WRITES is its block of the raw statistics of the argument. -/
theorem flushed_eq (c : Dev nD) (t : Fin cfg0.N) (hf : (cfg0.win 1).flush t = true) :
    (dat0 (F := Ideal) V c).flushed 1 t = ((cfg0.win 1).blk t).view.read (Elt Ideal) (Cert.Spec.raw (V c main_arg0)) := by
  have h3 : t.val % 4 = 3 := (flush0_1 t).mp hf
  obtain ⟨e0, e1, e2⟩ := idx_out t
  show (cfg0.win 1).cut (grid0.coords t) ((dat0 (F := Ideal) V c).after 1 t) = _
  rw [after0_1]
  funext y
  have hy0 : (y 0).val < 1 := (y 0).isLt
  have hy1 : (y 1).val < 1 := (y 1).isLt
  have hy2 : (y 2).val < 4 := (y 2).isLt
  rw [View.read_apply]
  show (outsAt0 (F := Ideal) V c t.val t.isLt).1 ((cfg0.win 1).xinj (grid0.coords t) y)
    = Cert.Spec.rawc (V c main_arg0) ((((cfg0.win 1).blk t).view.emb y) 0) ((((cfg0.win 1).blk t).view.emb y) 2)
  have ey : (cfg0.win 1).xinj (grid0.coords t) y = ix3 (0 : Fin 1) (0 : Fin 1) (⟨(y 2).val, hy2⟩ : Fin 4) :=
    funext fun a => Fin.ext (by
      match a with
      | ⟨0, _⟩ => show (y 0).val = 0; omega
      | ⟨1, _⟩ => show (y 1).val = 0; omega
      | ⟨2, _⟩ => rfl)
  rw [ey, outblk_raw V c t h3]
  refine congrArg₂ (Cert.Spec.rawc (V c main_arg0)) (Fin.ext ?_) (Fin.ext ?_)
  · show t.val / 4 = win0_1.index t (0 : Fin 3) * 1 + 1 * (y 0).val; omega
  · show (y 2).val = win0_1.index t (2 : Fin 3) * 4 + 1 * (y 2).val; omega

/-- THE RESULT ARRAY of the statistics kernel: the raw statistics of the argument array as the region finds it. -/
theorem final0 (V : (c : Dev nD) → (b : Ref sig .tc) → Buf (Elt Ideal) ((c : Thread nD τ).loc b)) (c : Dev nD) :
    (R0.dat0 (F := Ideal) V c).arrAt 1 cfg0.N = Cert.Spec.raw (V c main_arg0) :=
  (dat0 (F := Ideal) V c).arrAt_eq_of_cover 1 (Cert.Spec.raw (V c main_arg0)) (flushed_eq V c) fun i => by
    have hN : cfg0.N = 16 := N_0
    have hi0 : (i 0 : Nat) < 4 := (i 0).isLt
    have hi1 : (i 1 : Nat) < 1 := (i 1).isLt
    have hi2 : (i 2 : Nat) < 4 := (i 2).isLt
    have hlt : 4 * (i 0 : Nat) + 3 < cfg0.N := by omega
    obtain ⟨e0, e1, e2⟩ := idx_out ⟨4 * (i 0 : Nat) + 3, hlt⟩
    refine ⟨⟨4 * (i 0 : Nat) + 3, hlt⟩, (flush0_1 _).mpr (by show (4 * (i 0 : Nat) + 3) % 4 = 3; omega), ?_⟩
    show i ∈ ((View.whole main_v0).slice (win0_1.rect ⟨4 * (i 0 : Nat) + 3, hlt⟩)).set
    rw [View.set_slice_whole, Rect.mem_set_unit]
    intro a
    match a with
    | ⟨0, _⟩ =>
      show win0_1.index ⟨4 * (i 0 : Nat) + 3, hlt⟩ (0 : Fin 3) * 1 ≤ (i 0 : Nat) ∧ (i 0 : Nat) < win0_1.index ⟨4 * (i 0 : Nat) + 3, hlt⟩ (0 : Fin 3) * 1 + 1
      rw [e0]; show (4 * (i 0 : Nat) + 3) / 4 * 1 ≤ (i 0 : Nat) ∧ (i 0 : Nat) < (4 * (i 0 : Nat) + 3) / 4 * 1 + 1; omega
    | ⟨1, _⟩ =>
      show win0_1.index ⟨4 * (i 0 : Nat) + 3, hlt⟩ (1 : Fin 3) * 1 ≤ (i 1 : Nat) ∧ (i 1 : Nat) < win0_1.index ⟨4 * (i 0 : Nat) + 3, hlt⟩ (1 : Fin 3) * 1 + 1
      rw [e1]; omega
    | ⟨2, _⟩ =>
      show win0_1.index ⟨4 * (i 0 : Nat) + 3, hlt⟩ (2 : Fin 3) * 4 ≤ (i 2 : Nat) ∧ (i 2 : Nat) < win0_1.index ⟨4 * (i 0 : Nat) + 3, hlt⟩ (2 : Fin 3) * 4 + 4
      rw [e2]; omega

end Cert.KernelIdeal.R0V
end
-- ==== Proof.KI.Pay1.lean ====
/-
  The normalisation kernel's stored value read at an index.  The value is the concatenation, along the columns, of three
  segments of the loaded x block [1, 2048, 960]: columns 0–255 centred by the first coefficient, scaled by the second and by a
  per-column weight, and shifted by a per-column bias; columns 256–639 scaled by the third coefficient and a per-column weight;
  columns 640–959 scaled by the fourth coefficient and a per-column weight.  Read at (u, r, j) it is therefore the specification's
  normalisation at the array entry the block entry (0, r, j) comes from.
-/
import proofs.«127636_j91010357002261_1_alg».proof.Proof.Gen.KernelIdeal.Skeleton
import proofs.«127636_j91010357002261_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.R1
open Cert.KernelIdeal Cert.KernelIdeal.Gen
open Idealize.ShloMosaic Idealize.SL.Sem
open Idealize.ShloMosaic.ValueIdx

/-! ## Reading the payload's layout operations at an index -/

/-- A column slice (from column `o`) of the block [1, 2048, 960] viewed [2048, 960] reads, at (r, jj), the block at (0, r, o + jj). -/
theorem slice_cast {α : Type} (x0 : S1x2048x960.Idx → α) {n : ℕ} (o : ℕ) (h : S2048x960.Slices ![0, o] ⟨2, ![2048, n]⟩)
    (r : Fin 2048) (jj : Fin n) (k : Fin 960) (hk : k.val = o + jj.val) :
    extractStridedSlice ⟨2, ![2048, n]⟩ ![0, o] (shapeCast S2048x960 x0 shapeCasts_S1x2048x960_S2048x960) h (ix2 r jj) = x0 (ix3 0 r k) :=
  (extractStridedSlice_apply _ _ h (ix2 r jj) (ix2 r k) (fun a => by
    match a with
    | ⟨0, _⟩ => exact (Nat.zero_add _).symm
    | ⟨1, _⟩ => exact hk)).trans (shapeCast_1ab_ab_apply x0 _ r k)

/-- Entry q of the coefficient block [1, 1, 4], extracted as a scalar. -/
theorem coef_at {α : Type} (x1 : S1x1x4.Idx → α) (q : ℕ) (hq : q < 4) (h : S1x4.Slices ![0, q] S1x1) :
    extractAt ![0, 0] (extractStridedSlice S1x1 ![0, q] (shapeCast S1x4 x1 shapeCasts_S1x1x4_S1x4) h) inpos_S1x1_p0_0
      = x1 (ix3 0 0 ⟨q, hq⟩) := by
  unfold extractAt
  refine (extractStridedSlice_apply _ _ h _ (ix2 0 ⟨q, hq⟩) (fun a => by
    match a with
    | ⟨0, _⟩ => rfl
    | ⟨1, _⟩ => rfl)).trans ?_
  exact shapeCast_1ab_ab_apply x1 _ 0 ⟨q, hq⟩

/-- A vector [n] viewed [1, n] and repeated over 2048 rows reads, at (r, jj), the vector at jj. -/
theorem row_bcast {α : Type} {n : ℕ} (w : (⟨1, ![n]⟩ : Shape).Idx → α) (h1 : (⟨1, ![n]⟩ : Shape).ShapeCasts ⟨2, ![1, n]⟩)
    (h2 : (⟨2, ![1, n]⟩ : Shape).Broadcasts ⟨2, ![2048, n]⟩) (r : Fin 2048) (jj : Fin n) :
    broadcastTo ⟨2, ![2048, n]⟩ (shapeCast ⟨2, ![1, n]⟩ w h1) h2 (ix2 r jj) = w (ix1 jj) :=
  (broadcastTo_1b_ab_apply _ h2 r jj).trans (shapeCast_a_1a_apply w h1 0 jj)

/-! ## The three column segments of the payload -/

/-- Columns 0–255: (x − mean) · 1/σ₀ · weight + bias. -/
theorem pay_seg0 (x0 : Vec Ideal S1x2048x960 .f32) (x1 : Vec Ideal S1x1x4 .f32) (x2 : Vec Ideal S256 .f32) (x5 : Vec Ideal S256 .f32)
    (x3 : Vec Ideal S384 .f32) (x4 : Vec Ideal S320 .f32) (u : Fin 1) (r : Fin 2048) (j : Fin 960) (h0 : j.val < 256) :
    k1_pay1 (k1_pay2 x0 x1 x2 x5 x3 x4) (ix3 u r j)
      = (x0 (ix3 0 r j) - x1 (ix3 0 0 0)) * x1 (ix3 0 0 1) * x2 (ix1 ⟨j.val, h0⟩) + x5 (ix1 ⟨j.val, h0⟩) := by
  unfold k1_pay1
  refine (shapeCast_ab_1ab_apply _ _ u r j).trans ?_
  unfold k1_pay2
  refine (concatenate_apply_piece (t := S2048x960) (1 : Fin 2) _ _ (ix2 r j) 0 ?hk S2048x256 ?x1 ?hxk rfl 0 ?hpre (ix2 r ⟨j.val, h0⟩) ?hi ?ha).trans ?_
  case hxk => rfl
  case hk => exact Nat.zero_lt_succ _
  case hpre => rfl
  case hi =>
    intro b hb
    match b with
    | ⟨0, _⟩ => rfl
    | ⟨1, _⟩ => exact absurd rfl hb
  case ha =>
    show 0 + j.val = j.val
    omega
  simp only [addf_apply, mulf_apply, subf_apply, broadcast_apply]
  rw [slice_cast x0 0 _ r ⟨j.val, h0⟩ j (Nat.zero_add _).symm, coef_at x1 0 (by omega), coef_at x1 1 (by omega), shapeCast_self,
    row_bcast x2, row_bcast x5]
  rfl

/-- Columns 256–639: x · 1/σ₁ · weight, the weight vector read at the column less 256. -/
theorem pay_seg1 (x0 : Vec Ideal S1x2048x960 .f32) (x1 : Vec Ideal S1x1x4 .f32) (x2 : Vec Ideal S256 .f32) (x5 : Vec Ideal S256 .f32)
    (x3 : Vec Ideal S384 .f32) (x4 : Vec Ideal S320 .f32) (u : Fin 1) (r : Fin 2048) (j : Fin 960) (h0 : ¬ j.val < 256) (h1 : j.val < 640) :
    k1_pay1 (k1_pay2 x0 x1 x2 x5 x3 x4) (ix3 u r j)
      = x0 (ix3 0 r j) * x1 (ix3 0 0 2) * x3 (ix1 ⟨j.val - 256, by omega⟩) := by
  unfold k1_pay1
  refine (shapeCast_ab_1ab_apply _ _ u r j).trans ?_
  unfold k1_pay2
  refine (concatenate_apply_piece (t := S2048x960) (1 : Fin 2) _ _ (ix2 r j) 1 ?hk S2048x384 ?x1 ?hxk rfl 256 ?hpre (ix2 r ⟨j.val - 256, by omega⟩) ?hi ?ha).trans ?_
  case hxk => rfl
  case hk => exact Nat.succ_lt_succ (Nat.zero_lt_succ _)
  case hpre => rfl
  case hi =>
    intro b hb
    match b with
    | ⟨0, _⟩ => rfl
    | ⟨1, _⟩ => exact absurd rfl hb
  case ha =>
    show 256 + (j.val - 256) = j.val
    omega
  simp only [mulf_apply, broadcast_apply]
  rw [slice_cast x0 256 _ r ⟨j.val - 256, by omega⟩ j (by show j.val = 256 + (j.val - 256); omega), coef_at x1 2 (by omega), shapeCast_self,
    row_bcast x3]
  rfl

/-- Columns 640–959: x · 1/σ₂ · weight, the weight vector read at the column less 640. -/
theorem pay_seg2 (x0 : Vec Ideal S1x2048x960 .f32) (x1 : Vec Ideal S1x1x4 .f32) (x2 : Vec Ideal S256 .f32) (x5 : Vec Ideal S256 .f32)
    (x3 : Vec Ideal S384 .f32) (x4 : Vec Ideal S320 .f32) (u : Fin 1) (r : Fin 2048) (j : Fin 960) (h1 : ¬ j.val < 640) :
    k1_pay1 (k1_pay2 x0 x1 x2 x5 x3 x4) (ix3 u r j)
      = x0 (ix3 0 r j) * x1 (ix3 0 0 3) * x4 (ix1 ⟨j.val - 640, by have := j.isLt; omega⟩) := by
  have hj := j.isLt
  unfold k1_pay1
  refine (shapeCast_ab_1ab_apply _ _ u r j).trans ?_
  unfold k1_pay2
  refine (concatenate_apply_piece (t := S2048x960) (1 : Fin 2) _ _ (ix2 r j) 2 ?hk S2048x320 ?x1 ?hxk rfl 640 ?hpre (ix2 r ⟨j.val - 640, by omega⟩) ?hi ?ha).trans ?_
  case hxk => rfl
  case hk => exact Nat.succ_lt_succ (Nat.succ_lt_succ (Nat.zero_lt_succ _))
  case hpre => rfl
  case hi =>
    intro b hb
    match b with
    | ⟨0, _⟩ => rfl
    | ⟨1, _⟩ => exact absurd rfl hb
  case ha =>
    show 640 + (j.val - 640) = j.val
    omega
  simp only [mulf_apply, broadcast_apply]
  rw [slice_cast x0 640 _ r ⟨j.val - 640, by omega⟩ j (by show j.val = 640 + (j.val - 640); omega), coef_at x1 3 (by omega), shapeCast_self,
    row_bcast x4]
  rfl

/-- The payload at (u, r, j), when the loaded x block at (0, r, j) is x at (b, tt, j) and the loaded coefficient block is row b of the
    coefficients: the specification's normalisation at (b, tt, j). -/
theorem pay_eq_normc (X : Cert.Spec.SX.Idx → EReal) (St : Cert.Spec.SSt.Idx → EReal) (W0 : Cert.Spec.SB.Idx → EReal)
    (W1 : Cert.Spec.SW1.Idx → EReal) (W2 : Cert.Spec.SW2.Idx → EReal) (Bs : Cert.Spec.SB.Idx → EReal)
    (b : Fin 4) (tt : Fin 16384)
    (x0 : Vec Ideal S1x2048x960 .f32) (x1 : Vec Ideal S1x1x4 .f32) (u : Fin 1) (r : Fin 2048) (j : Fin 960)
    (h0 : x0 (ix3 0 r j) = X (ix3 b tt j)) (h1 : ∀ q : Fin 4, x1 (ix3 0 0 q) = St (ix3 b 0 q)) :
    k1_pay1 (k1_pay2 x0 x1 W0 Bs W1 W2) (ix3 u r j) = Cert.Spec.normc X St W0 W1 W2 Bs b tt j := by
  unfold Cert.Spec.normc
  by_cases c0 : j.val < 256
  · rw [dif_pos c0, pay_seg0 x0 x1 W0 Bs W1 W2 u r j c0, h0, h1 0, h1 1]
  · rw [dif_neg c0]
    by_cases c1 : j.val < 640
    · rw [dif_pos c1, pay_seg1 x0 x1 W0 Bs W1 W2 u r j c0 c1, h0, h1 2]
    · rw [dif_neg c1, pay_seg2 x0 x1 W0 Bs W1 W2 u r j c1, h0, h1 3]

/-- The same at an index i of the whole array whose column is j. -/
theorem pay_eq_norm (X : Cert.Spec.SX.Idx → EReal) (St : Cert.Spec.SSt.Idx → EReal) (W0 : Cert.Spec.SB.Idx → EReal)
    (W1 : Cert.Spec.SW1.Idx → EReal) (W2 : Cert.Spec.SW2.Idx → EReal) (Bs : Cert.Spec.SB.Idx → EReal)
    (x0 : Vec Ideal S1x2048x960 .f32) (x1 : Vec Ideal S1x1x4 .f32) (u : Fin 1) (r : Fin 2048) (j : Fin 960)
    (i : Cert.Spec.SX.Idx) (hi2 : (i 2).val = j.val)
    (h0 : x0 (ix3 0 r j) = X i) (h1 : ∀ q : Fin 4, x1 (ix3 0 0 q) = St (ix3 (i 0) 0 q)) :
    k1_pay1 (k1_pay2 x0 x1 W0 Bs W1 W2) (ix3 u r j) = Cert.Spec.norm X St W0 W1 W2 Bs i := by
  obtain ⟨b, tt, jj, rfl⟩ : ∃ (b : Fin 4) (tt : Fin 16384) (jj : Fin 960), i = ix3 b tt jj := ⟨i 0, i 1, i 2, eq_ix3 i⟩
  obtain rfl : jj = j := Fin.ext hi2
  exact pay_eq_normc X St W0 W1 W2 Bs b tt x0 x1 u r jj h0 h1

end Cert.KernelIdeal.R1
end
-- ==== Proof.KI.Val1.lean ====
/-
  The output array of the normalisation region.  At grid point t = 8 b + k (grid 4 × 8) the x window and the output window hold
  block (b, k, 0) of their arrays — rows 2048 k … 2048 k + 2047 of batch entry b —, the coefficient window holds row b of the
  coefficients, and the weight and bias windows hold their whole arrays.  So what point t writes back is block t of the
  specification's normalisation of the arrays the region was entered with; the 32 blocks tile the output (entry (b, tt, j) lies
  in the block of point 8 b + tt / 2048), hence the output array ends as that normalisation.
-/
import proofs.«127636_j91010357002261_1_alg».proof.Proof.KI.Reg1
import proofs.«127636_j91010357002261_1_alg».proof.Proof.KI.Pay1

set_option maxRecDepth 16384

noncomputable section

namespace Cert.KernelIdeal.R1
open Cert.KernelIdeal Cert.KernelIdeal.Gen
open Idealize.ShloMosaic Idealize.ShloMosaic.TcCoe Idealize.SL.Sem
open Idealize.ShloMosaic.ValueIdx
open Idealize.ShloMosaic.Pipeline (Dat)

/-! ## The blocks: which entries of the arrays a point's windows hold -/

theorem hz3 : (![0, 0, 0] : Fin 3 → Nat) = fun _ => 0 := funext fun a => by fin_cases a <;> rfl
theorem hz1 : (![0] : Fin 1 → Nat) = fun _ => 0 := funext fun a => by fin_cases a <;> rfl

/-- The block indices at point t = 8 b + k of the grid 4 × 8: the x block and the output block are block (b, k, 0), the coefficient
    block is (b, 0, 0), the weights and the bias are whole. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 1) = 0 ∧ win1_3.index t (0 : Fin 1) = 0 ∧ win1_4.index t (0 : Fin 1) = 0 ∧ win1_5.index t (0 : Fin 1) = 0
    ∧ win1_6.index t (0 : Fin 3) = t.val / 8 ∧ win1_6.index t (1 : Fin 3) = t.val % 8 ∧ win1_6.index t (2 : Fin 3) = 0 :=
  (by decide +kernel : ∀ t : Fin grid1.N, _)

variable (V : (c : Dev nD) → (b : Ref sig .tc) → Buf (Elt Ideal) ((c : Thread nD τ).loc b))

/-- The x block at point t holds, at (u, r, j), the entry of x at (t / 8, 2048 (t % 8) + r, j). -/
theorem iblk_x (c : Dev nD) (t : Fin cfg1.N) (u : Fin 1) (r : Fin 2048) (j : Fin 960) (i : S4x16384x960.Idx)
    (hi0 : (i 0).val = t.val / 8) (hi1 : (i 1).val = t.val % 8 * 2048 + r.val) (hi2 : (i 2).val = j.val) :
    (iblk1 V c 0 t : Vec Ideal S1x2048x960 .f32) (ix3 u r j) = (V c main_arg0 : S4x16384x960.Idx → Elt Ideal .f32) i := by
  obtain ⟨e0, e1, e2, -⟩ := idx_facts t
  unfold iblk1
  rw [View.read_apply]
  show V c main_arg0 _ = V c main_arg0 _
  congr 1
  funext a
  apply Fin.ext
  have hu : u.val = 0 := by omega
  match a with
  | ⟨0, _⟩ => show win1_0.index t 0 * 1 + 1 * u.val = (i 0).val; rw [e0, hi0]; omega
  | ⟨1, _⟩ => show win1_0.index t 1 * 2048 + 1 * r.val = (i 1).val; rw [e1, hi1]; omega
  | ⟨2, _⟩ => show win1_0.index t 2 * 960 + 1 * j.val = (i 2).val; rw [e2, hi2]; omega

/-- The coefficient block at point t holds, at (u, v, q), the coefficients' entry (t / 8, 0, q). -/
theorem iblk_c (c : Dev nD) (t : Fin cfg1.N) (u : Fin 1) (v : Fin 1) (q : Fin 4) (i : S4x1x4.Idx)
    (hi0 : (i 0).val = t.val / 8) (hi2 : (i 2).val = q.val) :
    (iblk1 V c 1 t : Vec Ideal S1x1x4 .f32) (ix3 u v q) = (V c main_v34 : S4x1x4.Idx → Elt Ideal .f32) i := by
  obtain ⟨-, -, -, e0, e1, e2, -⟩ := idx_facts t
  unfold iblk1
  rw [View.read_apply]
  show V c main_v34 _ = V c main_v34 _
  congr 1
  funext a
  apply Fin.ext
  have hu : u.val = 0 := by omega
  have hv : v.val = 0 := by omega
  have h1 : (i 1).val = 0 := by have := (i 1).isLt; simp at this; omega
  match a with
  | ⟨0, _⟩ => show win1_1.index t 0 * 1 + 1 * u.val = (i 0).val; rw [e0, hi0]; omega
  | ⟨1, _⟩ => show win1_1.index t 1 * 1 + 1 * v.val = (i 1).val; rw [e1, h1]; omega
  | ⟨2, _⟩ => show win1_1.index t 2 * 4 + 1 * q.val = (i 2).val; rw [e2, hi2]; omega

/-- The weight and bias windows hold their whole arrays at every point. -/
theorem iblk_w2 (c : Dev nD) (t : Fin cfg1.N) : (iblk1 V c 2 t : Vec Ideal S256 .f32) = (V c main_v35 : S256.Idx → Elt Ideal .f32) := by
  obtain ⟨-, -, -, -, -, -, e, -⟩ := idx_facts t
  funext y
  unfold iblk1
  rw [View.read_apply]
  show V c main_v35 _ = V c main_v35 _
  congr 1
  funext a
  apply Fin.ext
  match a with
  | ⟨0, _⟩ => show win1_2.index t 0 * 256 + 1 * (y 0).val = (y 0).val; rw [e]; omega
theorem iblk_w3 (c : Dev nD) (t : Fin cfg1.N) : (iblk1 V c 3 t : Vec Ideal S384 .f32) = (V c main_v38 : S384.Idx → Elt Ideal .f32) := by
  obtain ⟨-, -, -, -, -, -, -, e, -⟩ := idx_facts t
  funext y
  unfold iblk1
  rw [View.read_apply]
  show V c main_v38 _ = V c main_v38 _
  congr 1
  funext a
  apply Fin.ext
  match a with
  | ⟨0, _⟩ => show win1_3.index t 0 * 384 + 1 * (y 0).val = (y 0).val; rw [e]; omega
theorem iblk_w4 (c : Dev nD) (t : Fin cfg1.N) : (iblk1 V c 4 t : Vec Ideal S320 .f32) = (V c main_v41 : S320.Idx → Elt Ideal .f32) := by
  obtain ⟨-, -, -, -, -, -, -, -, e, -⟩ := idx_facts t
  funext y
  unfold iblk1
  rw [View.read_apply]
  show V c main_v41 _ = V c main_v41 _
  congr 1
  funext a
  apply Fin.ext
  match a with
  | ⟨0, _⟩ => show win1_4.index t 0 * 320 + 1 * (y 0).val = (y 0).val; rw [e]; omega
theorem iblk_w5 (c : Dev nD) (t : Fin cfg1.N) : (iblk1 V c 5 t : Vec Ideal S256 .f32) = (V c main_arg2 : S256.Idx → Elt Ideal .f32) := by
  obtain ⟨-, -, -, -, -, -, -, -, -, e, -⟩ := idx_facts t
  funext y
  unfold iblk1
  rw [View.read_apply]
  show V c main_arg2 _ = V c main_arg2 _
  congr 1
  funext a
  apply Fin.ext
  match a with
  | ⟨0, _⟩ => show win1_5.index t 0 * 256 + 1 * (y 0).val = (y 0).val; rw [e]; omega

/-! ## From blocks to the array -/

/-- What point t writes back is block t of the specification's normalisation of the arrays as the region finds them. -/
theorem flushed_eq (c : Dev nD) (t : Fin cfg1.N) :
    (dat1 (F := Ideal) V c).flushed 6 t = ((cfg1.win 6).blk t).view.read (Elt Ideal)
      (Cert.Spec.norm (V c main_arg0) (V c main_v34) (V c main_v35) (V c main_v38) (V c main_v41) (V c main_arg2)) := by
  show (cfg1.win 6).cut (grid1.coords t) ((dat1 V c).after 6 t) = _
  rw [after1_6]
  unfold out1_6
  rw [View.canon_unit_zero hz3]
  simp only [View.ld_unit_zero (S := S1x2048x960) hz3, View.ld_unit_zero (S := S1x1x4) hz3, View.ld_unit_zero (S := S256) hz1,
    View.ld_unit_zero (S := S384) hz1, View.ld_unit_zero (S := S320) hz1]
  rw [iblk_w2, iblk_w3, iblk_w4, iblk_w5]
  obtain ⟨-, -, -, -, -, -, -, -, -, -, e0, e1, e2⟩ := idx_facts t
  funext y
  obtain ⟨u, r, j, rfl⟩ : ∃ (u : Fin 1) (r : Fin 2048) (j : Fin 960), y = ix3 u r j := ⟨y 0, y 1, y 2, eq_ix3 y⟩
  rw [View.read_apply]
  show k1_pay1 (k1_pay2 (iblk1 V c 0 t) (iblk1 V c 1 t) (V c main_v35) (V c main_arg2) (V c main_v38) (V c main_v41)) (ix3 u r j) = _
  have hu : u.val = 0 := by omega
  have k0 : ((((cfg1.win 6).blk t).view.emb (ix3 u r j)) 0).val = t.val / 8 := by
    show win1_6.index t 0 * 1 + 1 * u.val = _; rw [e0]; omega
  have k1 : ((((cfg1.win 6).blk t).view.emb (ix3 u r j)) 1).val = t.val % 8 * 2048 + r.val := by
    show win1_6.index t 1 * 2048 + 1 * r.val = _; rw [e1]; omega
  have k2 : ((((cfg1.win 6).blk t).view.emb (ix3 u r j)) 2).val = j.val := by
    show win1_6.index t 2 * 960 + 1 * j.val = _; rw [e2]; omega
  refine pay_eq_norm _ _ _ _ _ _ _ _ u r j _ k2 ?_ ?_
  · exact iblk_x V c t 0 r j _ k0 k1 k2
  · intro q
    exact iblk_c V c t 0 0 q _ k0 rfl

/-- An index of the output array is in point t's block iff each coordinate is in the block's range on its axis. -/
theorem mem_blk6 (t : Fin cfg1.N) (i : S4x16384x960.Idx) :
    i ∈ ((cfg1.win 6).blk t).view.set ↔ ∀ a : Fin 3, win1_6.index t a * S1x2048x960.size a ≤ (i a).val
      ∧ (i a).val < win1_6.index t a * S1x2048x960.size a + S1x2048x960.size a := by
  show i ∈ ((View.whole main_v42).slice (win1_6.rect t)).set ↔ _
  rw [View.set_slice_whole, Rect.mem_set_unit]
  exact Iff.rfl

/-- Every entry (b, tt, j) of the output lies in the block of the point 8 b + tt / 2048. -/
theorem cover6 (i : S4x16384x960.Idx) : ∃ t : Fin cfg1.N, (cfg1.win 6).flush t = true ∧ i ∈ ((cfg1.win 6).blk t).view.set := by
  have hi0 : (i 0).val < 4 := (i 0).isLt
  have hi1 : (i 1).val < 16384 := (i 1).isLt
  have hi2 : (i 2).val < 960 := (i 2).isLt
  have hN : cfg1.N = 32 := N_1
  let t : Fin cfg1.N := ⟨(i 0).val * 8 + (i 1).val / 2048, by rw [hN]; omega⟩
  obtain ⟨-, -, -, -, -, -, -, -, -, -, e0, e1, e2⟩ := idx_facts t
  have ht : t.val = (i 0).val * 8 + (i 1).val / 2048 := rfl
  refine ⟨t, flush1_6 t, ?_⟩
  rw [mem_blk6]
  intro a
  match a with
  | ⟨0, _⟩ => show win1_6.index t 0 * 1 ≤ (i 0).val ∧ (i 0).val < win1_6.index t 0 * 1 + 1; rw [e0, ht]; omega
  | ⟨1, _⟩ => show win1_6.index t 1 * 2048 ≤ (i 1).val ∧ (i 1).val < win1_6.index t 1 * 2048 + 2048; rw [e1, ht]; omega
  | ⟨2, _⟩ => show win1_6.index t 2 * 960 ≤ (i 2).val ∧ (i 2).val < win1_6.index t 2 * 960 + 960; rw [e2]; omega

/-- The output array after the region: the specification's normalisation of the arrays the region was entered with. -/
theorem final1 (c : Dev nD) : (dat1 (F := Ideal) V c).arrAt 6 cfg1.N
    = Cert.Spec.norm (V c main_arg0) (V c main_v34) (V c main_v35) (V c main_v38) (V c main_v41) (V c main_arg2) :=
  (dat1 V c).arrAt_eq_of_cover 6 _ (fun t _ => flushed_eq V c t) cover6

end Cert.KernelIdeal.R1
end
-- ==== Proof.KI.Whole.lean ====
/-
  The idealized kernel program as a whole: after its run the result array holds the specification's function G of the
  three argument arrays.  The first kernel leaves the raw statistics of x in its output array; the host operations
  turn them into the coefficients (the mean and one reciprocal square root per segment) and spread the per-feature
  weights over the columns; the second kernel then writes, block by block, the normalisation of x by these.  No
  algebra is needed on this side: the specification is stated in the kernel's own order of operations.
-/
import proofs.«127636_j91010357002261_1_alg».proof.Proof.KI.Run
import proofs.«127636_j91010357002261_1_alg».proof.Proof.KI.HostGlue
import proofs.«127636_j91010357002261_1_alg».proof.Proof.KI.Val0D
import proofs.«127636_j91010357002261_1_alg».proof.Proof.KI.Val1
import proofs.«127636_j91010357002261_1_alg».proof.Proof.Spec

set_option maxRecDepth 16384

noncomputable section

namespace Cert.KernelIdeal.Whole
open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- No kernel and no host operation writes the first argument before the second kernel reads it. -/
theorem V2_arg0 (c : Dev nD) : V2 (F := Ideal) m ρ c main_arg0 = m ((c : Thread nD τ).loc main_arg0) :=
  (W2_of m ρ c main_arg0 (by decide)).trans ((W1_arr m ρ c 0).trans
    (((R0.dat0 (V0 m ρ) c).arrAt_in 0 rfl _).trans (R0.A_eq0 (V0 m ρ) c 0)))
theorem V2_arg2 (c : Dev nD) : V2 (F := Ideal) m ρ c main_arg2 = m ((c : Thread nD τ).loc main_arg2) :=
  (W2_of m ρ c main_arg2 (by decide)).trans ((W1_of_ne m ρ c main_arg2 (by decide)).trans rfl)
theorem W1_arg1 (c : Dev nD) : W1 (F := Ideal) m ρ c (Proc.devRef .tc main_arg1) = m ((c : Thread nD τ).loc main_arg1) :=
  (W1_of_ne m ρ c main_arg1 (by decide)).trans rfl

/-- After the first kernel its output array holds the raw statistics of x. -/
theorem W1_v0 (c : Dev nD) : W1 (F := Ideal) m ρ c (Proc.devRef .tc main_v0) = Cert.Spec.raw (m ((c : Thread nD τ).loc main_arg0)) :=
  (W1_main_v0 m ρ c).trans (R0V.final0 (V0 m ρ) c)

/-- The second kernel's operands when it is entered. -/
theorem V2_v34 (c : Dev nD) : V2 (F := Ideal) m ρ c main_v34 = Cert.Spec.coef (Cert.Spec.raw (m ((c : Thread nD τ).loc main_arg0))) :=
  (HostGlue.after_v34 (W1 m ρ c)).trans (by rw [W1_v0, HostGlue.coefT_eq])
theorem V2_v35 (c : Dev nD) : V2 (F := Ideal) m ρ c main_v35 = Cert.Spec.w0 (m ((c : Thread nD τ).loc main_arg1)) :=
  (HostGlue.after_v35 (W1 m ρ c)).trans (by rw [W1_arg1, HostGlue.w0T_eq])
theorem V2_v38 (c : Dev nD) : V2 (F := Ideal) m ρ c main_v38 = Cert.Spec.w1 (m ((c : Thread nD τ).loc main_arg1)) :=
  (HostGlue.after_v38 (W1 m ρ c)).trans (by rw [W1_arg1, HostGlue.w1T_eq])
theorem V2_v41 (c : Dev nD) : V2 (F := Ideal) m ρ c main_v41 = Cert.Spec.w2 (m ((c : Thread nD τ).loc main_arg1)) :=
  (HostGlue.after_v41 (W1 m ρ c)).trans (by rw [W1_arg1, HostGlue.w2T_eq])

/-- The result array after the run is G of the argument arrays. -/
theorem result_eq (c : Dev nD) :
    W3 (F := Ideal) m ρ c (Proc.devRef .tc main_v42)
      = Cert.Spec.G (m ((c : Thread nD τ).loc main_arg0)) (m ((c : Thread nD τ).loc main_arg1)) (m ((c : Thread nD τ).loc main_arg2)) := by
  rw [W3_main_v42, R1.final1, V2_arg0, V2_arg2, V2_v34, V2_v35, V2_v38, V2_v41]
  rfl

/-- The idealized kernel's run: it terminates, the result is G of the arguments, the arguments end unchanged. -/
theorem run : θ_run defs (onTc (τ := τ) (main (F := Ideal))) ⟨m, fun _ => 0, ρ⟩ (fun r => ∀ c : Dev nD,
      r.2.mem ((c.tc : Thread nD τ).loc main_v42) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v42 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Whole

end
-- ==== Proof.LibTrailingReduce.lean ====
/-
  The host's sum over the two trailing axes of a rank-3 array, read at a leading coordinate b: the initial value
  plus the double sum over the two trailing coordinates of the entries (b, t, j).
-/
import Idealize.ShloMosaic.PureOps.Ideal
import Idealize.ShloMosaic.Lib.ValueIdx

noncomputable section

open scoped BigOperators

namespace Cert.RefValue

open Idealize.ShloMosaic Idealize.ShloMosaic.ValueIdx

theorem hostReduceAdd_trailing {n0 n1 n2 : ℕ}
    (h : (⟨3, ![n0, n1, n2]⟩ : Shape).ReducesTo [1, 2] ⟨1, ![n0]⟩)
    (x : (⟨3, ![n0, n1, n2]⟩ : Shape).Idx → EReal) (init : EReal) (b : Fin n0) :
    Ideal.hostReduceAdd h x init (ix1 b) = init + ∑ t : Fin n1, ∑ j : Fin n2, x (ix3 b t j) := by
  unfold Ideal.hostReduceAdd
  congr 1
  rw [← Fintype.sum_prod_type' (f := fun t j => x (ix3 b t j))]
  have key : ∀ i : (⟨3, ![n0, n1, n2]⟩ : Shape).Idx, h.drop i = ix1 b ↔ i 0 = b := by
    intro i
    constructor
    · intro e
      have := congrFun e 0
      exact Fin.ext (congrArg Fin.val this)
    · intro e
      funext d
      match d with
      | ⟨0, _⟩ => exact Fin.ext (congrArg Fin.val e)
  refine Finset.sum_bij' (fun i _ => ((i 1 : Fin n1), (i 2 : Fin n2))) (fun p _ => ix3 b p.1 p.2) ?_ ?_ ?_ ?_ ?_
  · intro i _; exact Finset.mem_univ _
  · intro p _; exact Finset.mem_filter.mpr ⟨Finset.mem_univ _, (key _).mpr rfl⟩
  · intro i hi
    have e : i 0 = b := (key i).mp (Finset.mem_filter.mp hi).2
    funext a
    match a with
    | ⟨0, _⟩ => exact e.symm
    | ⟨1, _⟩ => rfl
    | ⟨2, _⟩ => rfl
  · intro p _; rfl
  · intro i hi
    have e : i 0 = b := (key i).mp (Finset.mem_filter.mp hi).2
    show x i = x (ix3 b (i 1) (i 2))
    congr 1
    funext a
    match a with
    | ⟨0, _⟩ => exact e
    | ⟨1, _⟩ => rfl
    | ⟨2, _⟩ => rfl

end Cert.RefValue

end
-- ==== Proof.RefSeg0.lean ====
/-
  Segment 0 of the reference (columns 0–255), stage by stage at coordinates (b, t, j): the segment's sum, its mean μ,
  the centred entries x − μ, the sum of their squares, the power (mean((x−μ)²) + ε)^(−1/2), and the result
  (x − μ)·power·w[j] + bias[j].
-/
import proofs.«127636_j91010357002261_1_alg».proof.Proof.Gen.ReferenceIdeal.Read
import proofs.«127636_j91010357002261_1_alg».proof.Proof.Spec
import proofs.«127636_j91010357002261_1_alg».proof.Proof.LibTrailingReduce

noncomputable section

open scoped BigOperators

namespace Cert.RefValue

open Idealize.ShloMosaic Idealize.ShloMosaic.ValueIdx Cert.ReferenceIdeal Cert.ReferenceIdeal.Read

/-- The sum of segment 0 of batch entry b. -/
theorem v1_at (x : Spec.SX.Idx → EReal) (b : Fin 4) :
    val_main_v1 (F := Ideal) x (ix1 b) = Spec.sum0 x b := by
  unfold val_main_v1 Spec.sum0
  refine (hostReduceAdd_trailing _ _ _ b).trans ?_
  rw [val_main_cst_apply, Ideal.ofBits_def, Ideal.ofBits_zero_f32, zero_add]
  refine Finset.sum_congr rfl fun t _ => Finset.sum_congr rfl fun j _ => ?_
  rw [val_main_v0_apply]
  refine congrArg x ?_
  funext a; match a with | ⟨0, _⟩ => rfl | ⟨1, _⟩ => rfl | ⟨2, _⟩ => rfl

/-- The mean of segment 0. -/
theorem v4_at (x : Spec.SX.Idx → EReal) (b : Fin 4) :
    val_main_v4 (F := Ideal) x (ix3 b 0 0) = Ideal.div (Spec.sum0 x b) Spec.n0 := by
  rw [val_main_v4_apply, val_main_v2_apply, val_main_v3_apply, val_main_cst_0_apply]
  have e : idx_main_v2 (ix3 b (0 : Fin 1) (0 : Fin 1)) = ix1 b := by
    funext a; match a with | ⟨0, _⟩ => rfl
  rw [e, v1_at]
  rfl

/-- A centred entry of segment 0. -/
theorem v6_at (x : Spec.SX.Idx → EReal) (b : Fin 4) (t : Fin 16384) (j : Fin 256) :
    val_main_v6 (F := Ideal) x (ix3 b t j) = x (ix3 b t (Spec.c0 j)) - Ideal.div (Spec.sum0 x b) Spec.n0 := by
  rw [val_main_v6_apply, val_main_v0_apply, val_main_v5_apply]
  have e0 : idx_main_v0 (ix3 b t j) = ix3 b t (Spec.c0 j) := by
    funext a; match a with | ⟨0, _⟩ => rfl | ⟨1, _⟩ => rfl | ⟨2, _⟩ => rfl
  have e5 : idx_main_v5 (ix3 b t j) = ix3 b (0 : Fin 1) (0 : Fin 1) := by
    funext a; match a with | ⟨0, _⟩ => rfl | ⟨1, _⟩ => rfl | ⟨2, _⟩ => rfl
  rw [e0, e5, v4_at]
  rfl

/-- The sum of the squared centred entries. -/
theorem v8_at (x : Spec.SX.Idx → EReal) (b : Fin 4) :
    val_main_v8 (F := Ideal) x (ix1 b)
      = ∑ t : Fin 16384, ∑ j : Fin 256, (x (ix3 b t (Spec.c0 j)) - Ideal.div (Spec.sum0 x b) Spec.n0)
          * (x (ix3 b t (Spec.c0 j)) - Ideal.div (Spec.sum0 x b) Spec.n0) := by
  unfold val_main_v8
  refine (hostReduceAdd_trailing _ _ _ b).trans ?_
  rw [val_main_cst_1_apply, Ideal.ofBits_def, Ideal.ofBits_zero_f32, zero_add]
  refine Finset.sum_congr rfl fun t _ => Finset.sum_congr rfl fun j _ => ?_
  rw [val_main_v7_apply, v6_at]
  rfl

/-- The power (mean of the squared centred entries + ε)^(−1/2). -/
theorem v15_at (x : Spec.SX.Idx → EReal) (b : Fin 4) :
    val_main_v15 (F := Ideal) x (ix3 b 0 0)
      = Ideal.pow (Ideal.div (∑ t : Fin 16384, ∑ j : Fin 256, (x (ix3 b t (Spec.c0 j)) - Ideal.div (Spec.sum0 x b) Spec.n0)
          * (x (ix3 b t (Spec.c0 j)) - Ideal.div (Spec.sum0 x b) Spec.n0)) Spec.n0 + Spec.eps)
          (Ideal.ofBits .f32 0xBF000000#32) := by
  rw [val_main_v15_apply, val_main_v13_apply, val_main_v11_apply, val_main_v9_apply, val_main_v10_apply,
    val_main_cst_2_apply, val_main_v12_apply, val_main_cst_3_apply, val_main_v14_apply, val_main_cst_4_apply]
  have e : idx_main_v9 (ix3 b (0 : Fin 1) (0 : Fin 1)) = ix1 b := by
    funext a; match a with | ⟨0, _⟩ => rfl
  rw [e, v8_at]
  rfl

/-- A result entry of segment 0. -/
theorem v26_at (x : Spec.SX.Idx → EReal) (w : Spec.SW.Idx → EReal) (bias : Spec.SB.Idx → EReal)
    (b : Fin 4) (t : Fin 16384) (j : Fin 256) :
    val_main_v26 (F := Ideal) x w bias (ix3 b t j)
      = (x (ix3 b t (Spec.c0 j)) - Ideal.div (Spec.sum0 x b) Spec.n0) * val_main_v15 (F := Ideal) x (ix3 b 0 0)
          * w (ix1 (⟨j.val, by omega⟩ : Fin 448)) + bias (ix1 j) := by
  have e26 : idx_main_v26 (ix3 b t j) = ix4 b t j (0 : Fin 1) := by
    have hb := b.isLt; have ht := t.isLt; have hj := j.isLt
    funext a
    match a with
    | ⟨0, _⟩ => exact Fin.ext (by show ((b.val * 16384 + t.val) * 256 + j.val) / 4194304 = b.val; omega)
    | ⟨1, _⟩ => exact Fin.ext (by show ((b.val * 16384 + t.val) * 256 + j.val) / 256 % 16384 = t.val; omega)
    | ⟨2, _⟩ => exact Fin.ext (by show ((b.val * 16384 + t.val) * 256 + j.val) / 1 % 256 = j.val; omega)
    | ⟨3, _⟩ => rfl
  have e18 : idx_main_v18 (ix4 b t j (0 : Fin 1)) = ix3 b t j := by
    have hb := b.isLt; have ht := t.isLt; have hj := j.isLt
    funext a
    match a with
    | ⟨0, _⟩ => exact Fin.ext (by show (((b.val * 16384 + t.val) * 256 + j.val) * 1 + 0) / 4194304 = b.val; omega)
    | ⟨1, _⟩ => exact Fin.ext (by show (((b.val * 16384 + t.val) * 256 + j.val) * 1 + 0) / 256 % 16384 = t.val; omega)
    | ⟨2, _⟩ => exact Fin.ext (by show (((b.val * 16384 + t.val) * 256 + j.val) * 1 + 0) % 256 = j.val; omega)
  have e21 : idx_main_v20 (idx_main_v21 (ix4 b t j (0 : Fin 1))) = ix1 j := by
    funext a; match a with | ⟨0, _⟩ => rfl
  have e19 : idx_main_v19 (ix1 j) = ix1 (⟨j.val, by omega⟩ : Fin 448) := by
    funext a; match a with | ⟨0, _⟩ => rfl
  have e24 : idx_main_v23 (idx_main_v24 (ix4 b t j (0 : Fin 1))) = ix1 j := by
    funext a; match a with | ⟨0, _⟩ => rfl
  have e16 : idx_main_v16 (ix3 b t j) = ix3 b (0 : Fin 1) (0 : Fin 1) := by
    funext a; match a with | ⟨0, _⟩ => rfl | ⟨1, _⟩ => rfl | ⟨2, _⟩ => rfl
  rw [val_main_v26_apply, e26, val_main_v25_apply, val_main_v22_apply, val_main_v24_apply, val_main_v23_apply, e24,
    val_main_v18_apply, e18, val_main_v21_apply, val_main_v20_apply, e21, val_main_v19_apply, e19,
    val_main_v17_apply, v6_at, val_main_v16_apply, e16]
  rfl

end Cert.RefValue

end
-- ==== Proof.RefConsts.lean ====
/-
  The float words the reference spells, as the extended reals they denote: the three divisors are the powers of
  two 2^22, 2^21, 2^20 (the number of rows times the number of features of a segment), the exponent word is −1/2,
  and ε is a positive real (its value is never needed beyond positivity).
-/
import proofs.«127636_j91010357002261_1_alg».proof.Proof.Spec

noncomputable section

namespace Cert.RefValue

open Idealize.ShloMosaic

/-- The word 0x4A800000 denotes 2^22 = 4194304. -/
theorem n0_eq : Cert.Spec.n0 = ((4194304 : ℝ) : EReal) := by
  unfold Cert.Spec.n0
  simp [Ideal.ofBits, Ideal.ieee, -EReal.coe_mul]; norm_num

/-- The word 0x4A000000 denotes 2^21 = 2097152. -/
theorem n1_eq : Cert.Spec.n1 = ((2097152 : ℝ) : EReal) := by
  unfold Cert.Spec.n1
  simp [Ideal.ofBits, Ideal.ieee, -EReal.coe_mul]; norm_num

/-- The word 0x49800000 denotes 2^20 = 1048576. -/
theorem n2_eq : Cert.Spec.n2 = ((1048576 : ℝ) : EReal) := by
  unfold Cert.Spec.n2
  simp [Ideal.ofBits, Ideal.ieee, -EReal.coe_mul]; norm_num

/-- The exponent word 0xBF000000 denotes −1/2. -/
theorem expo_eq : Ideal.ofBits .f32 0xBF000000#32 = ((-(1 / 2) : ℝ) : EReal) := by
  simp [Ideal.ofBits, Ideal.ieee, -EReal.coe_mul]; norm_num

/-- The word of ε denotes a positive real. -/
theorem eps_pos : ∃ e : ℝ, 0 < e ∧ Cert.Spec.eps = (e : EReal) := by
  unfold Cert.Spec.eps
  refine ⟨_, ?_, by simp [Ideal.ofBits, Ideal.ieee, -EReal.coe_mul]; rfl⟩
  positivity

end Cert.RefValue

end
-- ==== Proof.LibVarianceReals.lean ====
/-
  The real-number mathematics behind the reference's three reciprocal standard deviations.
  With every entry of a segment a real, each sum is a real; the mean of the squared deviations from the mean is
  the mean square less the squared mean (the number of summands being exactly the divisor); the argument of the
  power is then a real at least ε > 0, and on a positive real r the power r^(−1/2) is 1/√r.
  Also here: a sum over m·k consecutive columns is the double sum over m features of k components.
-/
import Idealize.ShloMosaic.PureOps.Ideal

noncomputable section

open scoped BigOperators

namespace Cert.RefValue

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with double sums. -/
theorem coe_sum₂ {A B : ℕ} (g : Fin A → Fin B → ℝ) :
    (∑ t, ∑ j, (g t j : EReal)) = ((∑ t, ∑ j, g t j : ℝ) : EReal) := by
  rw [coe_sum]; exact Finset.sum_congr rfl fun t _ => (coe_sum _ _).symm

/-- On a positive real the power with exponent −1/2 is the reciprocal square root. -/
theorem pow_neg_half {r : ℝ} (hr : 0 < r) :
    Ideal.pow (r : EReal) ((-(1 / 2) : ℝ) : EReal) = Ideal.rsqrt (r : EReal) := by
  show ((Real.rpow r (-(1 / 2)) : ℝ) : EReal) = if r < 0 then ⊥ else if r = 0 then ⊤ else (((Real.sqrt r)⁻¹ : ℝ) : EReal)
  rw [if_neg (not_lt.mpr hr.le), if_neg hr.ne']
  congr 1
  show r ^ (-(1 / 2) : ℝ) = _
  rw [Real.rpow_neg hr.le, Real.sqrt_eq_rpow]

/-- The variance identity over a finite index set of exactly N elements: the mean of the squared deviations from
    the mean μ = (Σ f)/N is the mean square less μ². -/
theorem var_identity {ι : Type*} [Fintype ι] (f : ι → ℝ) (N : ℝ) (hN : (Fintype.card ι : ℝ) = N) (hN0 : N ≠ 0) :
    (∑ i, (f i - (∑ i, f i) * (1 / N)) * (f i - (∑ i, f i) * (1 / N))) * (1 / N)
      = (∑ i, f i * f i) * (1 / N) - ((∑ i, f i) * (1 / N)) * ((∑ i, f i) * (1 / N)) := by
  set S := ∑ i, f i with hS
  set μ := S * (1 / N) with hμ
  have h1 : ∑ i, (f i - μ) * (f i - μ) = (∑ i, f i * f i) - 2 * μ * S + N * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hN, ← hS]
    ring
  rw [h1, hμ]
  field_simp
  ring

/-- Segment 0, on reals r t j with exactly N = A·B of them: the reference's (mean((x−μ)²) + ε)^(−1/2) is the
    specification's rsqrt(mean(x²) − μ² + ε), μ the mean. -/
theorem inv0_eq {A B : ℕ} (r : Fin A → Fin B → ℝ) (N e : ℝ) (hN : ((A * B : ℕ) : ℝ) = N) (hN0 : 0 < N) (he : 0 < e) :
    Ideal.pow (Ideal.div (∑ t, ∑ j, ((r t j : EReal) - Ideal.div (∑ t, ∑ j, (r t j : EReal)) (N : EReal))
        * ((r t j : EReal) - Ideal.div (∑ t, ∑ j, (r t j : EReal)) (N : EReal))) (N : EReal) + (e : EReal))
        ((-(1 / 2) : ℝ) : EReal)
      = Ideal.rsqrt (Ideal.div (∑ t, ∑ j, (r t j : EReal) * (r t j : EReal)) (N : EReal)
          - Ideal.div (∑ t, ∑ j, (r t j : EReal)) (N : EReal) * Ideal.div (∑ t, ∑ j, (r t j : EReal)) (N : EReal)
          + (e : EReal)) := by
  have hμ : Ideal.div (∑ t, ∑ j, (r t j : EReal)) (N : EReal) = (((∑ t, ∑ j, r t j) * (1 / N) : ℝ) : EReal) := by
    rw [Ideal.div_coe hN0.ne', coe_sum₂, ← EReal.coe_mul]
  rw [hμ]
  simp only [← EReal.coe_sub, ← EReal.coe_mul, coe_sum₂, Ideal.div_coe hN0.ne', ← EReal.coe_add]
  -- the real identity, over the product index set
  have hcard : (Fintype.card (Fin A × Fin B) : ℝ) = N := by rw [Fintype.card_prod, Fintype.card_fin, Fintype.card_fin]; exact hN
  have hv := var_identity (fun p : Fin A × Fin B => r p.1 p.2) N hcard hN0.ne'
  simp only [Fintype.sum_prod_type] at hv
  rw [← hv]
  refine pow_neg_half ?_
  have h0 : 0 ≤ ∑ t, ∑ j, (r t j - (∑ t, ∑ j, r t j) * (1 / N)) * (r t j - (∑ t, ∑ j, r t j) * (1 / N)) :=
    Finset.sum_nonneg fun t _ => Finset.sum_nonneg fun j _ => mul_self_nonneg _
  have h1 : 0 ≤ 1 / N := by positivity
  have := mul_nonneg h0 h1
  linarith

/-- Segments 1 and 2, on a sum of squares of reals: the reference's (S/N + ε)^(−1/2) is the specification's
    rsqrt(S/N + ε). -/
theorem inv12_eq (S : EReal) (s N e : ℝ) (hS : S = (s : EReal)) (hs : 0 ≤ s) (hN0 : 0 < N) (he : 0 < e) :
    Ideal.pow (Ideal.div S (N : EReal) + (e : EReal)) ((-(1 / 2) : ℝ) : EReal)
      = Ideal.rsqrt (Ideal.div S (N : EReal) + (e : EReal)) := by
  rw [hS, Ideal.div_coe hN0.ne', ← EReal.coe_mul, ← EReal.coe_add]
  refine pow_neg_half ?_
  have h1 : 0 ≤ 1 / N := by positivity
  have := mul_nonneg hs h1
  linarith

/-- A sum over m·k consecutive positions is the double sum over m groups of k positions (position k·n + d of
    group n, place d). -/
theorem sum_groups {M : Type*} [AddCommMonoid M] (m k : ℕ) (G : Fin (m * k) → M) :
    ∑ j, G j = ∑ n : Fin m, ∑ d : Fin k, G (finProdFinEquiv (n, d)) := by
  rw [← Equiv.sum_comp finProdFinEquiv G, Fintype.sum_prod_type]

end Cert.RefValue

end
-- ==== Proof.RefEq0.lean ====
/-
  Segment 0: with every entry of the array finite, the reference's entry at column j < 256 is the specification's.
  The entries of the segment are reals r t j; the reference's power of mean((r−μ)²) + ε is the specification's
  reciprocal square root of mean(r²) − μ² + ε (the variance identity, 2^22 = 16384·256 summands), and the remaining
  factors are the same on both sides in the same order.
-/
import proofs.«127636_j91010357002261_1_alg».proof.Proof.RefSeg0
import proofs.«127636_j91010357002261_1_alg».proof.Proof.RefConsts
import proofs.«127636_j91010357002261_1_alg».proof.Proof.LibVarianceReals

noncomputable section

open scoped BigOperators

namespace Cert.RefValue

open Idealize.ShloMosaic Idealize.ShloMosaic.ValueIdx Cert.ReferenceIdeal Cert.ReferenceIdeal.Read

/-- The specification at column j of segment 0, unfolded. -/
theorem G_seg0 (x : Spec.SX.Idx → EReal) (w : Spec.SW.Idx → EReal) (bias : Spec.SB.Idx → EReal)
    (b : Fin 4) (t : Fin 16384) (j : Fin 256) :
    Spec.G x w bias (ix3 b t (Spec.c0 j))
      = (x (ix3 b t (Spec.c0 j)) - Ideal.div (Spec.sum0 x b) Spec.n0)
          * Ideal.rsqrt (Ideal.div (Spec.sq0 x b) Spec.n0
              - Ideal.div (Spec.sum0 x b) Spec.n0 * Ideal.div (Spec.sum0 x b) Spec.n0 + Spec.eps)
          * w (ix1 (⟨j.val, by omega⟩ : Fin 448)) + bias (ix1 j) := by
  unfold Spec.G Spec.norm Spec.normc
  rw [dif_pos (show (Spec.c0 j).val < 256 from j.isLt)]
  rfl

theorem seg0_eq (x : Spec.SX.Idx → EReal) (w : Spec.SW.Idx → EReal) (bias : Spec.SB.Idx → EReal)
    (hfin : ∀ i, x i ≠ ⊤ ∧ x i ≠ ⊥) (b : Fin 4) (t : Fin 16384) (j : Fin 256) :
    val_main_v26 (F := Ideal) x w bias (ix3 b t j) = Spec.G x w bias (ix3 b t (Spec.c0 j)) := by
  obtain ⟨e, he, heps⟩ := eps_pos
  obtain ⟨r, hr⟩ : ∃ r : Fin 16384 → Fin 256 → ℝ, ∀ t j, x (ix3 b t (Spec.c0 j)) = (r t j : EReal) :=
    ⟨fun t j => (x (ix3 b t (Spec.c0 j))).toReal, fun t j => (EReal.coe_toReal (hfin _).1 (hfin _).2).symm⟩
  have key : Ideal.pow (Ideal.div (∑ t : Fin 16384, ∑ j : Fin 256, (x (ix3 b t (Spec.c0 j)) - Ideal.div (Spec.sum0 x b) Spec.n0)
          * (x (ix3 b t (Spec.c0 j)) - Ideal.div (Spec.sum0 x b) Spec.n0)) Spec.n0 + Spec.eps)
          (Ideal.ofBits .f32 0xBF000000#32)
      = Ideal.rsqrt (Ideal.div (Spec.sq0 x b) Spec.n0
              - Ideal.div (Spec.sum0 x b) Spec.n0 * Ideal.div (Spec.sum0 x b) Spec.n0 + Spec.eps) := by
    unfold Spec.sum0 Spec.sq0
    simp only [hr]
    rw [n0_eq, expo_eq, heps]
    exact inv0_eq r 4194304 e (by norm_num) (by norm_num) he
  rw [v26_at, v15_at, G_seg0, key]

end Cert.RefValue

end
-- ==== Proof.RefSeg1.lean ====
/-
  Segment 1 of the reference (columns 256–639: 128 features of 3 components), stage by stage at coordinates: the
  squares summed over a feature's 3 components and then over rows and features — which is the sum of the squares over
  rows and the segment's 384 columns, column 3n + d being component d of feature n —, the power
  (that sum / 2^21 + ε)^(−1/2), and the result x·power·w[256 + j/3] at column j of the segment.
-/
import proofs.«127636_j91010357002261_1_alg».proof.Proof.Gen.ReferenceIdeal.Read
import proofs.«127636_j91010357002261_1_alg».proof.Proof.Spec
import proofs.«127636_j91010357002261_1_alg».proof.Proof.LibTrailingReduce
import proofs.«127636_j91010357002261_1_alg».proof.Proof.LibVarianceReals

noncomputable section

open scoped BigOperators

namespace Cert.RefValue

open Idealize.ShloMosaic Idealize.ShloMosaic.ValueIdx Cert.ReferenceIdeal Cert.ReferenceIdeal.Read

/-- Column 3n + d of segment 1: component d of feature n. -/
def col1 (n : Fin 128) (d : Fin 3) : Fin 384 := ⟨3 * n.val + d.val, by omega⟩

theorem col1_eq (n : Fin 128) (d : Fin 3) : col1 n d = (finProdFinEquiv (n, d) : Fin (128 * 3)) :=
  Fin.ext (by show 3 * n.val + d.val = d.val + 3 * n.val; omega)

/-- A squared entry of segment 1, by feature and component. -/
theorem v29_at (x : Spec.SX.Idx → EReal) (b : Fin 4) (t : Fin 16384) (n : Fin 128) (d : Fin 3) :
    val_main_v29 (F := Ideal) x (ix4 b t n d)
      = x (ix3 b t (Spec.c1 (col1 n d))) * x (ix3 b t (Spec.c1 (col1 n d))) := by
  have e : idx_main_v27 (idx_main_v28 (ix4 b t n d)) = ix3 b t (Spec.c1 (col1 n d)) := by
    have hb := b.isLt; have ht := t.isLt; have hn := n.isLt; have hd := d.isLt
    funext a
    match a with
    | ⟨0, _⟩ => exact Fin.ext (by show (((b.val * 16384 + t.val) * 128 + n.val) * 3 + d.val) / 6291456 = b.val; omega)
    | ⟨1, _⟩ => exact Fin.ext (by show (((b.val * 16384 + t.val) * 128 + n.val) * 3 + d.val) / 384 % 16384 = t.val; omega)
    | ⟨2, _⟩ => exact Fin.ext (by show 256 + (((b.val * 16384 + t.val) * 128 + n.val) * 3 + d.val) % 384 = 256 + (3 * n.val + d.val); omega)
  rw [val_main_v29_apply, val_main_v28_apply, val_main_v27_apply, e]
  rfl

/-- The squares of a feature's three components, summed. -/
theorem v30_at (x : Spec.SX.Idx → EReal) (b : Fin 4) (t : Fin 16384) (n : Fin 128) :
    val_main_v30 (F := Ideal) x (ix3 b t n)
      = ∑ d : Fin 3, x (ix3 b t (Spec.c1 (col1 n d))) * x (ix3 b t (Spec.c1 (col1 n d))) := by
  rw [val_main_v30_apply, val_main_cst_5_apply, Ideal.ofBits_def, Ideal.ofBits_zero_f32, zero_add]
  refine Finset.sum_congr rfl fun d _ => ?_
  have e : idx_main_v30 (ix3 b t n) d = ix4 b t n d := by
    funext a; match a with | ⟨0, _⟩ => rfl | ⟨1, _⟩ => rfl | ⟨2, _⟩ => rfl | ⟨3, _⟩ => rfl
  rw [e, v29_at]

/-- The sum of the squares of segment 1 of batch entry b. -/
theorem v31_at (x : Spec.SX.Idx → EReal) (b : Fin 4) :
    val_main_v31 (F := Ideal) x (ix1 b) = Spec.sq1 x b := by
  unfold val_main_v31 Spec.sq1
  refine (hostReduceAdd_trailing _ _ _ b).trans ?_
  rw [val_main_cst_6_apply, Ideal.ofBits_def, Ideal.ofBits_zero_f32, zero_add]
  refine Finset.sum_congr rfl fun t _ => ?_
  simp only [v30_at, col1_eq]
  exact (sum_groups 128 3 fun j : Fin (128 * 3) => x (ix3 b t (Spec.c1 j)) * x (ix3 b t (Spec.c1 j))).symm

/-- The power (sum of squares / 2^21 + ε)^(−1/2). -/
theorem v38_at (x : Spec.SX.Idx → EReal) (b : Fin 4) :
    val_main_v38 (F := Ideal) x (ix3 b 0 0)
      = Ideal.pow (Ideal.div (Spec.sq1 x b) Spec.n1 + Spec.eps) (Ideal.ofBits .f32 0xBF000000#32) := by
  rw [val_main_v38_apply, val_main_v36_apply, val_main_v34_apply, val_main_v33_apply, val_main_v32_apply,
    val_main_cst_7_apply, val_main_v35_apply, val_main_cst_8_apply, val_main_v37_apply, val_main_cst_9_apply]
  have e : idx_main_v34 (ix3 b (0 : Fin 1) (0 : Fin 1)) = ix1 b := by
    funext a; match a with | ⟨0, _⟩ => rfl
  rw [e, v31_at]
  rfl

/-- A result entry of segment 1. -/
theorem v46_at (x : Spec.SX.Idx → EReal) (w : Spec.SW.Idx → EReal) (b : Fin 4) (t : Fin 16384) (j : Fin 384) :
    val_main_v46 (F := Ideal) x w (ix3 b t j)
      = x (ix3 b t (Spec.c1 j)) * val_main_v38 (F := Ideal) x (ix3 b 0 0)
          * w (ix1 (⟨256 + j.val / 3, by omega⟩ : Fin 448)) := by
  have hb := b.isLt; have ht := t.isLt; have hj := j.isLt
  have e46 : idx_main_v46 (ix3 b t j) = ix4 b t (⟨j.val / 3, by omega⟩ : Fin 128) (⟨j.val % 3, by omega⟩ : Fin 3) := by
    funext a
    match a with
    | ⟨0, _⟩ => exact Fin.ext (by show ((b.val * 16384 + t.val) * 384 + j.val) / 6291456 = b.val; omega)
    | ⟨1, _⟩ => exact Fin.ext (by show ((b.val * 16384 + t.val) * 384 + j.val) / 384 % 16384 = t.val; omega)
    | ⟨2, _⟩ => exact Fin.ext (by show ((b.val * 16384 + t.val) * 384 + j.val) / 3 % 128 = j.val / 3; omega)
    | ⟨3, _⟩ => exact Fin.ext (by show ((b.val * 16384 + t.val) * 384 + j.val) % 3 = j.val % 3; omega)
  have e41 : idx_main_v41 (ix4 b t (⟨j.val / 3, by omega⟩ : Fin 128) (⟨j.val % 3, by omega⟩ : Fin 3)) = ix3 b t j := by
    funext a
    match a with
    | ⟨0, _⟩ => exact Fin.ext (by show (((b.val * 16384 + t.val) * 128 + j.val / 3) * 3 + j.val % 3) / 6291456 = b.val; omega)
    | ⟨1, _⟩ => exact Fin.ext (by show (((b.val * 16384 + t.val) * 128 + j.val / 3) * 3 + j.val % 3) / 384 % 16384 = t.val; omega)
    | ⟨2, _⟩ => exact Fin.ext (by show (((b.val * 16384 + t.val) * 128 + j.val / 3) * 3 + j.val % 3) % 384 = j.val; omega)
  have e27 : idx_main_v27 (ix3 b t j) = ix3 b t (Spec.c1 j) := by
    funext a; match a with | ⟨0, _⟩ => rfl | ⟨1, _⟩ => rfl | ⟨2, _⟩ => rfl
  have e39 : idx_main_v39 (ix3 b t j) = ix3 b (0 : Fin 1) (0 : Fin 1) := by
    funext a; match a with | ⟨0, _⟩ => rfl | ⟨1, _⟩ => rfl | ⟨2, _⟩ => rfl
  have e44 : idx_main_v42 (idx_main_v43 (idx_main_v44 (ix4 b t (⟨j.val / 3, by omega⟩ : Fin 128) (⟨j.val % 3, by omega⟩ : Fin 3))))
      = ix1 (⟨256 + j.val / 3, by omega⟩ : Fin 448) := by
    funext a; match a with | ⟨0, _⟩ => rfl
  rw [val_main_v46_apply, e46, val_main_v45_apply, val_main_v41_apply, e41, val_main_v40_apply, val_main_v27_apply, e27,
    val_main_v39_apply, e39, val_main_v44_apply, val_main_v43_apply, val_main_v42_apply, e44]
  rfl

end Cert.RefValue

end
-- ==== Proof.RefEq1.lean ====
/-
  Segment 1: with every entry of the array finite, the reference's entry at column 256 + j is the specification's.
  The sum of squares is a nonnegative real, so the argument of the power is a real at least ε > 0, where the power
  with exponent −1/2 is the reciprocal square root; the other factors are the same on both sides in the same order.
-/
import proofs.«127636_j91010357002261_1_alg».proof.Proof.RefSeg1
import proofs.«127636_j91010357002261_1_alg».proof.Proof.RefConsts
import proofs.«127636_j91010357002261_1_alg».proof.Proof.LibVarianceReals

noncomputable section

open scoped BigOperators

namespace Cert.RefValue

open Idealize.ShloMosaic Idealize.ShloMosaic.ValueIdx Cert.ReferenceIdeal Cert.ReferenceIdeal.Read

/-- The specification at column 256 + j (segment 1), unfolded. -/
theorem G_seg1 (x : Spec.SX.Idx → EReal) (w : Spec.SW.Idx → EReal) (bias : Spec.SB.Idx → EReal)
    (b : Fin 4) (t : Fin 16384) (j : Fin 384) :
    Spec.G x w bias (ix3 b t (Spec.c1 j))
      = x (ix3 b t (Spec.c1 j)) * Ideal.rsqrt (Ideal.div (Spec.sq1 x b) Spec.n1 + Spec.eps)
          * w (ix1 (⟨256 + j.val / 3, by omega⟩ : Fin 448)) := by
  have hj := j.isLt
  unfold Spec.G Spec.norm Spec.normc
  rw [dif_neg (show ¬ (Spec.c1 j).val < 256 by show ¬ 256 + j.val < 256; omega),
    dif_pos (show (Spec.c1 j).val < 640 by show 256 + j.val < 640; omega)]
  show x (ix3 b t (Spec.c1 j)) * Ideal.rsqrt (Ideal.div (Spec.sq1 x b) Spec.n1 + Spec.eps)
      * w (ix1 (⟨256 + (256 + j.val - 256) / 3, _⟩ : Fin 448)) = _
  simp only [Nat.add_sub_cancel_left]

theorem seg1_eq (x : Spec.SX.Idx → EReal) (w : Spec.SW.Idx → EReal) (bias : Spec.SB.Idx → EReal)
    (hfin : ∀ i, x i ≠ ⊤ ∧ x i ≠ ⊥) (b : Fin 4) (t : Fin 16384) (j : Fin 384) :
    val_main_v46 (F := Ideal) x w (ix3 b t j) = Spec.G x w bias (ix3 b t (Spec.c1 j)) := by
  obtain ⟨e, he, heps⟩ := eps_pos
  obtain ⟨r, hr⟩ : ∃ r : Fin 16384 → Fin 384 → ℝ, ∀ t j, x (ix3 b t (Spec.c1 j)) = (r t j : EReal) :=
    ⟨fun t j => (x (ix3 b t (Spec.c1 j))).toReal, fun t j => (EReal.coe_toReal (hfin _).1 (hfin _).2).symm⟩
  have hS : Spec.sq1 x b = ((∑ t, ∑ j, r t j * r t j : ℝ) : EReal) := by
    unfold Spec.sq1
    simp only [hr, ← EReal.coe_mul, coe_sum₂]
  have hs : 0 ≤ ∑ t, ∑ j, r t j * r t j :=
    Finset.sum_nonneg fun t _ => Finset.sum_nonneg fun j _ => mul_self_nonneg _
  have key : Ideal.pow (Ideal.div (Spec.sq1 x b) Spec.n1 + Spec.eps) (Ideal.ofBits .f32 0xBF000000#32)
      = Ideal.rsqrt (Ideal.div (Spec.sq1 x b) Spec.n1 + Spec.eps) := by
    rw [n1_eq, expo_eq, heps]
    exact inv12_eq _ _ 2097152 e hS hs (by norm_num) he
  rw [v46_at, v38_at, G_seg1, key]

end Cert.RefValue

end
-- ==== Proof.RefSeg2.lean ====
/-
  Segment 2 of the reference (columns 640–959: 64 features of 5 components), stage by stage at coordinates: the
  squares summed over a feature's 5 components and then over rows and features — which is the sum of the squares over
  rows and the segment's 320 columns, column 5n + d being component d of feature n —, the power
  (that sum / 2^20 + ε)^(−1/2), and the result x·power·w[384 + j/5] at column j of the segment.
-/
import proofs.«127636_j91010357002261_1_alg».proof.Proof.Gen.ReferenceIdeal.Read
import proofs.«127636_j91010357002261_1_alg».proof.Proof.Spec
import proofs.«127636_j91010357002261_1_alg».proof.Proof.LibTrailingReduce
import proofs.«127636_j91010357002261_1_alg».proof.Proof.LibVarianceReals

noncomputable section

open scoped BigOperators

namespace Cert.RefValue

open Idealize.ShloMosaic Idealize.ShloMosaic.ValueIdx Cert.ReferenceIdeal Cert.ReferenceIdeal.Read

/-- Column 5n + d of segment 2: component d of feature n. -/
def col2 (n : Fin 64) (d : Fin 5) : Fin 320 := ⟨5 * n.val + d.val, by omega⟩

theorem col2_eq (n : Fin 64) (d : Fin 5) : col2 n d = (finProdFinEquiv (n, d) : Fin (64 * 5)) :=
  Fin.ext (by show 5 * n.val + d.val = d.val + 5 * n.val; omega)

/-- A squared entry of segment 2, by feature and component. -/
theorem v49_at (x : Spec.SX.Idx → EReal) (b : Fin 4) (t : Fin 16384) (n : Fin 64) (d : Fin 5) :
    val_main_v49 (F := Ideal) x (ix4 b t n d)
      = x (ix3 b t (Spec.c2 (col2 n d))) * x (ix3 b t (Spec.c2 (col2 n d))) := by
  have e : idx_main_v47 (idx_main_v48 (ix4 b t n d)) = ix3 b t (Spec.c2 (col2 n d)) := by
    have hb := b.isLt; have ht := t.isLt; have hn := n.isLt; have hd := d.isLt
    funext a
    match a with
    | ⟨0, _⟩ => exact Fin.ext (by show (((b.val * 16384 + t.val) * 64 + n.val) * 5 + d.val) / 5242880 = b.val; omega)
    | ⟨1, _⟩ => exact Fin.ext (by show (((b.val * 16384 + t.val) * 64 + n.val) * 5 + d.val) / 320 % 16384 = t.val; omega)
    | ⟨2, _⟩ => exact Fin.ext (by show 640 + (((b.val * 16384 + t.val) * 64 + n.val) * 5 + d.val) % 320 = 640 + (5 * n.val + d.val); omega)
  rw [val_main_v49_apply, val_main_v48_apply, val_main_v47_apply, e]
  rfl

/-- The squares of a feature's five components, summed. -/
theorem v50_at (x : Spec.SX.Idx → EReal) (b : Fin 4) (t : Fin 16384) (n : Fin 64) :
    val_main_v50 (F := Ideal) x (ix3 b t n)
      = ∑ d : Fin 5, x (ix3 b t (Spec.c2 (col2 n d))) * x (ix3 b t (Spec.c2 (col2 n d))) := by
  rw [val_main_v50_apply, val_main_cst_10_apply, Ideal.ofBits_def, Ideal.ofBits_zero_f32, zero_add]
  refine Finset.sum_congr rfl fun d _ => ?_
  have e : idx_main_v50 (ix3 b t n) d = ix4 b t n d := by
    funext a; match a with | ⟨0, _⟩ => rfl | ⟨1, _⟩ => rfl | ⟨2, _⟩ => rfl | ⟨3, _⟩ => rfl
  rw [e, v49_at]

/-- The sum of the squares of segment 2 of batch entry b. -/
theorem v51_at (x : Spec.SX.Idx → EReal) (b : Fin 4) :
    val_main_v51 (F := Ideal) x (ix1 b) = Spec.sq2 x b := by
  unfold val_main_v51 Spec.sq2
  refine (hostReduceAdd_trailing _ _ _ b).trans ?_
  rw [val_main_cst_11_apply, Ideal.ofBits_def, Ideal.ofBits_zero_f32, zero_add]
  refine Finset.sum_congr rfl fun t _ => ?_
  simp only [v50_at, col2_eq]
  exact (sum_groups 64 5 fun j : Fin (64 * 5) => x (ix3 b t (Spec.c2 j)) * x (ix3 b t (Spec.c2 j))).symm

/-- The power (sum of squares / 2^20 + ε)^(−1/2). -/
theorem v58_at (x : Spec.SX.Idx → EReal) (b : Fin 4) :
    val_main_v58 (F := Ideal) x (ix3 b 0 0)
      = Ideal.pow (Ideal.div (Spec.sq2 x b) Spec.n2 + Spec.eps) (Ideal.ofBits .f32 0xBF000000#32) := by
  rw [val_main_v58_apply, val_main_v56_apply, val_main_v54_apply, val_main_v53_apply, val_main_v52_apply,
    val_main_cst_12_apply, val_main_v55_apply, val_main_cst_13_apply, val_main_v57_apply, val_main_cst_14_apply]
  have e : idx_main_v54 (ix3 b (0 : Fin 1) (0 : Fin 1)) = ix1 b := by
    funext a; match a with | ⟨0, _⟩ => rfl
  rw [e, v51_at]
  rfl

/-- A result entry of segment 2. -/
theorem v66_at (x : Spec.SX.Idx → EReal) (w : Spec.SW.Idx → EReal) (b : Fin 4) (t : Fin 16384) (j : Fin 320) :
    val_main_v66 (F := Ideal) x w (ix3 b t j)
      = x (ix3 b t (Spec.c2 j)) * val_main_v58 (F := Ideal) x (ix3 b 0 0)
          * w (ix1 (⟨384 + j.val / 5, by omega⟩ : Fin 448)) := by
  have hb := b.isLt; have ht := t.isLt; have hj := j.isLt
  have e46 : idx_main_v66 (ix3 b t j) = ix4 b t (⟨j.val / 5, by omega⟩ : Fin 64) (⟨j.val % 5, by omega⟩ : Fin 5) := by
    funext a
    match a with
    | ⟨0, _⟩ => exact Fin.ext (by show ((b.val * 16384 + t.val) * 320 + j.val) / 5242880 = b.val; omega)
    | ⟨1, _⟩ => exact Fin.ext (by show ((b.val * 16384 + t.val) * 320 + j.val) / 320 % 16384 = t.val; omega)
    | ⟨2, _⟩ => exact Fin.ext (by show ((b.val * 16384 + t.val) * 320 + j.val) / 5 % 64 = j.val / 5; omega)
    | ⟨3, _⟩ => exact Fin.ext (by show ((b.val * 16384 + t.val) * 320 + j.val) % 5 = j.val % 5; omega)
  have e41 : idx_main_v61 (ix4 b t (⟨j.val / 5, by omega⟩ : Fin 64) (⟨j.val % 5, by omega⟩ : Fin 5)) = ix3 b t j := by
    funext a
    match a with
    | ⟨0, _⟩ => exact Fin.ext (by show (((b.val * 16384 + t.val) * 64 + j.val / 5) * 5 + j.val % 5) / 5242880 = b.val; omega)
    | ⟨1, _⟩ => exact Fin.ext (by show (((b.val * 16384 + t.val) * 64 + j.val / 5) * 5 + j.val % 5) / 320 % 16384 = t.val; omega)
    | ⟨2, _⟩ => exact Fin.ext (by show (((b.val * 16384 + t.val) * 64 + j.val / 5) * 5 + j.val % 5) % 320 = j.val; omega)
  have e27 : idx_main_v47 (ix3 b t j) = ix3 b t (Spec.c2 j) := by
    funext a; match a with | ⟨0, _⟩ => rfl | ⟨1, _⟩ => rfl | ⟨2, _⟩ => rfl
  have e39 : idx_main_v59 (ix3 b t j) = ix3 b (0 : Fin 1) (0 : Fin 1) := by
    funext a; match a with | ⟨0, _⟩ => rfl | ⟨1, _⟩ => rfl | ⟨2, _⟩ => rfl
  have e44 : idx_main_v62 (idx_main_v63 (idx_main_v64 (ix4 b t (⟨j.val / 5, by omega⟩ : Fin 64) (⟨j.val % 5, by omega⟩ : Fin 5))))
      = ix1 (⟨384 + j.val / 5, by omega⟩ : Fin 448) := by
    funext a; match a with | ⟨0, _⟩ => rfl
  rw [val_main_v66_apply, e46, val_main_v65_apply, val_main_v61_apply, e41, val_main_v60_apply, val_main_v47_apply, e27,
    val_main_v59_apply, e39, val_main_v64_apply, val_main_v63_apply, val_main_v62_apply, e44]
  rfl

end Cert.RefValue

end
-- ==== Proof.RefEq2.lean ====
/-
  Segment 2: with every entry of the array finite, the reference's entry at column 640 + j is the specification's.
  The sum of squares is a nonnegative real, so the argument of the power is a real at least ε > 0, where the power
  with exponent −1/2 is the reciprocal square root; the other factors are the same on both sides in the same order.
-/
import proofs.«127636_j91010357002261_1_alg».proof.Proof.RefSeg2
import proofs.«127636_j91010357002261_1_alg».proof.Proof.RefConsts
import proofs.«127636_j91010357002261_1_alg».proof.Proof.LibVarianceReals

noncomputable section

open scoped BigOperators

namespace Cert.RefValue

open Idealize.ShloMosaic Idealize.ShloMosaic.ValueIdx Cert.ReferenceIdeal Cert.ReferenceIdeal.Read

/-- The specification at column 640 + j (segment 2), unfolded. -/
theorem G_seg2 (x : Spec.SX.Idx → EReal) (w : Spec.SW.Idx → EReal) (bias : Spec.SB.Idx → EReal)
    (b : Fin 4) (t : Fin 16384) (j : Fin 320) :
    Spec.G x w bias (ix3 b t (Spec.c2 j))
      = x (ix3 b t (Spec.c2 j)) * Ideal.rsqrt (Ideal.div (Spec.sq2 x b) Spec.n2 + Spec.eps)
          * w (ix1 (⟨384 + j.val / 5, by omega⟩ : Fin 448)) := by
  have hj := j.isLt
  unfold Spec.G Spec.norm Spec.normc
  rw [dif_neg (show ¬ (Spec.c2 j).val < 256 by show ¬ 640 + j.val < 256; omega),
    dif_neg (show ¬ (Spec.c2 j).val < 640 by show ¬ 640 + j.val < 640; omega)]
  show x (ix3 b t (Spec.c2 j)) * Ideal.rsqrt (Ideal.div (Spec.sq2 x b) Spec.n2 + Spec.eps)
      * w (ix1 (⟨384 + (640 + j.val - 640) / 5, _⟩ : Fin 448)) = _
  simp only [Nat.add_sub_cancel_left]

theorem seg2_eq (x : Spec.SX.Idx → EReal) (w : Spec.SW.Idx → EReal) (bias : Spec.SB.Idx → EReal)
    (hfin : ∀ i, x i ≠ ⊤ ∧ x i ≠ ⊥) (b : Fin 4) (t : Fin 16384) (j : Fin 320) :
    val_main_v66 (F := Ideal) x w (ix3 b t j) = Spec.G x w bias (ix3 b t (Spec.c2 j)) := by
  obtain ⟨e, he, heps⟩ := eps_pos
  obtain ⟨r, hr⟩ : ∃ r : Fin 16384 → Fin 320 → ℝ, ∀ t j, x (ix3 b t (Spec.c2 j)) = (r t j : EReal) :=
    ⟨fun t j => (x (ix3 b t (Spec.c2 j))).toReal, fun t j => (EReal.coe_toReal (hfin _).1 (hfin _).2).symm⟩
  have hS : Spec.sq2 x b = ((∑ t, ∑ j, r t j * r t j : ℝ) : EReal) := by
    unfold Spec.sq2
    simp only [hr, ← EReal.coe_mul, coe_sum₂]
  have hs : 0 ≤ ∑ t, ∑ j, r t j * r t j :=
    Finset.sum_nonneg fun t _ => Finset.sum_nonneg fun j _ => mul_self_nonneg _
  have key : Ideal.pow (Ideal.div (Spec.sq2 x b) Spec.n2 + Spec.eps) (Ideal.ofBits .f32 0xBF000000#32)
      = Ideal.rsqrt (Ideal.div (Spec.sq2 x b) Spec.n2 + Spec.eps) := by
    rw [n2_eq, expo_eq, heps]
    exact inv12_eq _ _ 1048576 e hS hs (by norm_num) he
  rw [v66_at, v58_at, G_seg2, key]

end Cert.RefValue

end
-- ==== Proof.RefRun.lean ====
/-
  The reference's result is the specification: the result array is the three segments' results laid side by side
  along the last axis (columns 0–255, 256–639, 640–959), each of which is the specification's entry when every entry
  of the argument array is finite; and the reference's run ends with that array, the arguments unchanged.
-/
import proofs.«127636_j91010357002261_1_alg».proof.Proof.RefEq0
import proofs.«127636_j91010357002261_1_alg».proof.Proof.RefEq1
import proofs.«127636_j91010357002261_1_alg».proof.Proof.RefEq2
import proofs.«127636_j91010357002261_1_alg».proof.Proof.Gen.ReferenceIdeal.Run
import proofs.«127636_j91010357002261_1_alg».proof.Proof.Gen.ReferenceIdeal.Read

noncomputable section

open scoped BigOperators

namespace Cert.RefValue

open Idealize.ShloMosaic Idealize.ShloMosaic.ValueIdx Cert.ReferenceIdeal Cert.ReferenceIdeal.Read

open Idealize.SL.Sem

/-- Left of column 256 the result is segment 0's. -/
theorem cat0 (x : Spec.SX.Idx → EReal) (w : Spec.SW.Idx → EReal) (bias : Spec.SB.Idx → EReal)
    (b : Fin 4) (t : Fin 16384) (c : Fin 960) (hc : c.val < 256) :
    val_main_v67 (F := Ideal) x w bias (ix3 b t c)
      = val_main_v26 (F := Ideal) x w bias (ix3 b t (⟨c.val, hc⟩ : Fin 256)) := by
  unfold val_main_v67
  refine concatenate_apply_piece (α := EReal) (t := S4x16384x960) (2 : Fin 3)
    [⟨S4x16384x256, val_main_v26 (F := Ideal) x w bias⟩, ⟨S4x16384x384, val_main_v46 (F := Ideal) x w⟩,
      ⟨S4x16384x320, val_main_v66 (F := Ideal) x w⟩] _ (ix3 b t c) 0 ?_ S4x16384x256 _ rfl rfl 0 rfl
    (ix3 b t (⟨c.val, hc⟩ : Fin 256)) ?_ ?_
  · show 0 < 3
    omega
  · intro b' hb'
    match b' with
    | ⟨0, _⟩ => rfl
    | ⟨1, _⟩ => rfl
    | ⟨2, _⟩ => exact absurd (Fin.ext rfl) hb'
  · show 0 + c.val = c.val
    omega

/-- From column 256 to 639 it is segment 1's, at the column less 256. -/
theorem cat1 (x : Spec.SX.Idx → EReal) (w : Spec.SW.Idx → EReal) (bias : Spec.SB.Idx → EReal)
    (b : Fin 4) (t : Fin 16384) (c : Fin 960) (hlo : 256 ≤ c.val) (hc : c.val < 640) :
    val_main_v67 (F := Ideal) x w bias (ix3 b t c)
      = val_main_v46 (F := Ideal) x w (ix3 b t (⟨c.val - 256, by omega⟩ : Fin 384)) := by
  unfold val_main_v67
  refine concatenate_apply_piece (α := EReal) (t := S4x16384x960) (2 : Fin 3)
    [⟨S4x16384x256, val_main_v26 (F := Ideal) x w bias⟩, ⟨S4x16384x384, val_main_v46 (F := Ideal) x w⟩,
      ⟨S4x16384x320, val_main_v66 (F := Ideal) x w⟩] _ (ix3 b t c) 1 ?_ S4x16384x384 _ rfl rfl 256 rfl
    (ix3 b t (⟨c.val - 256, by omega⟩ : Fin 384)) ?_ ?_
  · show 1 < 3
    omega
  · intro b' hb'
    match b' with
    | ⟨0, _⟩ => rfl
    | ⟨1, _⟩ => rfl
    | ⟨2, _⟩ => exact absurd (Fin.ext rfl) hb'
  · show 256 + (c.val - 256) = c.val
    omega

/-- From column 640 on it is segment 2's, at the column less 640. -/
theorem cat2 (x : Spec.SX.Idx → EReal) (w : Spec.SW.Idx → EReal) (bias : Spec.SB.Idx → EReal)
    (b : Fin 4) (t : Fin 16384) (c : Fin 960) (hlo : 640 ≤ c.val) :
    val_main_v67 (F := Ideal) x w bias (ix3 b t c)
      = val_main_v66 (F := Ideal) x w (ix3 b t (⟨c.val - 640, by have := c.isLt; omega⟩ : Fin 320)) := by
  unfold val_main_v67
  refine concatenate_apply_piece (α := EReal) (t := S4x16384x960) (2 : Fin 3)
    [⟨S4x16384x256, val_main_v26 (F := Ideal) x w bias⟩, ⟨S4x16384x384, val_main_v46 (F := Ideal) x w⟩,
      ⟨S4x16384x320, val_main_v66 (F := Ideal) x w⟩] _ (ix3 b t c) 2 ?_ S4x16384x320 _ rfl rfl 640 rfl
    (ix3 b t (⟨c.val - 640, by have := c.isLt; omega⟩ : Fin 320)) ?_ ?_
  · show 2 < 3
    omega
  · intro b' hb'
    match b' with
    | ⟨0, _⟩ => rfl
    | ⟨1, _⟩ => rfl
    | ⟨2, _⟩ => exact absurd (Fin.ext rfl) hb'
  · show 640 + (c.val - 640) = c.val
    omega

/-- The reference's result term is the specification of the three argument arrays, when the first is finite. -/
theorem ref_value (x : Spec.SX.Idx → EReal) (w : Spec.SW.Idx → EReal) (bias : Spec.SB.Idx → EReal)
    (hfin : ∀ i, x i ≠ ⊤ ∧ x i ≠ ⊥) :
    val_main_v67 (F := Ideal) x w bias = Spec.G x w bias := by
  funext i
  obtain ⟨b, t, c, rfl⟩ : ∃ (b : Fin 4) (t : Fin 16384) (c : Fin 960), i = ix3 b t c := ⟨i 0, i 1, i 2, eq_ix3 i⟩
  have hc := c.isLt
  by_cases h0 : c.val < 256
  · rw [cat0 x w bias b t c h0, seg0_eq x w bias hfin]
  · by_cases h1 : c.val < 640
    · have e : Spec.c1 (⟨c.val - 256, by omega⟩ : Fin 384) = c := Fin.ext (by show 256 + (c.val - 256) = c.val; omega)
      rw [cat1 x w bias b t c (by omega) h1, seg1_eq x w bias hfin, e]
    · have e : Spec.c2 (⟨c.val - 640, by omega⟩ : Fin 320) = c := Fin.ext (by show 640 + (c.val - 640) = c.val; omega)
      rw [cat2 x w bias b t c (by omega), seg2_eq x w bias hfin, e]

/-- The reference runs, and ends with its result array the specification of its argument arrays and the arguments
    unchanged, from every memory whose first argument array is finite. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hfin : ∀ (c : Dev Cert.ReferenceIdeal.nD) (i : Cert.Spec.SX.Idx),
      @Ne EReal (m' ((c.tc : Thread Cert.ReferenceIdeal.nD Cert.ReferenceIdeal.τ).loc Cert.ReferenceIdeal.main_arg0) i) ⊤
      ∧ @Ne EReal (m' ((c.tc : Thread Cert.ReferenceIdeal.nD Cert.ReferenceIdeal.τ).loc Cert.ReferenceIdeal.main_arg0) i) ⊥) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v67)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v67_eq m' c).trans (ref_value _ _ _ (hfin c))), (h c).2⟩)
    (Cert.ReferenceIdeal.Value.run (F := Ideal) m' ρ')

end Cert.RefValue

end
-- ==== Proof.RefFinite.lean ====
/-
  From the precondition to finiteness: the predicate is the conjunction of three "every entry has absolute value
  below +∞"; its first conjunct says that every entry of the first argument array is neither +∞ nor −∞ (the
  extended reals' −∞ has absolute value +∞, and so has +∞).
-/
import proofs.«127636_j91010357002261_1_alg».proof.Pre_finite_inputs
import Idealize.ShloMosaic.PureOps.Ideal
import Idealize.ShloMosaic.Lib.ReduceAll
import Idealize.ShloMosaic.Lib.ValueIdx

noncomputable section

namespace Cert.RefValue

open Idealize.ShloMosaic

/-- The scalar shape has one index. -/
instance subsingleton_scalar_idx : Subsingleton Cert.Pre_finite_inputs.S_.Idx := ⟨fun a b => funext fun d => d.elim0⟩

/-- The word 0x7F800000 denotes +∞. -/
theorem ofBits_inf : Ideal.ofBits .f32 0x7F800000#32 = ⊤ := by simp [Ideal.ofBits, Ideal.ieee]

/-- An extended real whose absolute value max(a, −a) is below +∞ is neither infinity. -/
theorem finite_of_abs_lt_top {a : EReal} (h : max a (-a) < ⊤) : a ≠ ⊤ ∧ a ≠ ⊥ := by
  constructor
  · intro e; rw [e] at h; simp at h
  · intro e; rw [e] at h; simp at h

theorem finite_of_pre [Cert.Pre_finite_inputs.Facts]
    (x : FVec Ideal Cert.Pre_finite_inputs.S4x16384x960 .f32) (w : FVec Ideal Cert.Pre_finite_inputs.S448 .f32)
    (b : FVec Ideal Cert.Pre_finite_inputs.S256 .f32)
    (h : Cert.Pre_finite_inputs.fn (F := Ideal) x w b = fun _ => 1#1) : ∀ i, x i ≠ ⊤ ∧ x i ≠ ⊥ := by
  intro i
  have h0 := congrFun h ValueIdx.ix0
  dsimp only [Cert.Pre_finite_inputs.fn] at h0
  obtain ⟨h1, _⟩ := IntOp.andi_eq_one.1 h0
  obtain ⟨h2, _⟩ := IntOp.andi_eq_one.1 h1
  have h3 := Host.reduce_andi_all _ _ _ _ _ h2 i
  have h4 : Ideal.cmp .olt (max (x i) (-(x i))) (Ideal.ofBits .f32 0x7F800000#32) = 1#1 := h3
  rw [ofBits_inf] at h4
  have h5 : BitVec.ofBool (decide (max (x i) (-(x i)) < ⊤)) = 1#1 := h4
  refine finite_of_abs_lt_top ?_
  cases hb : decide (max (x i) (-(x i)) < ⊤) with
  | true => exact of_decide_eq_true hb
  | false => rw [hb] at h5; exact absurd h5 (by decide)

end Cert.RefValue

end
-- ==== Proof.lean ====
/-
  The certificate of a per-irrep batch normalisation.  Both programs compute, from x : [4, 16384, 960], 448
  per-feature weights and 256 biases, the array G (Proof/Spec.lean): per batch entry, segment 0 (columns 0–255) is
  centred by its mean and scaled by (variance + ε)^(−1/2), segments 1 and 2 (columns 256–639 and 640–959) are scaled
  by (mean square per feature + ε)^(−1/2); then every column is multiplied by its feature's weight and segment 0
  gets its bias.
  The kernel program is two kernels: the first accumulates, over four row tiles per batch entry, the sum and the sum
  of squares of segment 0 and the sums of squares of segments 1 and 2; host operations turn these into the mean and
  the three reciprocal square roots (the variance as mean square − mean²); the second kernel normalises block by block.
  The reference centres first and takes the mean of (x − mean)², and raises to the power −1/2.  The two agree on
  finite inputs: all sums are then real, Σ(x − μ)²/N = Σx²/N − μ² for μ = Σx/N over exactly N summands, the radicand
  is a real ≥ ε > 0, where r^(−1/2) = 1/√r, and sums may be regrouped freely.  Every frame is the run with its value
  forgotten; the idealization rewrote nothing.
-/
import proofs.«127636_j91010357002261_1_alg».proof.Defs
import proofs.«127636_j91010357002261_1_alg».proof.Proof.Gen.Kernel
import proofs.«127636_j91010357002261_1_alg».proof.Proof.Gen.KernelIdeal
import proofs.«127636_j91010357002261_1_alg».proof.Proof.Gen.ReferenceIdeal
import proofs.«127636_j91010357002261_1_alg».proof.Proof.Gen.Pre_finite_inputs
import proofs.«127636_j91010357002261_1_alg».proof.Proof.Gen.ReferenceIdeal.Run
import proofs.«127636_j91010357002261_1_alg».proof.Proof.Gen.ReferenceIdeal.Read
import proofs.«127636_j91010357002261_1_alg».proof.Proof.K.Run
import proofs.«127636_j91010357002261_1_alg».proof.Proof.KI.Whole
import proofs.«127636_j91010357002261_1_alg».proof.Proof.RefRun
import proofs.«127636_j91010357002261_1_alg».proof.Proof.RefFinite
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel [Cert.Kernel.Facts] [Cert.Pre_finite_inputs.Facts] : Cert.frame_Kernel :=
  fun m g _ => Cert.Kernel.Run.frame (F := Bits) m g

/-- So does the idealized kernel program. -/
theorem frame_kernelIdeal [Cert.KernelIdeal.Facts] [Cert.Pre_finite_inputs.Facts] : Cert.frame_KernelIdeal :=
  fun m g _ => Cert.KernelIdeal.Run.frame (F := Ideal) m g

/-- The reference's frame is its run with the result forgotten. -/
theorem frame_reference [Cert.ReferenceIdeal.Facts] [Cert.Pre_finite_inputs.Facts] : Cert.frame_ReferenceIdeal :=
  fun m g _ => (θ_run Cert.ReferenceIdeal.defs _ _).mono (fun _ h c => (h c).2) (Cert.ReferenceIdeal.Value.run (F := Ideal) m g)

/-- Both idealized programs end with G of the (agreeing, finite) argument arrays. -/
theorem algebraic [Cert.KernelIdeal.Facts] [Cert.ReferenceIdeal.Facts] [Cert.Pre_finite_inputs.Facts] :
    Cert.algebraic_KernelIdeal_ReferenceIdeal := by
  intro m g m' g' hpre hagree
  refine ⟨_, Cert.KernelIdeal.Whole.run m g, ?_⟩
  exact (θ_run Cert.ReferenceIdeal.defs _ _).mono
    (fun r h c => ⟨(h c).1.trans (by rw [(hagree c).1, (hagree c).2.1, (hagree c).2.2]), (h c).2⟩)
    (Cert.RefValue.ref_run m' g' (fun c i => by rw [(hagree c).1]; exact Cert.RefValue.finite_of_pre _ _ _ (hpre c) i))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
